-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S64x128 : Shape := ⟨2, ![64, 128]⟩
abbrev S1024x512 : Shape := ⟨2, ![1024, 512]⟩
abbrev S512x512 : Shape := ⟨2, ![512, 512]⟩
abbrev S8x128 : Shape := ⟨2, ![8, 128]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 29
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S64x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S8x128, .f32⟩
  | .local _ .vmem, ⟨5, _⟩ => ⟨S8x128, .f32⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S8x128, .f32⟩
  | .local _ .vmem, ⟨11, _⟩ => ⟨S8x128, .f32⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | .local _ .vmem, ⟨16, _⟩ => ⟨S8x128, .f32⟩
  | .local _ .vmem, ⟨17, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_cst_7 : Ref sig .tc := ⟨.hbm, 23, rfl⟩
abbrev main_v13 : Ref sig .tc := ⟨.hbm, 24, rfl⟩
abbrev main_v14 : Ref sig .tc := ⟨.hbm, 25, rfl⟩
abbrev main_cst_8 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  reduces_S512x512_S512 : S512x512.Reduces [1] S512
  shapeCasts_S512_S512x1 : S512.ShapeCasts S512x1
  transposes_S512x512_p1_0_S512x512 : S512x512.Transposes [1, 0] S512x512
  transposes_S512x1_p1_0_S1x512 : S512x1.Transposes [1, 0] S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x1_S1 : S1024x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S64x128_S_d0_1 : S64x128.ReducesTo [0, 1] S_
  h_S_ : 0 < S_.numel
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x128.size a
  hwx1_2 : ∀ i : grid1.Coords, EltTy.bits .f32 = 32 ∨ (Rect.block (s := S64x128) S8x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S8192x512.size a
  hwx2_1 : ∀ i : grid2.Coords, EltTy.bits .bf16 = 32 ∨ (Rect.block (s := S8192x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S64x128.size a
  hwx2_2 : ∀ i : grid2.Coords, EltTy.bits .f32 = 32 ∨ (Rect.block (s := S64x128) S8x128.size (cc2_transform_2 i) (hinb2_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S512x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S1x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S512x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_18 : Ref sig .tc := ⟨.hbm, 86, rfl⟩
abbrev main_v65 : Ref sig .tc := ⟨.hbm, 87, rfl⟩
abbrev main_cst_19 : Ref sig .tc := ⟨.hbm, 88, rfl⟩
abbrev main_v66 : Ref sig .tc := ⟨.hbm, 89, rfl⟩
abbrev main_cst_20 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KBRun0.lean ====
/-
  The body of pallas_call 0 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.Gen.Kernel.Skeleton
import proofs.«165426_j87875030876301_2_alg».proof.Proof.Gen.Kernel.Launch
import proofs.«165426_j87875030876301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond0 (i : grid0.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond0 : ∀ t : Fin cfg0.N, cond0 (grid0.coords t) ↔ t.val % 16 = 0 :=
  (by decide +kernel : ∀ t : Fin grid0.N, cond0 (grid0.coords t) ↔ t.val % 16 = 0)

/-- One staging buffer of the output window, through which its contents are stated. -/
abbrev VO0 : View sig .tc .vmem S8x128 .f32 := (Memref.whole cc0_stg2_0 : Memref sig .tc .vmem S8x128 .f32).view
/-- Each window's current staging memref at point t, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

set_option maxHeartbeats 4000000 in
/-- The case j = 0: the output buffer at anything; the pieces are the zero store and then the sum store. -/
noncomputable def kernelRun0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBDat0.lean ====
/-
  What pallas_call 0's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
  The two input windows read one array; the array's full share is split in two halves, one per window.
-/
import proofs.«165426_j87875030876301_2_alg».proof.Proof.KBRun0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The stores of the case j = 0 tile the output block. -/
theorem cover0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) (y : S8x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S8x128.size (by sl_kernel_rfl) y

/-- What the case j = 0 leaves in the output buffer. -/
def out0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) : Vec F S8x128 .f32 :=
  VO0.read (Elt F) (VO0.writes (Elt F) VO0.junk (kernelRun0_A c i arg2 harg2 arg3 harg3 arg4 harg4 hc0 x0 x1).1)

/-- The store of the case j ≠ 0 tiles the output block. -/
theorem cover0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) (y : S8x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S8x128.size (by sl_kernel_rfl) y

/-- What the case j ≠ 0 leaves in the output buffer, over what it found there. -/
def out0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) : Vec F S8x128 .f32 :=
  VO0.read (Elt F) (VO0.writes (Elt F) VO0.junk (kernelRun0_B c i arg2 harg2 arg3 harg3 arg4 harg4 hc0 x0 x1 xo).1)

/-- The accumulation: what the output's staging buffer holds after the body at position n. -/
def outsAt0 (c : Dev nD) : (n : ℕ) → n < cfg0.N → Vec F S8x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 16 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 16 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point with j ≠ 0 the output's buffer holds what the body left at the point before: the buffer was not
    written back between. -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val % 16 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KBRun1.lean ====
/-
  The body of pallas_call 1 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.KBRun0
import proofs.«165426_j87875030876301_2_alg».proof.Proof.Gen.Kernel.Skeleton
import proofs.«165426_j87875030876301_2_alg».proof.Proof.Gen.Kernel.Launch
import proofs.«165426_j87875030876301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond1 (i : grid1.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond1 : ∀ t : Fin cfg1.N, cond1 (grid1.coords t) ↔ t.val % 16 = 0 :=
  (by decide +kernel : ∀ t : Fin grid1.N, cond1 (grid1.coords t) ↔ t.val % 16 = 0)

/-- One staging buffer of the output window, through which its contents are stated. -/
abbrev VO1 : View sig .tc .vmem S8x128 .f32 := (Memref.whole cc1_stg2_0 : Memref sig .tc .vmem S8x128 .f32).view
/-- Each window's current staging memref at point t, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)

set_option maxHeartbeats 4000000 in
/-- The case j = 0: the output buffer at anything; the pieces are the zero store and then the sum store. -/
noncomputable def kernelRun1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBDat1.lean ====
/-
  What pallas_call 1's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
  The two input windows read one array; the array's full share is split in two halves, one per window.
-/
import proofs.«165426_j87875030876301_2_alg».proof.Proof.KBRun1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The stores of the case j = 0 tile the output block. -/
theorem cover1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) (y : S8x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S8x128.size (by sl_kernel_rfl) y

/-- What the case j = 0 leaves in the output buffer. -/
def out1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) : Vec F S8x128 .f32 :=
  VO1.read (Elt F) (VO1.writes (Elt F) VO1.junk (kernelRun1_A c i arg2 harg2 arg3 harg3 arg4 harg4 hc0 x0 x1).1)

/-- The store of the case j ≠ 0 tiles the output block. -/
theorem cover1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) (y : S8x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S8x128.size (by sl_kernel_rfl) y

/-- What the case j ≠ 0 leaves in the output buffer, over what it found there. -/
def out1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) : Vec F S8x128 .f32 :=
  VO1.read (Elt F) (VO1.writes (Elt F) VO1.junk (kernelRun1_B c i arg2 harg2 arg3 harg3 arg4 harg4 hc0 x0 x1 xo).1)

/-- The accumulation: what the output's staging buffer holds after the body at position n. -/
def outsAt1 (c : Dev nD) : (n : ℕ) → n < cfg1.N → Vec F S8x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 16 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 16 = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with j ≠ 0 the output's buffer holds what the body left at the point before: the buffer was not
    written back between. -/
theorem before1_2_B (c : Dev nD) (t : Fin cfg1.N) (h0 : ¬t.val % 16 = 0) (d) :
    (dat1 V c).before 2 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 128 := lt_of_lt_of_eq t.isLt (show cfg1.N = 128 from N_1)
  by_cases h0 : t.val % 16 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KBShare.lean ====
/-
  Splitting one array between two input windows.

  In pallas_calls 0 and 1 both input windows read the same array. The pipeline holds each window's array at a share;
  here the array's full share is cut into its two halves, one per window, when the region is entered, and the halves
  are joined again when it is left (both windows end holding the array at the contents they found: inputs are only
  read). The output array is held whole.
-/
import proofs.«165426_j87875030876301_2_alg».proof.Proof.KBDat0
import proofs.«165426_j87875030876301_2_alg».proof.Proof.KBDat1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.SL.BI (bigSep_insert bigSep_congr)
open PCS

/-- The full share is its left half composed with its right half. -/
theorem full_split : (fullShare : PosShare TreeShare) ∈ (fullShare : PosShare TreeShare).left ·? (fullShare : PosShare TreeShare).right := by
  rw [PosShare.left_op_right]; exact Part.mem_some _

section Region
variable (V : (c : Dev nD) → (b : Ref sig .tc) → Buf (Elt F) ((c : Thread nD τ).loc b))

/-! ## pallas_call 0: both input windows read `main_v0`, the output window writes `main_v2` -/

theorem image_arr0 : Finset.univ.image (Pipeline.arrRef spec0) = {main_v0, main_v2} := by decide

/-- The pipeline's arrays, window by window: the input array at one half share per input window, the output array
    at the full share. -/
theorem arrays_form0 (c : Dev nD) (F : (w : Fin cfg0.W) → Buf (Elt F) ((cfg0.win w).arr.view.loc (c.tc : Thread nD τ))) :
    (dat0 V c).arrays F = iprop((((c.tc : Thread nD τ).loc main_v0) ↦{fullShare.left} F 0 : sProp 𝕄)
      ∗ (((c.tc : Thread nD τ).loc main_v0) ↦{fullShare.right} F 1) ∗ (((c.tc : Thread nD τ).loc main_v2) ↦{fullShare} F 2)) := by
  unfold Dat.arrays
  rw [bigSep_W0, (arr_whole0 0).set_eq_univ, (arr_whole0 2).set_eq_univ]
  rfl

/-- The distinct buffers behind the arrays are two: the input array and the output array. -/
theorem arrBufs_form0 (c : Dev nD) (W : (b : Ref sig .tc) → Buf (Elt F) ((c.tc : Thread nD τ).loc b)) :
    (Pipeline.arrBufs spec0 c W : sProp 𝕄) = iprop((((c.tc : Thread nD τ).loc main_v0) ↦{fullShare} W main_v0 : sProp 𝕄)
      ∗ (((c.tc : Thread nD τ).loc main_v2) ↦{fullShare} W main_v2)) := by
  unfold Pipeline.arrBufs
  rw [image_arr0, bigSep_insert (by decide), BI.bigSep_singleton]; rfl

/-- The distinct buffers behind the arrays, each whole at the full share, make the pipeline's arrays at the same
    contents: the input array's full share splits into its two halves. -/
theorem arrays_of_arrBufs0 (c : Dev nD) (W : (b : Ref sig .tc) → Buf (Elt F) ((c.tc : Thread nD τ).loc b))
    (F : (w : Fin cfg0.W) → Buf (Elt F) ((cfg0.win w).arr.view.loc (c.tc : Thread nD τ))) (hF : ∀ w, F w = W (Pipeline.arrRef spec0 w)) :
    (Pipeline.arrBufs spec0 c W : sProp 𝕄) ⊢ (dat0 V c).arrays F := by
  rw [arrays_form0, hF 0, hF 1, hF 2]
  rw [arrBufs_form0]
  iintro ⟨H0, H2⟩
  ihave H0' := (pointsTo_share (ℓ := (c.tc : Thread nD τ).loc main_v0) full_split).1 $$ H0
  icases H0' with ⟨Ha, Hb⟩
  isplitl [Ha]; · iexact Ha
  isplitl [Hb]; · iexact Hb
  iexact H2

/-- And back: the arrays at contents that agree on the shared input array give the distinct buffers whole. -/
theorem arrBufs_of_arrays0 (c : Dev nD) (W : (b : Ref sig .tc) → Buf (Elt F) ((c.tc : Thread nD τ).loc b))
    (F : (w : Fin cfg0.W) → Buf (Elt F) ((cfg0.win w).arr.view.loc (c.tc : Thread nD τ))) (hF : ∀ w, F w = W (Pipeline.arrRef spec0 w)) :
    (dat0 V c).arrays F ⊢ (Pipeline.arrBufs spec0 c W : sProp 𝕄) := by
  rw [arrays_form0, hF 0, hF 1, hF 2]
  rw [arrBufs_form0]
  iintro ⟨Ha, Hb, H2⟩
  isplitl [Ha Hb]
  · iapply (pointsTo_share (ℓ := (c.tc : Thread nD τ).loc main_v0) full_split).2
    isplitl [Ha]; · iexact Ha
    iexact Hb
  iexact H2

/-- ENTRY: a core's unscoped buffers at contents W are the pipeline's arrays at entry and the unscoped rest. -/
theorem entry_arrays0 (c : Dev nD) (W : (b : Ref sig .tc) → Buf (Elt F) ((c.tc : Thread nD τ).loc b))
    (hA : ∀ w, (dat0 V c).A w = W (Pipeline.arrRef spec0 w)) :
    (unscopedBufs c W : sProp 𝕄) ⊢ iprop((dat0 V c).arrays ((dat0 V c).arrAt · 0) ∗ Pipeline.unscopedRest spec0 c W) := by
  rw [Pipeline.unscopedBufs_split₀ cfgs 0 winFacts₀0.arr_unscoped c W]
  exact sep_mono (arrays_of_arrBufs0 V c W _ fun w => by rw [show (dat0 V c).arrAt w 0 = (dat0 V c).A w from rfl, hA]) .rfl

/-- EXIT: the arrays at their final contents and the unscoped rest are the unscoped buffers at contents W', which
    holds the final contents at the arrays and agrees with W elsewhere. -/
theorem exit_arrays0 (c : Dev nD) (W W' : (b : Ref sig .tc) → Buf (Elt F) ((c.tc : Thread nD τ).loc b))
    (F : (w : Fin cfg0.W) → Buf (Elt F) ((cfg0.win w).arr.view.loc (c.tc : Thread nD τ))) (hF : ∀ w, F w = W' (Pipeline.arrRef spec0 w))
    (hrest : ∀ b, b ∉ Finset.univ.image (Pipeline.arrRef spec0) → W' b = W b) :
    iprop((dat0 V c).arrays F ∗ Pipeline.unscopedRest spec0 c W) ⊢ (unscopedBufs c W' : sProp 𝕄) := by
  rw [Pipeline.unscopedBufs_split₀ cfgs 0 winFacts₀0.arr_unscoped c W']
  refine sep_mono (arrBufs_of_arrays0 V c W' F hF) (Entails.of_eq ?_)
  unfold Pipeline.unscopedRest
  exact bigSep_congr fun b hb => by rw [hrest b (Finset.mem_sdiff.mp hb).2]

/-! ## pallas_call 1: both input windows read `main_v1`, the output window writes `main_v5` -/

theorem image_arr1 : Finset.univ.image (Pipeline.arrRef spec1) = {main_v1, main_v5} := by decide

/-- The pipeline's arrays, window by window: the input array at one half share per input window, the output array
    at the full share. -/
theorem arrays_form1 (c : Dev nD) (F : (w : Fin cfg1.W) → Buf (Elt F) ((cfg1.win w).arr.view.loc (c.tc : Thread nD τ))) :
    (dat1 V c).arrays F = iprop((((c.tc : Thread nD τ).loc main_v1) ↦{fullShare.left} F 0 : sProp 𝕄)
      ∗ (((c.tc : Thread nD τ).loc main_v1) ↦{fullShare.right} F 1) ∗ (((c.tc : Thread nD τ).loc main_v5) ↦{fullShare} F 2)) := by
  unfold Dat.arrays
  rw [bigSep_W1, (arr_whole1 0).set_eq_univ, (arr_whole1 2).set_eq_univ]
  rfl

/-- The distinct buffers behind the arrays are two: the input array and the output array. -/
theorem arrBufs_form1 (c : Dev nD) (W : (b : Ref sig .tc) → Buf (Elt F) ((c.tc : Thread nD τ).loc b)) :
    (Pipeline.arrBufs spec1 c W : sProp 𝕄) = iprop((((c.tc : Thread nD τ).loc main_v1) ↦{fullShare} W main_v1 : sProp 𝕄)
      ∗ (((c.tc : Thread nD τ).loc main_v5) ↦{fullShare} W main_v5)) := by
  unfold Pipeline.arrBufs
  rw [image_arr1, bigSep_insert (by decide), BI.bigSep_singleton]; rfl

/-- The distinct buffers behind the arrays, each whole at the full share, make the pipeline's arrays at the same
    contents: the input array's full share splits into its two halves. -/
theorem arrays_of_arrBufs1 (c : Dev nD) (W : (b : Ref sig .tc) → Buf (Elt F) ((c.tc : Thread nD τ).loc b))
    (F : (w : Fin cfg1.W) → Buf (Elt F) ((cfg1.win w).arr.view.loc (c.tc : Thread nD τ))) (hF : ∀ w, F w = W (Pipeline.arrRef spec1 w)) :
    (Pipeline.arrBufs spec1 c W : sProp 𝕄) ⊢ (dat1 V c).arrays F := by
  rw [arrays_form1, hF 0, hF 1, hF 2]
  rw [arrBufs_form1]
  iintro ⟨H0, H2⟩
  ihave H0' := (pointsTo_share (ℓ := (c.tc : Thread nD τ).loc main_v1) full_split).1 $$ H0
  icases H0' with ⟨Ha, Hb⟩
  isplitl [Ha]; · iexact Ha
  isplitl [Hb]; · iexact Hb
  iexact H2

/-- And back: the arrays at contents that agree on the shared input array give the distinct buffers whole. -/
theorem arrBufs_of_arrays1 (c : Dev nD) (W : (b : Ref sig .tc) → Buf (Elt F) ((c.tc : Thread nD τ).loc b))
    (F : (w : Fin cfg1.W) → Buf (Elt F) ((cfg1.win w).arr.view.loc (c.tc : Thread nD τ))) (hF : ∀ w, F w = W (Pipeline.arrRef spec1 w)) :
    (dat1 V c).arrays F ⊢ (Pipeline.arrBufs spec1 c W : sProp 𝕄) := by
  rw [arrays_form1, hF 0, hF 1, hF 2]
  rw [arrBufs_form1]
  iintro ⟨Ha, Hb, H2⟩
  isplitl [Ha Hb]
  · iapply (pointsTo_share (ℓ := (c.tc : Thread nD τ).loc main_v1) full_split).2
    isplitl [Ha]; · iexact Ha
    iexact Hb
  iexact H2

/-- ENTRY: a core's unscoped buffers at contents W are the pipeline's arrays at entry and the unscoped rest. -/
theorem entry_arrays1 (c : Dev nD) (W : (b : Ref sig .tc) → Buf (Elt F) ((c.tc : Thread nD τ).loc b))
    (hA : ∀ w, (dat1 V c).A w = W (Pipeline.arrRef spec1 w)) :
    (unscopedBufs c W : sProp 𝕄) ⊢ iprop((dat1 V c).arrays ((dat1 V c).arrAt · 0) ∗ Pipeline.unscopedRest spec1 c W) := by
  rw [Pipeline.unscopedBufs_split₀ cfgs 1 winFacts₀1.arr_unscoped c W]
  exact sep_mono (arrays_of_arrBufs1 V c W _ fun w => by rw [show (dat1 V c).arrAt w 0 = (dat1 V c).A w from rfl, hA]) .rfl

/-- EXIT: the arrays at their final contents and the unscoped rest are the unscoped buffers at contents W', which
    holds the final contents at the arrays and agrees with W elsewhere. -/
theorem exit_arrays1 (c : Dev nD) (W W' : (b : Ref sig .tc) → Buf (Elt F) ((c.tc : Thread nD τ).loc b))
    (F : (w : Fin cfg1.W) → Buf (Elt F) ((cfg1.win w).arr.view.loc (c.tc : Thread nD τ))) (hF : ∀ w, F w = W' (Pipeline.arrRef spec1 w))
    (hrest : ∀ b, b ∉ Finset.univ.image (Pipeline.arrRef spec1) → W' b = W b) :
    iprop((dat1 V c).arrays F ∗ Pipeline.unscopedRest spec1 c W) ⊢ (unscopedBufs c W' : sProp 𝕄) := by
  rw [Pipeline.unscopedBufs_split₀ cfgs 1 winFacts₀1.arr_unscoped c W']
  refine sep_mono (arrBufs_of_arrays1 V c W' F hF) (Entails.of_eq ?_)
  unfold Pipeline.unscopedRest
  exact bigSep_congr fun b hb => by rw [hrest b (Finset.mem_sdiff.mp hb).2]

end Region

end Cert.Kernel.Hand

end
-- ==== Proof.KBRun2.lean ====
/-
  The body of pallas_call 2 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.KBRun1
import proofs.«165426_j87875030876301_2_alg».proof.Proof.Gen.Kernel.Skeleton
import proofs.«165426_j87875030876301_2_alg».proof.Proof.Gen.Kernel.Launch
import proofs.«165426_j87875030876301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond2 (i : grid2.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond2 : ∀ t : Fin cfg2.N, cond2 (grid2.coords t) ↔ t.val % 16 = 0 :=
  (by decide +kernel : ∀ t : Fin grid2.N, cond2 (grid2.coords t) ↔ t.val % 16 = 0)

/-- One staging buffer of the output window, through which its contents are stated. -/
abbrev VO2 : View sig .tc .vmem S8x128 .f32 := (Memref.whole cc2_stg2_0 : Memref sig .tc .vmem S8x128 .f32).view
/-- Each window's current staging memref at point t, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x128 .f32 := win2_2.stage (cfg2.slots t 2)
abbrev hs2_2 (t : Fin cfg2.N) : (ms2_2 t).IsWhole := hstage2_2 ((cfg2.slots t 2).cast nbuf2_2)

set_option maxHeartbeats 4000000 in
/-- The case j = 0: the output buffer at anything; the pieces are the zero store and then the sum store. -/
noncomputable def kernelRun2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBDat2.lean ====
/-
  What pallas_call 2's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
-/
import proofs.«165426_j87875030876301_2_alg».proof.Proof.KBRun2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The stores of the case j = 0 tile the output block. -/
theorem cover2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) (y : S8x128.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S8x128.size (by sl_kernel_rfl) y

/-- What the case j = 0 leaves in the output buffer. -/
def out2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) : Vec F S8x128 .f32 :=
  VO2.read (Elt F) (VO2.writes (Elt F) VO2.junk (kernelRun2_A c i arg2 harg2 arg3 harg3 arg4 harg4 hc0 x0 x1).1)

/-- The store of the case j ≠ 0 tiles the output block. -/
theorem cover2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) (y : S8x128.Idx) :
    ∃ pc ∈ (kernelRun2_B c i arg2 harg2 arg3 harg3 arg4 harg4 hc0 x0 x1 xo).1, y ∈ pc.1.set :=
  View.cover_of_tiledL (kernelRun2_B c i arg2 harg2 arg3 harg3 arg4 harg4 hc0 x0 x1 xo).1 S8x128.size (by sl_kernel_rfl) y

/-- What the case j ≠ 0 leaves in the output buffer, over what it found there. -/
def out2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) : Vec F S8x128 .f32 :=
  VO2.read (Elt F) (VO2.writes (Elt F) VO2.junk (kernelRun2_B c i arg2 harg2 arg3 harg3 arg4 harg4 hc0 x0 x1 xo).1)

/-- The accumulation: what the output's staging buffer holds after the body at position n. -/
def outsAt2 (c : Dev nD) : (n : ℕ) → n < cfg2.N → Vec F S8x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 16 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 16 = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a point with j ≠ 0 the output's buffer holds what the body left at the point before: the buffer was not
    written back between. -/
theorem before2_2_B (c : Dev nD) (t : Fin cfg2.N) (h0 : ¬t.val % 16 = 0) (d) :
    (dat2 V c).before 2 t d = (outsAt2 V c (t.val - 1) (Nat.lt_of_le_of_lt (Nat.sub_le _ _) t.isLt)) := by
  have hN : t.val < 128 := lt_of_lt_of_eq t.isLt (show cfg2.N = 128 from N_2)
  rw [Dat.before_out_kept _ 2 rfl t (by omega) (Bool.eq_false_iff.mpr fun h => by have := (flush2_2 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 128 := lt_of_lt_of_eq t.isLt (show cfg2.N = 128 from N_2)
  by_cases h0 : t.val % 16 = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KBReg.lean ====
/-
  The whole program as a chain of segments: a host stretch, pallas_call 0, a host stretch, pallas_call 1, a host
  stretch, pallas_call 2, the last host stretch.

  Between two segments every unscoped buffer of the core is held whole at a known valuation: the launch memory,
  then each host stretch's operations applied, then at each pallas_call's exit its output array replaced by what
  the write-backs of its grid leave (every other buffer as entered: the input arrays are only read). Every weakly
  fair execution terminates, and at the end every unscoped buffer holds the last valuation's contents.
-/
import proofs.«165426_j87875030876301_2_alg».proof.Proof.KBShare
import proofs.«165426_j87875030876301_2_alg».proof.Proof.KBDat2
import proofs.«165426_j87875030876301_2_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev Wk0 : Dev nD → Valuation τ sig (Elt F) := fun c b => m (c, b)
/-- After the first host stretch (the two casts). -/
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c (Proc.devRef .tc b)

/-- At pallas_call 0's exit: its output array at what the write-backs leave, every other buffer as entered. -/
def Wk2 (c : Dev nD) : Valuation τ sig (Elt F) :=
  Function.update (Wk1 m c) (Proc.devRef .tc main_v2) ((dat0 (Vk1 m) c).arrAt 2 cfg0.N)
abbrev Vk2 : (c : Dev nD) → (b : Ref sig .tc) → Buf (Elt F) ((c : Thread nD τ).loc b) := fun c b => Wk2 m c (Proc.devRef .tc b)
theorem Wk2_out (c : Dev nD) : Wk2 m c (Proc.devRef .tc main_v2) = (dat0 (Vk1 m) c).arrAt 2 cfg0.N := by
  unfold Wk2; exact Function.update_self ..
theorem Wk2_of_ne (c : Dev nD) (b : Ref sig .tc) (hb : b ≠ main_v2) : Wk2 m c (Proc.devRef .tc b) = Wk1 m c (Proc.devRef .tc b) := by
  unfold Wk2; exact Function.update_of_ne (StableHlo.devRef_ne_of_ne hb) ..
/-- Each array of the pipeline ends at the exit valuation's contents: an input as entered, the output as written back. -/
theorem hF0 (c : Dev nD) (w : Fin cfg0.W) : (dat0 (Vk1 m) c).arrAt w cfg0.N = Vk2 m c (Pipeline.arrRef spec0 w) :=
  match w with
  | ⟨0, _⟩ => (((dat0 (Vk1 m) c).arrAt_in 0 rfl _).trans (A_eq0 (Vk1 m) c 0)).trans (Wk2_of_ne m c main_v0 (by decide)).symm
  | ⟨1, _⟩ => (((dat0 (Vk1 m) c).arrAt_in 1 rfl _).trans (A_eq0 (Vk1 m) c 1)).trans (Wk2_of_ne m c main_v0 (by decide)).symm
  | ⟨2, _⟩ => (Wk2_out m c).symm
theorem hrest0 (c : Dev nD) : ∀ b, b ∉ Finset.univ.image (Pipeline.arrRef spec0) → Vk2 m c b = Vk1 m c b :=
  fun b hb => Wk2_of_ne m c b fun e => hb (Finset.mem_image.mpr ⟨2, Finset.mem_univ _, e.symm⟩)
/-- After the host stretch that follows pallas_call 0. -/
abbrev Wk3 : Dev nD → Valuation τ sig (Elt F) := fun c => StableHlo.after hostOps1 (Wk2 m c)
abbrev Vk3 : (c : Dev nD) → (b : Ref sig .tc) → Buf (Elt F) ((c : Thread nD τ).loc b) := fun c b => Wk3 m c (Proc.devRef .tc b)

/-- At pallas_call 1's exit: its output array at what the write-backs leave, every other buffer as entered. -/
def Wk4 (c : Dev nD) : Valuation τ sig (Elt F) :=
  Function.update (Wk3 m c) (Proc.devRef .tc main_v5) ((dat1 (Vk3 m) c).arrAt 2 cfg1.N)
abbrev Vk4 : (c : Dev nD) → (b : Ref sig .tc) → Buf (Elt F) ((c : Thread nD τ).loc b) := fun c b => Wk4 m c (Proc.devRef .tc b)
theorem Wk4_out (c : Dev nD) : Wk4 m c (Proc.devRef .tc main_v5) = (dat1 (Vk3 m) c).arrAt 2 cfg1.N := by
  unfold Wk4; exact Function.update_self ..
theorem Wk4_of_ne (c : Dev nD) (b : Ref sig .tc) (hb : b ≠ main_v5) : Wk4 m c (Proc.devRef .tc b) = Wk3 m c (Proc.devRef .tc b) := by
  unfold Wk4; exact Function.update_of_ne (StableHlo.devRef_ne_of_ne hb) ..
/-- Each array of the pipeline ends at the exit valuation's contents: an input as entered, the output as written back. -/
theorem hF1 (c : Dev nD) (w : Fin cfg1.W) : (dat1 (Vk3 m) c).arrAt w cfg1.N = Vk4 m c (Pipeline.arrRef spec1 w) :=
  match w with
  | ⟨0, _⟩ => (((dat1 (Vk3 m) c).arrAt_in 0 rfl _).trans (A_eq1 (Vk3 m) c 0)).trans (Wk4_of_ne m c main_v1 (by decide)).symm
  | ⟨1, _⟩ => (((dat1 (Vk3 m) c).arrAt_in 1 rfl _).trans (A_eq1 (Vk3 m) c 1)).trans (Wk4_of_ne m c main_v1 (by decide)).symm
  | ⟨2, _⟩ => (Wk4_out m c).symm
theorem hrest1 (c : Dev nD) : ∀ b, b ∉ Finset.univ.image (Pipeline.arrRef spec1) → Vk4 m c b = Vk3 m c b :=
  fun b hb => Wk4_of_ne m c b fun e => hb (Finset.mem_image.mpr ⟨2, Finset.mem_univ _, e.symm⟩)
/-- After the host stretch that follows pallas_call 1. -/
abbrev Wk5 : Dev nD → Valuation τ sig (Elt F) := fun c => StableHlo.after hostOps2 (Wk4 m c)
abbrev Vk5 : (c : Dev nD) → (b : Ref sig .tc) → Buf (Elt F) ((c : Thread nD τ).loc b) := fun c b => Wk5 m c (Proc.devRef .tc b)

/-- At pallas_call 2's exit: its output array at what the write-backs leave, every other buffer as entered. -/
def Wk6 (c : Dev nD) : Valuation τ sig (Elt F) :=
  Function.update (Wk5 m c) (Proc.devRef .tc main_v8) ((dat2 (Vk5 m) c).arrAt 2 cfg2.N)
abbrev Vk6 : (c : Dev nD) → (b : Ref sig .tc) → Buf (Elt F) ((c : Thread nD τ).loc b) := fun c b => Wk6 m c (Proc.devRef .tc b)
theorem Wk6_out (c : Dev nD) : Wk6 m c (Proc.devRef .tc main_v8) = (dat2 (Vk5 m) c).arrAt 2 cfg2.N := by
  unfold Wk6; exact Function.update_self ..
theorem Wk6_of_ne (c : Dev nD) (b : Ref sig .tc) (hb : b ≠ main_v8) : Wk6 m c (Proc.devRef .tc b) = Wk5 m c (Proc.devRef .tc b) := by
  unfold Wk6; exact Function.update_of_ne (StableHlo.devRef_ne_of_ne hb) ..
/-- Each array of the pipeline ends at the exit valuation's contents: an input as entered, the output as written back. -/
theorem hF2 (c : Dev nD) (w : Fin cfg2.W) : (dat2 (Vk5 m) c).arrAt w cfg2.N = Vk6 m c (Pipeline.arrRef spec2 w) :=
  match w with
  | ⟨0, _⟩ => (((dat2 (Vk5 m) c).arrAt_in 0 rfl _).trans (A_eq2 (Vk5 m) c 0)).trans (Wk6_of_ne m c main_v0 (by decide)).symm
  | ⟨1, _⟩ => (((dat2 (Vk5 m) c).arrAt_in 1 rfl _).trans (A_eq2 (Vk5 m) c 1)).trans (Wk6_of_ne m c main_v1 (by decide)).symm
  | ⟨2, _⟩ => (Wk6_out m c).symm
theorem hrest2 (c : Dev nD) : ∀ b, b ∉ Finset.univ.image (Pipeline.arrRef spec2) → Vk6 m c b = Vk5 m c b :=
  fun b hb => Wk6_of_ne m c b fun e => hb (Finset.mem_image.mpr ⟨2, Finset.mem_univ _, e.symm⟩)
/-- After the host stretch that follows pallas_call 2. -/
abbrev Wk7 : Dev nD → Valuation τ sig (Elt F) := fun c => StableHlo.after hostOps3 (Wk6 m c)
abbrev Vk7 : (c : Dev nD) → (b : Ref sig .tc) → Buf (Elt F) ((c : Thread nD τ).loc b) := fun c b => Wk7 m c (Proc.devRef .tc b)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk3 m) c
  | ⟨2, _⟩ => fun c => dat2 (Vk5 m) c
abbrev 𝒱k : Variants := Variants.none
abbrev Lk : GSem nD τ sig → Finset Unit := fun _ => ∅
abbrev lvk : GSem nD τ sig → Unit → ℕ := fun _ _ => 0
/-- What rides beside the buffers through every segment: the generator register at some state, and nothing owed. -/
abbrev Rk (c : Dev nD) : sProp 𝕄 := iprop((∃ r, prngReg c r) ∗ ∃ W, owes (c : Thread nD τ) (0 : CellTallies nD τ sig Unit) W)
/-- A host stretch as a segment. -/
abbrev hsegk (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uck (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tk (c : Dev nD) : sProp 𝕄 := iprop(StableHlo.held (c : Thread nD τ) (Pipeline.ucRefs τ sig) (Wk7 m c) ∗ ∃ r, prngReg c r)

/-- The last host stretch's post, re-associated: the buffers and the generator register beside the core owing nothing. -/
theorem last_link (c : Dev nD) :
    iprop(StableHlo.held (c : Thread nD τ) (Pipeline.ucRefs τ sig) (StableHlo.after hostOps3 (Wk6 m c)) ∗ Rk (F := F) c)
      ⊢ (iprop(Tk m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem winFacts₀2' : Pipeline.WinFacts₀ spec2 := winFacts2.to₀

/-! ## The pallas_calls as segments -/

set_option backward.isDefEq.respectTransparency.types false in
/-- pallas_call 0 as a segment: entered from every unscoped buffer at the valuation before it, left at the one
    after it. Its arrays are split out of the unscoped buffers at entry and put back at exit; the generator register
    goes into the region's invariant and comes back; nothing is owed; the kernel has no semaphore of its own. -/
def reg0 : Pipeline.RegionSeg (pcfgs (F := F)) adm (pdats m) () defs₀ 𝒱k Lk lvk 0 where
  win := winFacts₀0
  block_pos := block_pos0
  stage_whole := stage_whole0
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ Rk c)
  post c := iprop(StableHlo.held (c : Thread nD τ) (Pipeline.ucRefs τ sig) (Wk2 m c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := entry_arrays0 (Vk1 m) c (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays0 (Vk1 m) c (Vk1 m c) (Vk2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 1 as a segment: entered from every unscoped buffer at the valuation before it, left at the one
    after it. Its arrays are split out of the unscoped buffers at entry and put back at exit; the generator register
    goes into the region's invariant and comes back; nothing is owed; the kernel has no semaphore of its own. -/
def reg1 : Pipeline.RegionSeg (pcfgs (F := F)) adm (pdats m) () defs₀ 𝒱k Lk lvk 1 where
  win := winFacts₀1
  block_pos := block_pos1
  stage_whole := stage_whole1
  K := PEmpty
  osem k := k.elim
  ho := Pipeline.OwnSemFacts.none _
  hbody c := (body_obligation1 (Vk3 m) c).loose
  hwaits := Pipeline.hwaits_of_owed_zero _ _ _ _ Lk lvk 1 fun _ _ => rfl
  pre c := iprop(StableHlo.held (c : Thread nD τ) (Pipeline.ucRefs τ sig) (Wk3 m c) ∗ Rk c)
  post c := iprop(StableHlo.held (c : Thread nD τ) (Pipeline.ucRefs τ sig) (Wk4 m c) ∗ Rk c)
  X c := iprop(∃ r, prngReg c r)
  Y c := iprop(∃ r, prngReg c r)
  Z c := Pipeline.unscopedRest (Ix := Unit) (Name := ℕ) (U := UR sig nD τ) (Lvl := ℕ) spec1 c (Vk3 m c)
  hentry c := by
    rw [Pipeline.ownSems0_none]
    have hsplit := entry_arrays1 (Vk3 m) c (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 (Vk3 m) c (Vk3 m c) (Vk4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 2 as a segment: entered from every unscoped buffer at the valuation before it, left at the one
    after it. Its arrays are split out of the unscoped buffers at entry and put back at exit; the generator register
    goes into the region's invariant and comes back; nothing is owed; the kernel has no semaphore of its own. -/
def reg2 : Pipeline.RegionSeg (pcfgs (F := F)) adm (pdats m) () defs₀ 𝒱k Lk lvk 2 where
  win := winFacts₀2'
  block_pos := block_pos2
  stage_whole := stage_whole2
  K := PEmpty
  osem k := k.elim
  ho := Pipeline.OwnSemFacts.none _
  hbody c := (body_obligation2 (Vk5 m) c).loose
  hwaits := Pipeline.hwaits_of_owed_zero _ _ _ _ Lk lvk 2 fun _ _ => rfl
  pre c := iprop(StableHlo.held (c : Thread nD τ) (Pipeline.ucRefs τ sig) (Wk5 m c) ∗ Rk c)
  post c := iprop(StableHlo.held (c : Thread nD τ) (Pipeline.ucRefs τ sig) (Wk6 m c) ∗ Rk c)
  X c := iprop(∃ r, prngReg c r)
  Y c := iprop(∃ r, prngReg c r)
  Z c := Pipeline.unscopedRest (Ix := Unit) (Name := ℕ) (U := UR sig nD τ) (Lvl := ℕ) spec2 c (Vk5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vk5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vk5 m c) (Vk6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segsk : List (Pipeline.Seg (pcfgs (F := F)) adm (pdats m) () defs₀ 𝒱k Lk lvk) :=
  [ .host (hsegk hostOps0 hostOps0_sub hostOps0_fresh (Wk0 m)),
    .region (reg0 m),
    .host (hsegk hostOps1 hostOps1_sub hostOps1_fresh (Wk2 m)),
    .region (reg1 m),
    .host (hsegk hostOps2 hostOps2_sub hostOps2_fresh (Wk4 m)),
    .region (reg2 m),
    .host (hsegk hostOps3 hostOps3_sub hostOps3_fresh (Wk6 m)) ]

theorem main_runk (c : Dev nD) : main (F := F) c = Pipeline.Seg.run (segsk m) := (main_chain c).trans (by chain_rfl)

set_option backward.isDefEq.respectTransparency.types false in
/-- Every weakly fair execution of @main from memory m with zero counters terminates, nothing faulting, and every
    final memory holds each unscoped buffer at the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk7 m c b) :=
  Pipeline.θ_run_regions_kit (pcfgs (F := F)) adm (pdats m) () cellOf_inj emb₁ defs₀ 𝒱k Lk lvk m ρ main (segsk m)
    (fun c Q => by rw [main_runk m c])
    (by simp only [segsk, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rk c)) (Tₙ := Tk m)
    (hch := ⟨fun _ => .rfl, fun _ => .rfl, fun _ => .rfl, fun _ => .rfl, fun _ => .rfl, fun _ => .rfl, fun _ => .rfl, fun c => last_link m c⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk7 m c b)
    (hfin := fun c s' => by
      iintro ⟨⟨Hh, -⟩, HSI⟩
      unfold StableHlo.held
      imodintro
      iapply (pointsTo_read_all (Pipeline.ucRefs τ sig) (fun b => (((c : Thread nD τ)).1, b)) (Wk7 m c) s')
      isplitl [Hh] <;> iassumption)
    (hQ := fun s h c => h c)

end Cert.Kernel.Hand

end
-- ==== Proof.KBRes.lean ====
/-
  What the run leaves: the two argument arrays as launched, and the result as the host operations' value of the
  three pallas_calls' output arrays.

  No host operation writes an argument and no pallas_call changes one (they are read through input windows), so the
  last valuation at an argument walks back to the launch memory. The result is
  (s0 / N + s1 / N) − 2 · (s2 / N), each s the sum over one call's 64 × 128 output array divided by 1024.
-/
import proofs.«165426_j87875030876301_2_alg».proof.Proof.KBReg
import Idealize.ShloMosaic.Lib.StableHlo.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation writes and that is no call's output holds its launch contents at the end. -/
theorem Wk7_kept (c : Dev nD) (r : Ref sig .tc) (h0 : r ∉ hostOps0_W) (h1 : r ∉ hostOps1_W) (h2 : r ∉ hostOps2_W) (h3 : r ∉ hostOps3_W)
    (n2 : r ≠ main_v2) (n5 : r ≠ main_v5) (n8 : r ≠ main_v8) :
    Wk7 m c (Proc.devRef .tc r) = m ((c : Thread nD τ).loc r) :=
  (StableHlo.after_of_writes_sub hostOps3 _ hostOps3_writes h3).trans <| (Wk6_of_ne m c r n8).trans <|
  (StableHlo.after_of_writes_sub hostOps2 _ hostOps2_writes h2).trans <| (Wk4_of_ne m c r n5).trans <|
  (StableHlo.after_of_writes_sub hostOps1 _ hostOps1_writes h1).trans <| (Wk2_of_ne m c r n2).trans <|
  (StableHlo.after_of_writes_sub hostOps0 _ hostOps0_writes h0).trans rfl

theorem Wk7_main_arg0 (c : Dev nD) : Wk7 m c (Proc.devRef .tc main_arg0) = m ((c : Thread nD τ).loc main_arg0) :=
  Wk7_kept m c main_arg0 (by decide) (by decide) (by decide) (by decide) (by decide) (by decide) (by decide)
theorem Wk7_main_arg1 (c : Dev nD) : Wk7 m c (Proc.devRef .tc main_arg1) = m ((c : Thread nD τ).loc main_arg1) :=
  Wk7_kept m c main_arg1 (by decide) (by decide) (by decide) (by decide) (by decide) (by decide) (by decide)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uck main_arg0 (by decide))).trans (Wk7_main_arg0 m c),
     (h c _ (mem_uck main_arg1 (by decide))).trans (Wk7_main_arg1 m c)⟩) (run_all m ρ)

end Cert.Kernel.Hand

end
-- ==== Proof.KIRun0.lean ====
/-
  The body of pallas_call 0 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.Gen.KernelIdeal.Skeleton
import proofs.«165426_j87875030876301_2_alg».proof.Proof.Gen.KernelIdeal.Launch
import proofs.«165426_j87875030876301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond0 (i : grid0.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond0 : ∀ t : Fin cfg0.N, cond0 (grid0.coords t) ↔ t.val % 16 = 0 :=
  (by decide +kernel : ∀ t : Fin grid0.N, cond0 (grid0.coords t) ↔ t.val % 16 = 0)

/-- One staging buffer of the output window, through which its contents are stated. -/
abbrev VO0 : View sig .tc .vmem S8x128 .f32 := (Memref.whole cc0_stg2_0 : Memref sig .tc .vmem S8x128 .f32).view
/-- Each window's current staging memref at point t, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

set_option maxHeartbeats 4000000 in
/-- The case j = 0: the output buffer at anything; the pieces are the zero store and then the sum store. -/
noncomputable def kernelRun0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIDat0.lean ====
/-
  What pallas_call 0's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
  The two input windows read one array; the array's full share is split in two halves, one per window.
-/
import proofs.«165426_j87875030876301_2_alg».proof.Proof.KIRun0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The stores of the case j = 0 tile the output block. -/
theorem cover0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) (y : S8x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S8x128.size (by sl_kernel_rfl) y

/-- What the case j = 0 leaves in the output buffer. -/
def out0_A (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond0 i)
    (x0 : Vec F S1024x512 .bf16) (x1 : Vec F S512x512 .bf16) : Vec F S8x128 .f32 :=
  VO0.read (Elt F) (VO0.writes (Elt F) VO0.junk (kernelRun0_A c i arg2 harg2 arg3 harg3 arg4 harg4 hc0 x0 x1).1)

/-- The store of the case j ≠ 0 tiles the output block. -/
theorem cover0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) (y : S8x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S8x128.size (by sl_kernel_rfl) y

/-- What the case j ≠ 0 leaves in the output buffer, over what it found there. -/
def out0_B (c : Dev nD) (i : grid0.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond0 i)
    (x0 : Vec F S1024x512 .bf16) (x1 : Vec F S512x512 .bf16) (xo : Vec F S8x128 .f32) : Vec F S8x128 .f32 :=
  VO0.read (Elt F) (VO0.writes (Elt F) VO0.junk (kernelRun0_B c i arg2 harg2 arg3 harg3 arg4 harg4 hc0 x0 x1 xo).1)

/-- The accumulation: what the output's staging buffer holds after the body at position n. -/
def outsAt0 (c : Dev nD) : (n : ℕ) → n < cfg0.N → Vec F S8x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 16 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 16 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point with j ≠ 0 the output's buffer holds what the body left at the point before: the buffer was not
    written back between. -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val % 16 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIRun1.lean ====
/-
  The body of pallas_call 1 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.KIRun0
import proofs.«165426_j87875030876301_2_alg».proof.Proof.Gen.KernelIdeal.Skeleton
import proofs.«165426_j87875030876301_2_alg».proof.Proof.Gen.KernelIdeal.Launch
import proofs.«165426_j87875030876301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond1 (i : grid1.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond1 : ∀ t : Fin cfg1.N, cond1 (grid1.coords t) ↔ t.val % 16 = 0 :=
  (by decide +kernel : ∀ t : Fin grid1.N, cond1 (grid1.coords t) ↔ t.val % 16 = 0)

/-- One staging buffer of the output window, through which its contents are stated. -/
abbrev VO1 : View sig .tc .vmem S8x128 .f32 := (Memref.whole cc1_stg2_0 : Memref sig .tc .vmem S8x128 .f32).view
/-- Each window's current staging memref at point t, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)

set_option maxHeartbeats 4000000 in
/-- The case j = 0: the output buffer at anything; the pieces are the zero store and then the sum store. -/
noncomputable def kernelRun1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIDat1.lean ====
/-
  What pallas_call 1's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
  The two input windows read one array; the array's full share is split in two halves, one per window.
-/
import proofs.«165426_j87875030876301_2_alg».proof.Proof.KIRun1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The stores of the case j = 0 tile the output block. -/
theorem cover1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) (y : S8x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S8x128.size (by sl_kernel_rfl) y

/-- What the case j = 0 leaves in the output buffer. -/
def out1_A (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond1 i)
    (x0 : Vec F S1024x512 .bf16) (x1 : Vec F S512x512 .bf16) : Vec F S8x128 .f32 :=
  VO1.read (Elt F) (VO1.writes (Elt F) VO1.junk (kernelRun1_A c i arg2 harg2 arg3 harg3 arg4 harg4 hc0 x0 x1).1)

/-- The store of the case j ≠ 0 tiles the output block. -/
theorem cover1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) (y : S8x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S8x128.size (by sl_kernel_rfl) y

/-- What the case j ≠ 0 leaves in the output buffer, over what it found there. -/
def out1_B (c : Dev nD) (i : grid1.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond1 i)
    (x0 : Vec F S1024x512 .bf16) (x1 : Vec F S512x512 .bf16) (xo : Vec F S8x128 .f32) : Vec F S8x128 .f32 :=
  VO1.read (Elt F) (VO1.writes (Elt F) VO1.junk (kernelRun1_B c i arg2 harg2 arg3 harg3 arg4 harg4 hc0 x0 x1 xo).1)

/-- The accumulation: what the output's staging buffer holds after the body at position n. -/
def outsAt1 (c : Dev nD) : (n : ℕ) → n < cfg1.N → Vec F S8x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 16 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 16 = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with j ≠ 0 the output's buffer holds what the body left at the point before: the buffer was not
    written back between. -/
theorem before1_2_B (c : Dev nD) (t : Fin cfg1.N) (h0 : ¬t.val % 16 = 0) (d) :
    (dat1 V c).before 2 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 128 := lt_of_lt_of_eq t.isLt (show cfg1.N = 128 from N_1)
  by_cases h0 : t.val % 16 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIShare.lean ====
/-
  Splitting one array between two input windows.

  In pallas_calls 0 and 1 both input windows read the same array. The pipeline holds each window's array at a share;
  here the array's full share is cut into its two halves, one per window, when the region is entered, and the halves
  are joined again when it is left (both windows end holding the array at the contents they found: inputs are only
  read). The output array is held whole.
-/
import proofs.«165426_j87875030876301_2_alg».proof.Proof.KIDat0
import proofs.«165426_j87875030876301_2_alg».proof.Proof.KIDat1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.SL.BI (bigSep_insert bigSep_congr)
open PCS

/-- The full share is its left half composed with its right half. -/
theorem full_split : (fullShare : PosShare TreeShare) ∈ (fullShare : PosShare TreeShare).left ·? (fullShare : PosShare TreeShare).right := by
  rw [PosShare.left_op_right]; exact Part.mem_some _

section Region
variable (V : (c : Dev nD) → (b : Ref sig .tc) → Buf (Elt F) ((c : Thread nD τ).loc b))

/-! ## pallas_call 0: both input windows read `main_v0`, the output window writes `main_v2` -/

theorem image_arr0 : Finset.univ.image (Pipeline.arrRef spec0) = {main_v0, main_v2} := by decide

/-- The pipeline's arrays, window by window: the input array at one half share per input window, the output array
    at the full share. -/
theorem arrays_form0 (c : Dev nD) (F : (w : Fin cfg0.W) → Buf (Elt F) ((cfg0.win w).arr.view.loc (c.tc : Thread nD τ))) :
    (dat0 V c).arrays F = iprop((((c.tc : Thread nD τ).loc main_v0) ↦{fullShare.left} F 0 : sProp 𝕄)
      ∗ (((c.tc : Thread nD τ).loc main_v0) ↦{fullShare.right} F 1) ∗ (((c.tc : Thread nD τ).loc main_v2) ↦{fullShare} F 2)) := by
  unfold Dat.arrays
  rw [bigSep_W0, (arr_whole0 0).set_eq_univ, (arr_whole0 2).set_eq_univ]
  rfl

/-- The distinct buffers behind the arrays are two: the input array and the output array. -/
theorem arrBufs_form0 (c : Dev nD) (W : (b : Ref sig .tc) → Buf (Elt F) ((c.tc : Thread nD τ).loc b)) :
    (Pipeline.arrBufs spec0 c W : sProp 𝕄) = iprop((((c.tc : Thread nD τ).loc main_v0) ↦{fullShare} W main_v0 : sProp 𝕄)
      ∗ (((c.tc : Thread nD τ).loc main_v2) ↦{fullShare} W main_v2)) := by
  unfold Pipeline.arrBufs
  rw [image_arr0, bigSep_insert (by decide), BI.bigSep_singleton]; rfl

/-- The distinct buffers behind the arrays, each whole at the full share, make the pipeline's arrays at the same
    contents: the input array's full share splits into its two halves. -/
theorem arrays_of_arrBufs0 (c : Dev nD) (W : (b : Ref sig .tc) → Buf (Elt F) ((c.tc : Thread nD τ).loc b))
    (F : (w : Fin cfg0.W) → Buf (Elt F) ((cfg0.win w).arr.view.loc (c.tc : Thread nD τ))) (hF : ∀ w, F w = W (Pipeline.arrRef spec0 w)) :
    (Pipeline.arrBufs spec0 c W : sProp 𝕄) ⊢ (dat0 V c).arrays F := by
  rw [arrays_form0, hF 0, hF 1, hF 2]
  rw [arrBufs_form0]
  iintro ⟨H0, H2⟩
  ihave H0' := (pointsTo_share (ℓ := (c.tc : Thread nD τ).loc main_v0) full_split).1 $$ H0
  icases H0' with ⟨Ha, Hb⟩
  isplitl [Ha]; · iexact Ha
  isplitl [Hb]; · iexact Hb
  iexact H2

/-- And back: the arrays at contents that agree on the shared input array give the distinct buffers whole. -/
theorem arrBufs_of_arrays0 (c : Dev nD) (W : (b : Ref sig .tc) → Buf (Elt F) ((c.tc : Thread nD τ).loc b))
    (F : (w : Fin cfg0.W) → Buf (Elt F) ((cfg0.win w).arr.view.loc (c.tc : Thread nD τ))) (hF : ∀ w, F w = W (Pipeline.arrRef spec0 w)) :
    (dat0 V c).arrays F ⊢ (Pipeline.arrBufs spec0 c W : sProp 𝕄) := by
  rw [arrays_form0, hF 0, hF 1, hF 2]
  rw [arrBufs_form0]
  iintro ⟨Ha, Hb, H2⟩
  isplitl [Ha Hb]
  · iapply (pointsTo_share (ℓ := (c.tc : Thread nD τ).loc main_v0) full_split).2
    isplitl [Ha]; · iexact Ha
    iexact Hb
  iexact H2

/-- ENTRY: a core's unscoped buffers at contents W are the pipeline's arrays at entry and the unscoped rest. -/
theorem entry_arrays0 (c : Dev nD) (W : (b : Ref sig .tc) → Buf (Elt F) ((c.tc : Thread nD τ).loc b))
    (hA : ∀ w, (dat0 V c).A w = W (Pipeline.arrRef spec0 w)) :
    (unscopedBufs c W : sProp 𝕄) ⊢ iprop((dat0 V c).arrays ((dat0 V c).arrAt · 0) ∗ Pipeline.unscopedRest spec0 c W) := by
  rw [Pipeline.unscopedBufs_split₀ cfgs 0 winFacts₀0.arr_unscoped c W]
  exact sep_mono (arrays_of_arrBufs0 V c W _ fun w => by rw [show (dat0 V c).arrAt w 0 = (dat0 V c).A w from rfl, hA]) .rfl

/-- EXIT: the arrays at their final contents and the unscoped rest are the unscoped buffers at contents W', which
    holds the final contents at the arrays and agrees with W elsewhere. -/
theorem exit_arrays0 (c : Dev nD) (W W' : (b : Ref sig .tc) → Buf (Elt F) ((c.tc : Thread nD τ).loc b))
    (F : (w : Fin cfg0.W) → Buf (Elt F) ((cfg0.win w).arr.view.loc (c.tc : Thread nD τ))) (hF : ∀ w, F w = W' (Pipeline.arrRef spec0 w))
    (hrest : ∀ b, b ∉ Finset.univ.image (Pipeline.arrRef spec0) → W' b = W b) :
    iprop((dat0 V c).arrays F ∗ Pipeline.unscopedRest spec0 c W) ⊢ (unscopedBufs c W' : sProp 𝕄) := by
  rw [Pipeline.unscopedBufs_split₀ cfgs 0 winFacts₀0.arr_unscoped c W']
  refine sep_mono (arrBufs_of_arrays0 V c W' F hF) (Entails.of_eq ?_)
  unfold Pipeline.unscopedRest
  exact bigSep_congr fun b hb => by rw [hrest b (Finset.mem_sdiff.mp hb).2]

/-! ## pallas_call 1: both input windows read `main_v1`, the output window writes `main_v5` -/

theorem image_arr1 : Finset.univ.image (Pipeline.arrRef spec1) = {main_v1, main_v5} := by decide

/-- The pipeline's arrays, window by window: the input array at one half share per input window, the output array
    at the full share. -/
theorem arrays_form1 (c : Dev nD) (F : (w : Fin cfg1.W) → Buf (Elt F) ((cfg1.win w).arr.view.loc (c.tc : Thread nD τ))) :
    (dat1 V c).arrays F = iprop((((c.tc : Thread nD τ).loc main_v1) ↦{fullShare.left} F 0 : sProp 𝕄)
      ∗ (((c.tc : Thread nD τ).loc main_v1) ↦{fullShare.right} F 1) ∗ (((c.tc : Thread nD τ).loc main_v5) ↦{fullShare} F 2)) := by
  unfold Dat.arrays
  rw [bigSep_W1, (arr_whole1 0).set_eq_univ, (arr_whole1 2).set_eq_univ]
  rfl

/-- The distinct buffers behind the arrays are two: the input array and the output array. -/
theorem arrBufs_form1 (c : Dev nD) (W : (b : Ref sig .tc) → Buf (Elt F) ((c.tc : Thread nD τ).loc b)) :
    (Pipeline.arrBufs spec1 c W : sProp 𝕄) = iprop((((c.tc : Thread nD τ).loc main_v1) ↦{fullShare} W main_v1 : sProp 𝕄)
      ∗ (((c.tc : Thread nD τ).loc main_v5) ↦{fullShare} W main_v5)) := by
  unfold Pipeline.arrBufs
  rw [image_arr1, bigSep_insert (by decide), BI.bigSep_singleton]; rfl

/-- The distinct buffers behind the arrays, each whole at the full share, make the pipeline's arrays at the same
    contents: the input array's full share splits into its two halves. -/
theorem arrays_of_arrBufs1 (c : Dev nD) (W : (b : Ref sig .tc) → Buf (Elt F) ((c.tc : Thread nD τ).loc b))
    (F : (w : Fin cfg1.W) → Buf (Elt F) ((cfg1.win w).arr.view.loc (c.tc : Thread nD τ))) (hF : ∀ w, F w = W (Pipeline.arrRef spec1 w)) :
    (Pipeline.arrBufs spec1 c W : sProp 𝕄) ⊢ (dat1 V c).arrays F := by
  rw [arrays_form1, hF 0, hF 1, hF 2]
  rw [arrBufs_form1]
  iintro ⟨H0, H2⟩
  ihave H0' := (pointsTo_share (ℓ := (c.tc : Thread nD τ).loc main_v1) full_split).1 $$ H0
  icases H0' with ⟨Ha, Hb⟩
  isplitl [Ha]; · iexact Ha
  isplitl [Hb]; · iexact Hb
  iexact H2

/-- And back: the arrays at contents that agree on the shared input array give the distinct buffers whole. -/
theorem arrBufs_of_arrays1 (c : Dev nD) (W : (b : Ref sig .tc) → Buf (Elt F) ((c.tc : Thread nD τ).loc b))
    (F : (w : Fin cfg1.W) → Buf (Elt F) ((cfg1.win w).arr.view.loc (c.tc : Thread nD τ))) (hF : ∀ w, F w = W (Pipeline.arrRef spec1 w)) :
    (dat1 V c).arrays F ⊢ (Pipeline.arrBufs spec1 c W : sProp 𝕄) := by
  rw [arrays_form1, hF 0, hF 1, hF 2]
  rw [arrBufs_form1]
  iintro ⟨Ha, Hb, H2⟩
  isplitl [Ha Hb]
  · iapply (pointsTo_share (ℓ := (c.tc : Thread nD τ).loc main_v1) full_split).2
    isplitl [Ha]; · iexact Ha
    iexact Hb
  iexact H2

/-- ENTRY: a core's unscoped buffers at contents W are the pipeline's arrays at entry and the unscoped rest. -/
theorem entry_arrays1 (c : Dev nD) (W : (b : Ref sig .tc) → Buf (Elt F) ((c.tc : Thread nD τ).loc b))
    (hA : ∀ w, (dat1 V c).A w = W (Pipeline.arrRef spec1 w)) :
    (unscopedBufs c W : sProp 𝕄) ⊢ iprop((dat1 V c).arrays ((dat1 V c).arrAt · 0) ∗ Pipeline.unscopedRest spec1 c W) := by
  rw [Pipeline.unscopedBufs_split₀ cfgs 1 winFacts₀1.arr_unscoped c W]
  exact sep_mono (arrays_of_arrBufs1 V c W _ fun w => by rw [show (dat1 V c).arrAt w 0 = (dat1 V c).A w from rfl, hA]) .rfl

/-- EXIT: the arrays at their final contents and the unscoped rest are the unscoped buffers at contents W', which
    holds the final contents at the arrays and agrees with W elsewhere. -/
theorem exit_arrays1 (c : Dev nD) (W W' : (b : Ref sig .tc) → Buf (Elt F) ((c.tc : Thread nD τ).loc b))
    (F : (w : Fin cfg1.W) → Buf (Elt F) ((cfg1.win w).arr.view.loc (c.tc : Thread nD τ))) (hF : ∀ w, F w = W' (Pipeline.arrRef spec1 w))
    (hrest : ∀ b, b ∉ Finset.univ.image (Pipeline.arrRef spec1) → W' b = W b) :
    iprop((dat1 V c).arrays F ∗ Pipeline.unscopedRest spec1 c W) ⊢ (unscopedBufs c W' : sProp 𝕄) := by
  rw [Pipeline.unscopedBufs_split₀ cfgs 1 winFacts₀1.arr_unscoped c W']
  refine sep_mono (arrBufs_of_arrays1 V c W' F hF) (Entails.of_eq ?_)
  unfold Pipeline.unscopedRest
  exact bigSep_congr fun b hb => by rw [hrest b (Finset.mem_sdiff.mp hb).2]

end Region

end Cert.KernelIdeal.Hand

end
-- ==== Proof.KIRun2.lean ====
/-
  The body of pallas_call 2 run on its staging buffers, once per control case.

  The body has one branch, on the second grid coordinate j: at j = 0 it first stores zeros over the whole
  output block. Either way it then loads both input blocks, loads the output block, and stores over the whole
  output block the old block plus the scalar sum of the point's kernel values. So in the case j = 0 the output
  buffer may hold anything when the body starts, and in the case j ≠ 0 what it holds is read.
  Each case's run gives the list of pieces the stores leave in the output buffer.
-/
import proofs.«165426_j87875030876301_2_alg».proof.Proof.KIRun1
import proofs.«165426_j87875030876301_2_alg».proof.Proof.Gen.KernelIdeal.Skeleton
import proofs.«165426_j87875030876301_2_alg».proof.Proof.Gen.KernelIdeal.Launch
import proofs.«165426_j87875030876301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond2 (i : grid2.Coords) : Prop := (Scalar.cmpi .ne (Scalar.extui (Scalar.cmpi .eq (BitVec.ofNat 32 (i 1).val) 0#32)) 0#32) = 1#1
/-- It holds exactly at the points whose number is a multiple of 16 (the grid is 8 × 16, row-major). -/
theorem hcond2 : ∀ t : Fin cfg2.N, cond2 (grid2.coords t) ↔ t.val % 16 = 0 :=
  (by decide +kernel : ∀ t : Fin grid2.N, cond2 (grid2.coords t) ↔ t.val % 16 = 0)

/-- One staging buffer of the output window, through which its contents are stated. -/
abbrev VO2 : View sig .tc .vmem S8x128 .f32 := (Memref.whole cc2_stg2_0 : Memref sig .tc .vmem S8x128 .f32).view
/-- Each window's current staging memref at point t, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x128 .f32 := win2_2.stage (cfg2.slots t 2)
abbrev hs2_2 (t : Fin cfg2.N) : (ms2_2 t).IsWhole := hstage2_2 ((cfg2.slots t 2).cast nbuf2_2)

set_option maxHeartbeats 4000000 in
/-- The case j = 0: the output buffer at anything; the pieces are the zero store and then the sum store. -/
noncomputable def kernelRun2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The case j ≠ 0: the output buffer at its running contents xo, which the sum store adds to. -/
noncomputable def kernelRun2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIDat2.lean ====
/-
  What pallas_call 2's output block holds after each grid point, and the body's obligation at every point.

  The grid is 8 × 16, row-major: point t has block-row i = t / 16 and column-block j = t % 16. The output window's
  block index is (i, 0), so its staging buffer is kept from one point to the next within a block-row and written
  back after the last point of the row (t % 16 = 15). After point t the buffer holds: at j = 0 the body's result
  on a zeroed block; at j ≠ 0 the body's result on what the point before left. The input windows' buffers hold
  their array's blocks at every point, fetched there or not.
-/
import proofs.«165426_j87875030876301_2_alg».proof.Proof.KIRun2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The stores of the case j = 0 tile the output block. -/
theorem cover2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) (y : S8x128.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S8x128.size (by sl_kernel_rfl) y

/-- What the case j = 0 leaves in the output buffer. -/
def out2_A (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : cond2 i)
    (x0 : Vec F S1024x512 .bf16) (x1 : Vec F S512x512 .bf16) : Vec F S8x128 .f32 :=
  VO2.read (Elt F) (VO2.writes (Elt F) VO2.junk (kernelRun2_A c i arg2 harg2 arg3 harg3 arg4 harg4 hc0 x0 x1).1)

/-- The store of the case j ≠ 0 tiles the output block. -/
theorem cover2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) (y : S8x128.Idx) :
    ∃ pc ∈ (kernelRun2_B c i arg2 harg2 arg3 harg3 arg4 harg4 hc0 x0 x1 xo).1, y ∈ pc.1.set :=
  View.cover_of_tiledL (kernelRun2_B c i arg2 harg2 arg3 harg3 arg4 harg4 hc0 x0 x1 xo).1 S8x128.size (by sl_kernel_rfl) y

/-- What the case j ≠ 0 leaves in the output buffer, over what it found there. -/
def out2_B (c : Dev nD) (i : grid2.Coords) (arg2 : Memref sig .tc .vmem S1024x512 .bf16) (harg2 : arg2.IsWhole)
    (arg3 : Memref sig .tc .vmem S512x512 .bf16) (harg3 : arg3.IsWhole) (arg4 : Memref sig .tc .vmem S8x128 .f32) (harg4 : arg4.IsWhole) (hc0 : ¬cond2 i)
    (x0 : Vec F S1024x512 .bf16) (x1 : Vec F S512x512 .bf16) (xo : Vec F S8x128 .f32) : Vec F S8x128 .f32 :=
  VO2.read (Elt F) (VO2.writes (Elt F) VO2.junk (kernelRun2_B c i arg2 harg2 arg3 harg3 arg4 harg4 hc0 x0 x1 xo).1)

/-- The accumulation: what the output's staging buffer holds after the body at position n. -/
def outsAt2 (c : Dev nD) : (n : ℕ) → n < cfg2.N → Vec F S8x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 16 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 16 = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a point with j ≠ 0 the output's buffer holds what the body left at the point before: the buffer was not
    written back between. -/
theorem before2_2_B (c : Dev nD) (t : Fin cfg2.N) (h0 : ¬t.val % 16 = 0) (d) :
    (dat2 V c).before 2 t d = (outsAt2 V c (t.val - 1) (Nat.lt_of_le_of_lt (Nat.sub_le _ _) t.isLt)) := by
  have hN : t.val < 128 := lt_of_lt_of_eq t.isLt (show cfg2.N = 128 from N_2)
  rw [Dat.before_out_kept _ 2 rfl t (by omega) (Bool.eq_false_iff.mpr fun h => by have := (flush2_2 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 128 := lt_of_lt_of_eq t.isLt (show cfg2.N = 128 from N_2)
  by_cases h0 : t.val % 16 = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIReg.lean ====
/-
  The whole program as a chain of segments: a host stretch, pallas_call 0, a host stretch, pallas_call 1, a host
  stretch, pallas_call 2, the last host stretch.

  Between two segments every unscoped buffer of the core is held whole at a known valuation: the launch memory,
  then each host stretch's operations applied, then at each pallas_call's exit its output array replaced by what
  the write-backs of its grid leave (every other buffer as entered: the input arrays are only read). Every weakly
  fair execution terminates, and at the end every unscoped buffer holds the last valuation's contents.
-/
import proofs.«165426_j87875030876301_2_alg».proof.Proof.KIShare
import proofs.«165426_j87875030876301_2_alg».proof.Proof.KIDat2
import proofs.«165426_j87875030876301_2_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev Wk0 : Dev nD → Valuation τ sig (Elt F) := fun c b => m (c, b)
/-- After the first host stretch (the two casts). -/
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c (Proc.devRef .tc b)

/-- At pallas_call 0's exit: its output array at what the write-backs leave, every other buffer as entered. -/
def Wk2 (c : Dev nD) : Valuation τ sig (Elt F) :=
  Function.update (Wk1 m c) (Proc.devRef .tc main_v2) ((dat0 (Vk1 m) c).arrAt 2 cfg0.N)
abbrev Vk2 : (c : Dev nD) → (b : Ref sig .tc) → Buf (Elt F) ((c : Thread nD τ).loc b) := fun c b => Wk2 m c (Proc.devRef .tc b)
theorem Wk2_out (c : Dev nD) : Wk2 m c (Proc.devRef .tc main_v2) = (dat0 (Vk1 m) c).arrAt 2 cfg0.N := by
  unfold Wk2; exact Function.update_self ..
theorem Wk2_of_ne (c : Dev nD) (b : Ref sig .tc) (hb : b ≠ main_v2) : Wk2 m c (Proc.devRef .tc b) = Wk1 m c (Proc.devRef .tc b) := by
  unfold Wk2; exact Function.update_of_ne (StableHlo.devRef_ne_of_ne hb) ..
/-- Each array of the pipeline ends at the exit valuation's contents: an input as entered, the output as written back. -/
theorem hF0 (c : Dev nD) (w : Fin cfg0.W) : (dat0 (Vk1 m) c).arrAt w cfg0.N = Vk2 m c (Pipeline.arrRef spec0 w) :=
  match w with
  | ⟨0, _⟩ => (((dat0 (Vk1 m) c).arrAt_in 0 rfl _).trans (A_eq0 (Vk1 m) c 0)).trans (Wk2_of_ne m c main_v0 (by decide)).symm
  | ⟨1, _⟩ => (((dat0 (Vk1 m) c).arrAt_in 1 rfl _).trans (A_eq0 (Vk1 m) c 1)).trans (Wk2_of_ne m c main_v0 (by decide)).symm
  | ⟨2, _⟩ => (Wk2_out m c).symm
theorem hrest0 (c : Dev nD) : ∀ b, b ∉ Finset.univ.image (Pipeline.arrRef spec0) → Vk2 m c b = Vk1 m c b :=
  fun b hb => Wk2_of_ne m c b fun e => hb (Finset.mem_image.mpr ⟨2, Finset.mem_univ _, e.symm⟩)
/-- After the host stretch that follows pallas_call 0. -/
abbrev Wk3 : Dev nD → Valuation τ sig (Elt F) := fun c => StableHlo.after hostOps1 (Wk2 m c)
abbrev Vk3 : (c : Dev nD) → (b : Ref sig .tc) → Buf (Elt F) ((c : Thread nD τ).loc b) := fun c b => Wk3 m c (Proc.devRef .tc b)

/-- At pallas_call 1's exit: its output array at what the write-backs leave, every other buffer as entered. -/
def Wk4 (c : Dev nD) : Valuation τ sig (Elt F) :=
  Function.update (Wk3 m c) (Proc.devRef .tc main_v5) ((dat1 (Vk3 m) c).arrAt 2 cfg1.N)
abbrev Vk4 : (c : Dev nD) → (b : Ref sig .tc) → Buf (Elt F) ((c : Thread nD τ).loc b) := fun c b => Wk4 m c (Proc.devRef .tc b)
theorem Wk4_out (c : Dev nD) : Wk4 m c (Proc.devRef .tc main_v5) = (dat1 (Vk3 m) c).arrAt 2 cfg1.N := by
  unfold Wk4; exact Function.update_self ..
theorem Wk4_of_ne (c : Dev nD) (b : Ref sig .tc) (hb : b ≠ main_v5) : Wk4 m c (Proc.devRef .tc b) = Wk3 m c (Proc.devRef .tc b) := by
  unfold Wk4; exact Function.update_of_ne (StableHlo.devRef_ne_of_ne hb) ..
/-- Each array of the pipeline ends at the exit valuation's contents: an input as entered, the output as written back. -/
theorem hF1 (c : Dev nD) (w : Fin cfg1.W) : (dat1 (Vk3 m) c).arrAt w cfg1.N = Vk4 m c (Pipeline.arrRef spec1 w) :=
  match w with
  | ⟨0, _⟩ => (((dat1 (Vk3 m) c).arrAt_in 0 rfl _).trans (A_eq1 (Vk3 m) c 0)).trans (Wk4_of_ne m c main_v1 (by decide)).symm
  | ⟨1, _⟩ => (((dat1 (Vk3 m) c).arrAt_in 1 rfl _).trans (A_eq1 (Vk3 m) c 1)).trans (Wk4_of_ne m c main_v1 (by decide)).symm
  | ⟨2, _⟩ => (Wk4_out m c).symm
theorem hrest1 (c : Dev nD) : ∀ b, b ∉ Finset.univ.image (Pipeline.arrRef spec1) → Vk4 m c b = Vk3 m c b :=
  fun b hb => Wk4_of_ne m c b fun e => hb (Finset.mem_image.mpr ⟨2, Finset.mem_univ _, e.symm⟩)
/-- After the host stretch that follows pallas_call 1. -/
abbrev Wk5 : Dev nD → Valuation τ sig (Elt F) := fun c => StableHlo.after hostOps2 (Wk4 m c)
abbrev Vk5 : (c : Dev nD) → (b : Ref sig .tc) → Buf (Elt F) ((c : Thread nD τ).loc b) := fun c b => Wk5 m c (Proc.devRef .tc b)

/-- At pallas_call 2's exit: its output array at what the write-backs leave, every other buffer as entered. -/
def Wk6 (c : Dev nD) : Valuation τ sig (Elt F) :=
  Function.update (Wk5 m c) (Proc.devRef .tc main_v8) ((dat2 (Vk5 m) c).arrAt 2 cfg2.N)
abbrev Vk6 : (c : Dev nD) → (b : Ref sig .tc) → Buf (Elt F) ((c : Thread nD τ).loc b) := fun c b => Wk6 m c (Proc.devRef .tc b)
theorem Wk6_out (c : Dev nD) : Wk6 m c (Proc.devRef .tc main_v8) = (dat2 (Vk5 m) c).arrAt 2 cfg2.N := by
  unfold Wk6; exact Function.update_self ..
theorem Wk6_of_ne (c : Dev nD) (b : Ref sig .tc) (hb : b ≠ main_v8) : Wk6 m c (Proc.devRef .tc b) = Wk5 m c (Proc.devRef .tc b) := by
  unfold Wk6; exact Function.update_of_ne (StableHlo.devRef_ne_of_ne hb) ..
/-- Each array of the pipeline ends at the exit valuation's contents: an input as entered, the output as written back. -/
theorem hF2 (c : Dev nD) (w : Fin cfg2.W) : (dat2 (Vk5 m) c).arrAt w cfg2.N = Vk6 m c (Pipeline.arrRef spec2 w) :=
  match w with
  | ⟨0, _⟩ => (((dat2 (Vk5 m) c).arrAt_in 0 rfl _).trans (A_eq2 (Vk5 m) c 0)).trans (Wk6_of_ne m c main_v0 (by decide)).symm
  | ⟨1, _⟩ => (((dat2 (Vk5 m) c).arrAt_in 1 rfl _).trans (A_eq2 (Vk5 m) c 1)).trans (Wk6_of_ne m c main_v1 (by decide)).symm
  | ⟨2, _⟩ => (Wk6_out m c).symm
theorem hrest2 (c : Dev nD) : ∀ b, b ∉ Finset.univ.image (Pipeline.arrRef spec2) → Vk6 m c b = Vk5 m c b :=
  fun b hb => Wk6_of_ne m c b fun e => hb (Finset.mem_image.mpr ⟨2, Finset.mem_univ _, e.symm⟩)
/-- After the host stretch that follows pallas_call 2. -/
abbrev Wk7 : Dev nD → Valuation τ sig (Elt F) := fun c => StableHlo.after hostOps3 (Wk6 m c)
abbrev Vk7 : (c : Dev nD) → (b : Ref sig .tc) → Buf (Elt F) ((c : Thread nD τ).loc b) := fun c b => Wk7 m c (Proc.devRef .tc b)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk3 m) c
  | ⟨2, _⟩ => fun c => dat2 (Vk5 m) c
abbrev 𝒱k : Variants := Variants.none
abbrev Lk : GSem nD τ sig → Finset Unit := fun _ => ∅
abbrev lvk : GSem nD τ sig → Unit → ℕ := fun _ _ => 0
/-- What rides beside the buffers through every segment: the generator register at some state, and nothing owed. -/
abbrev Rk (c : Dev nD) : sProp 𝕄 := iprop((∃ r, prngReg c r) ∗ ∃ W, owes (c : Thread nD τ) (0 : CellTallies nD τ sig Unit) W)
/-- A host stretch as a segment. -/
abbrev hsegk (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

theorem mem_uck (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tk (c : Dev nD) : sProp 𝕄 := iprop(StableHlo.held (c : Thread nD τ) (Pipeline.ucRefs τ sig) (Wk7 m c) ∗ ∃ r, prngReg c r)

/-- The last host stretch's post, re-associated: the buffers and the generator register beside the core owing nothing. -/
theorem last_link (c : Dev nD) :
    iprop(StableHlo.held (c : Thread nD τ) (Pipeline.ucRefs τ sig) (StableHlo.after hostOps3 (Wk6 m c)) ∗ Rk (F := F) c)
      ⊢ (iprop(Tk m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem winFacts₀2' : Pipeline.WinFacts₀ spec2 := winFacts2.to₀

/-! ## The pallas_calls as segments -/

set_option backward.isDefEq.respectTransparency.types false in
/-- pallas_call 0 as a segment: entered from every unscoped buffer at the valuation before it, left at the one
    after it. Its arrays are split out of the unscoped buffers at entry and put back at exit; the generator register
    goes into the region's invariant and comes back; nothing is owed; the kernel has no semaphore of its own. -/
def reg0 : Pipeline.RegionSeg (pcfgs (F := F)) adm (pdats m) () defs₀ 𝒱k Lk lvk 0 where
  win := winFacts₀0
  block_pos := block_pos0
  stage_whole := stage_whole0
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ Rk c)
  post c := iprop(StableHlo.held (c : Thread nD τ) (Pipeline.ucRefs τ sig) (Wk2 m c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := entry_arrays0 (Vk1 m) c (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays0 (Vk1 m) c (Vk1 m c) (Vk2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 1 as a segment: entered from every unscoped buffer at the valuation before it, left at the one
    after it. Its arrays are split out of the unscoped buffers at entry and put back at exit; the generator register
    goes into the region's invariant and comes back; nothing is owed; the kernel has no semaphore of its own. -/
def reg1 : Pipeline.RegionSeg (pcfgs (F := F)) adm (pdats m) () defs₀ 𝒱k Lk lvk 1 where
  win := winFacts₀1
  block_pos := block_pos1
  stage_whole := stage_whole1
  K := PEmpty
  osem k := k.elim
  ho := Pipeline.OwnSemFacts.none _
  hbody c := (body_obligation1 (Vk3 m) c).loose
  hwaits := Pipeline.hwaits_of_owed_zero _ _ _ _ Lk lvk 1 fun _ _ => rfl
  pre c := iprop(StableHlo.held (c : Thread nD τ) (Pipeline.ucRefs τ sig) (Wk3 m c) ∗ Rk c)
  post c := iprop(StableHlo.held (c : Thread nD τ) (Pipeline.ucRefs τ sig) (Wk4 m c) ∗ Rk c)
  X c := iprop(∃ r, prngReg c r)
  Y c := iprop(∃ r, prngReg c r)
  Z c := Pipeline.unscopedRest (Ix := Unit) (Name := ℕ) (U := UR sig nD τ) (Lvl := ℕ) spec1 c (Vk3 m c)
  hentry c := by
    rw [Pipeline.ownSems0_none]
    have hsplit := entry_arrays1 (Vk3 m) c (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 (Vk3 m) c (Vk3 m c) (Vk4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 2 as a segment: entered from every unscoped buffer at the valuation before it, left at the one
    after it. Its arrays are split out of the unscoped buffers at entry and put back at exit; the generator register
    goes into the region's invariant and comes back; nothing is owed; the kernel has no semaphore of its own. -/
def reg2 : Pipeline.RegionSeg (pcfgs (F := F)) adm (pdats m) () defs₀ 𝒱k Lk lvk 2 where
  win := winFacts₀2'
  block_pos := block_pos2
  stage_whole := stage_whole2
  K := PEmpty
  osem k := k.elim
  ho := Pipeline.OwnSemFacts.none _
  hbody c := (body_obligation2 (Vk5 m) c).loose
  hwaits := Pipeline.hwaits_of_owed_zero _ _ _ _ Lk lvk 2 fun _ _ => rfl
  pre c := iprop(StableHlo.held (c : Thread nD τ) (Pipeline.ucRefs τ sig) (Wk5 m c) ∗ Rk c)
  post c := iprop(StableHlo.held (c : Thread nD τ) (Pipeline.ucRefs τ sig) (Wk6 m c) ∗ Rk c)
  X c := iprop(∃ r, prngReg c r)
  Y c := iprop(∃ r, prngReg c r)
  Z c := Pipeline.unscopedRest (Ix := Unit) (Name := ℕ) (U := UR sig nD τ) (Lvl := ℕ) spec2 c (Vk5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vk5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vk5 m c) (Vk6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segsk : List (Pipeline.Seg (pcfgs (F := F)) adm (pdats m) () defs₀ 𝒱k Lk lvk) :=
  [ .host (hsegk hostOps0 hostOps0_sub hostOps0_fresh (Wk0 m)),
    .region (reg0 m),
    .host (hsegk hostOps1 hostOps1_sub hostOps1_fresh (Wk2 m)),
    .region (reg1 m),
    .host (hsegk hostOps2 hostOps2_sub hostOps2_fresh (Wk4 m)),
    .region (reg2 m),
    .host (hsegk hostOps3 hostOps3_sub hostOps3_fresh (Wk6 m)) ]

theorem main_runk (c : Dev nD) : main (F := F) c = Pipeline.Seg.run (segsk m) := (main_chain c).trans (by chain_rfl)

set_option backward.isDefEq.respectTransparency.types false in
/-- Every weakly fair execution of @main from memory m with zero counters terminates, nothing faulting, and every
    final memory holds each unscoped buffer at the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk7 m c b) :=
  Pipeline.θ_run_regions_kit (pcfgs (F := F)) adm (pdats m) () cellOf_inj emb₁ defs₀ 𝒱k Lk lvk m ρ main (segsk m)
    (fun c Q => by rw [main_runk m c])
    (by simp only [segsk, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rk c)) (Tₙ := Tk m)
    (hch := ⟨fun _ => .rfl, fun _ => .rfl, fun _ => .rfl, fun _ => .rfl, fun _ => .rfl, fun _ => .rfl, fun _ => .rfl, fun c => last_link m c⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk7 m c b)
    (hfin := fun c s' => by
      iintro ⟨⟨Hh, -⟩, HSI⟩
      unfold StableHlo.held
      imodintro
      iapply (pointsTo_read_all (Pipeline.ucRefs τ sig) (fun b => (((c : Thread nD τ)).1, b)) (Wk7 m c) s')
      isplitl [Hh] <;> iassumption)
    (hQ := fun s h c => h c)

end Cert.KernelIdeal.Hand

end
-- ==== Proof.KIRes.lean ====
/-
  What the run leaves: the two argument arrays as launched, and the result as the host operations' value of the
  three pallas_calls' output arrays.

  No host operation writes an argument and no pallas_call changes one (they are read through input windows), so the
  last valuation at an argument walks back to the launch memory. The result is
  (s0 / N + s1 / N) − 2 · (s2 / N), each s the sum over one call's 64 × 128 output array divided by 1024.
-/
import proofs.«165426_j87875030876301_2_alg».proof.Proof.KIReg
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation writes and that is no call's output holds its launch contents at the end. -/
theorem Wk7_kept (c : Dev nD) (r : Ref sig .tc) (h0 : r ∉ hostOps0_W) (h1 : r ∉ hostOps1_W) (h2 : r ∉ hostOps2_W) (h3 : r ∉ hostOps3_W)
    (n2 : r ≠ main_v2) (n5 : r ≠ main_v5) (n8 : r ≠ main_v8) :
    Wk7 m c (Proc.devRef .tc r) = m ((c : Thread nD τ).loc r) :=
  (StableHlo.after_of_writes_sub hostOps3 _ hostOps3_writes h3).trans <| (Wk6_of_ne m c r n8).trans <|
  (StableHlo.after_of_writes_sub hostOps2 _ hostOps2_writes h2).trans <| (Wk4_of_ne m c r n5).trans <|
  (StableHlo.after_of_writes_sub hostOps1 _ hostOps1_writes h1).trans <| (Wk2_of_ne m c r n2).trans <|
  (StableHlo.after_of_writes_sub hostOps0 _ hostOps0_writes h0).trans rfl

theorem Wk7_main_arg0 (c : Dev nD) : Wk7 m c (Proc.devRef .tc main_arg0) = m ((c : Thread nD τ).loc main_arg0) :=
  Wk7_kept m c main_arg0 (by decide) (by decide) (by decide) (by decide) (by decide) (by decide) (by decide)
theorem Wk7_main_arg1 (c : Dev nD) : Wk7 m c (Proc.devRef .tc main_arg1) = m ((c : Thread nD τ).loc main_arg1) :=
  Wk7_kept m c main_arg1 (by decide) (by decide) (by decide) (by decide) (by decide) (by decide) (by decide)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uck main_arg0 (by decide))).trans (Wk7_main_arg0 m c),
     (h c _ (mem_uck main_arg1 (by decide))).trans (Wk7_main_arg1 m c)⟩) (run_all m ρ)

/-! ## The result -/

/-- One call's total: the sum over its 64 × 128 output array, from zero, divided by 1024. -/
def callSum (O : (⟨S64x128, .f32⟩ : BufTy).Contents (Elt F)) : (⟨S_, .f32⟩ : BufTy).Contents (Elt F) :=
  Host.divf (Host.reduceAdd O (constant S_ .f32 0x00000000#32) reducesTo_S64x128_S_d0_1 h_S_) (constant S_ .f32 0x44800000#32)

/-- The three totals combined: (s0 / N + s1 / N) − 2 · (s2 / N), N the word 0x4C800000. -/
def combine (s0 s1 s2 : (⟨S_, .f32⟩ : BufTy).Contents (Elt F)) : (⟨S_, .f32⟩ : BufTy).Contents (Elt F) :=
  subf (addf (Host.divf s0 (constant S_ .f32 0x4C800000#32)) (Host.divf s1 (constant S_ .f32 0x4C800000#32)))
    (mulf (constant S_ .f32 0x40000000#32) (Host.divf s2 (constant S_ .f32 0x4C800000#32)))

/-- The three output arrays as the pallas_calls leave them. -/
abbrev O0 (c : Dev nD) := (dat0 (Vk1 m) c).arrAt 2 cfg0.N
abbrev O1 (c : Dev nD) := (dat1 (Vk3 m) c).arrAt 2 cfg1.N
abbrev O2 (c : Dev nD) := (dat2 (Vk5 m) c).arrAt 2 cfg2.N

theorem Wk3_v4 (c : Dev nD) : Wk3 m c (Proc.devRef .tc main_v4) = callSum (Wk2 m c (Proc.devRef .tc main_v2)) := by
  show StableHlo.after hostOps1 _ (Proc.devRef .tc main_v4) = _
  after_results
  rfl
theorem Wk5_v7 (c : Dev nD) : Wk5 m c (Proc.devRef .tc main_v7) = callSum (Wk4 m c (Proc.devRef .tc main_v5)) := by
  show StableHlo.after hostOps2 _ (Proc.devRef .tc main_v7) = _
  after_results
  rfl
theorem Wk7_v16 (c : Dev nD) : Wk7 m c (Proc.devRef .tc main_v16)
    = combine (Wk6 m c (Proc.devRef .tc main_v4)) (Wk6 m c (Proc.devRef .tc main_v7)) (callSum (Wk6 m c (Proc.devRef .tc main_v8))) := by
  show StableHlo.after hostOps3 _ (Proc.devRef .tc main_v16) = _
  after_results
  rfl

theorem Wk6_v4 (c : Dev nD) : Wk6 m c (Proc.devRef .tc main_v4) = callSum (O0 m c) :=
  (Wk6_of_ne m c main_v4 (by decide)).trans <| (StableHlo.after_of_writes_sub hostOps2 _ hostOps2_writes (by decide)).trans <|
  (Wk4_of_ne m c main_v4 (by decide)).trans <| (Wk3_v4 m c).trans (congrArg callSum (Wk2_out m c))
theorem Wk6_v7 (c : Dev nD) : Wk6 m c (Proc.devRef .tc main_v7) = callSum (O1 m c) :=
  (Wk6_of_ne m c main_v7 (by decide)).trans <| (Wk5_v7 m c).trans (congrArg callSum (Wk4_out m c))

/-- The result buffer at the end. -/
theorem result_eq (c : Dev nD) : Wk7 m c (Proc.devRef .tc main_v16) = combine (callSum (O0 m c)) (callSum (O1 m c)) (callSum (O2 m c)) := by
  rw [Wk7_v16, Wk6_v4, Wk6_v7, Wk6_out]

/-- THE RUN WITH ITS RESULT NAMED: every weakly fair execution terminates with the result buffer at the host
    operations' value of the three output arrays, the arguments as launched. -/
theorem run_value : θ_run defs (onTc (τ := τ) (main (F := F))) ⟨m, fun _ => 0, ρ⟩ (fun r => ∀ c : Dev nD,
      r.2.mem ((c.tc : Thread nD τ).loc main_v16) = combine (callSum (O0 m c)) (callSum (O1 m c)) (callSum (O2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uck main_v16 (by decide))).trans (result_eq m c),
     (h c _ (mem_uck main_arg0 (by decide))).trans (Wk7_main_arg0 m c),
     (h c _ (mem_uck main_arg1 (by decide))).trans (Wk7_main_arg1 m c)⟩) (run_all m ρ)

end Cert.KernelIdeal.Hand

end
-- ==== Proof.Spec.lean ====
/-
  The quantity both programs compute, as one function of two arrays of 8192 rows of 512 extended reals.

  For arrays A, B the Gaussian kernel of row p of A against row q of B is
      exp(-1/2 · max(|A_p|² + |B_q|² − 2·(A_p · B_q), 0)),
  the squared distance being written through the two squared norms and the inner product and clamped at zero.
  `total A B` adds the kernel over all 8192 × 8192 pairs of rows, `mean A B` divides by the number of pairs
  (2^26 = 67108864), and the result is mean X X + mean Y Y − 2 · mean X Y.

  Every operation is the extended reals' own (sum, product, difference, `max`, `Ideal.exp`, `Ideal.div`), and the
  four float constants stay as the words that denote them (0xBF000000 = −1/2, 0x40000000 = 2, 0x00000000 = 0,
  0x4C800000 = 2^26). The order of the operands is fixed: 2 and −1/2 are LEFT factors, the clamp is `max d 0`, and
  the last line is (mean X X + mean Y Y) − 2 · mean X Y.
-/
import Idealize.ShloMosaic.PureOps.Ideal
import Idealize.ShloMosaic.Lib.ValueIdx

noncomputable section

open scoped BigOperators

namespace Cert.MMD

open Idealize.ShloMosaic Idealize.ShloMosaic.ValueIdx

/-- The contents of an f32[8192, 512] buffer read as extended reals. -/
abbrev Arr : Type := (⟨2, ![8192, 512]⟩ : Shape).Idx → EReal

/-- The squared norm of row `p`. -/
def rowSq (A : Arr) (p : Fin 8192) : EReal :=
  ∑ k : Fin 512, A (ix2 p k) * A (ix2 p k)

/-- The inner product of row `p` of `A` with row `q` of `B`. -/
def gram (A B : Arr) (p q : Fin 8192) : EReal :=
  ∑ k : Fin 512, A (ix2 p k) * B (ix2 q k)

/-- The Gaussian kernel of row `p` of `A` against row `q` of `B`: exp(−1/2 · max(|A_p|² + |B_q|² − 2 A_p·B_q, 0)). -/
def kern (A B : Arr) (p q : Fin 8192) : EReal :=
  Ideal.exp (Ideal.ofBits .f32 0xBF000000#32 *
    max (rowSq A p + rowSq B q - Ideal.ofBits .f32 0x40000000#32 * gram A B p q) (Ideal.ofBits .f32 0x00000000#32))

/-- The kernel added over all pairs of rows. -/
def total (A B : Arr) : EReal :=
  ∑ p : Fin 8192, ∑ q : Fin 8192, kern A B p q

/-- The mean of the kernel over the 2^26 pairs of rows. -/
def mean (A B : Arr) : EReal :=
  Ideal.div (total A B) (Ideal.ofBits .f32 0x4C800000#32)

/-- The result: mean X X + mean Y Y − 2 · mean X Y. -/
def mmd (X Y : Arr) : EReal :=
  mean X X + mean Y Y - Ideal.ofBits .f32 0x40000000#32 * mean X Y

/-- The result written out over the three totals. -/
theorem mmd_eq (X Y : Arr) :
    mmd X Y = Ideal.div (total X X) (Ideal.ofBits .f32 0x4C800000#32)
        + Ideal.div (total Y Y) (Ideal.ofBits .f32 0x4C800000#32)
        - Ideal.ofBits .f32 0x40000000#32 * Ideal.div (total X Y) (Ideal.ofBits .f32 0x4C800000#32) := rfl

end Cert.MMD

end
-- ==== Proof.RefBlock.lean ====
/-
  One Gaussian-kernel mean of the reference, read index by index.

  The reference forms, for a pair of arrays (A, B): the squared row norms of A as a column and of B as a row, both
  spread over the 8192 × 8192 square and added; twice the matrix of inner products A Bᵀ subtracted; the clamp at
  zero; the product with −1/2; the exponential; the sum over the whole square from zero; and the quotient by 2^26.
  Read at the pair of rows (p, q), everything before the sum is `kern A B p q`: the spreadings and the two
  transpositions only move indices (row p of A on the left, row q of B on the right), a row sum from zero is the
  plain sum, and the inner product contracts the 512 columns. The sum over the square of indices is the double
  sum over its two coordinates, so the whole stage is `mean A B`.

  The program writes this block three times, for (x, x), (y, y) and (x, y). It is read here once, on the third
  copy, whose two operands are different variables; the first two copies are the third with both operands equal.
-/
import proofs.«165426_j87875030876301_2_alg».proof.Proof.Gen.ReferenceIdeal.Read
import proofs.«165426_j87875030876301_2_alg».proof.Proof.Spec

noncomputable section

open scoped BigOperators

namespace Cert.MMD.RefSide

open Cert.ReferenceIdeal Cert.ReferenceIdeal.Gen Cert.ReferenceIdeal.Read Idealize.ShloMosaic Idealize.ShloMosaic.ValueIdx

/-! ## Where each operand is read -/

/-- The column of squared norms, spread along the rows of the square, is read at row `p` of the left array. -/
theorem row_of_left (p q : Fin 8192) (k : Fin 512) :
    idx_main_v46 (idx_main_v47 (idx_main_v52 (ix2 p q))) k = ix2 p k :=
  funext fun a => Fin.ext (by match a with | ⟨0, _⟩ => rfl | ⟨1, _⟩ => rfl)

/-- The transposed column of squared norms, spread along the columns of the square, is read at row `q` of the
    right array. -/
theorem row_of_right (p q : Fin 8192) (k : Fin 512) :
    idx_main_v49 (idx_main_v50 (idx_main_v51 (idx_main_v53 (ix2 p q)))) k = ix2 q k :=
  funext fun a => Fin.ext (by match a with | ⟨0, _⟩ => rfl | ⟨1, _⟩ => rfl)

/-- The inner product's left factor at (p, q) and column `k` is entry (p, k) of the left array. -/
theorem dot_left (p q : Fin 8192) (k : Fin 512) : lidx_main_v56 (ix2 p q) k = ix2 p k :=
  funext fun a => Fin.ext (by match a with | ⟨0, _⟩ => rfl | ⟨1, _⟩ => rfl)

/-- Its right factor is entry (k, q) of the transposed right array, that is entry (q, k) of the right array. -/
theorem dot_right (p q : Fin 8192) (k : Fin 512) : idx_main_v55 (ridx_main_v56 (ix2 p q) k) = ix2 q k :=
  funext fun a => Fin.ext (by match a with | ⟨0, _⟩ => rfl | ⟨1, _⟩ => rfl)

/-! ## The block -/

/-- The exponential stage at the pair of rows (p, q) is the Gaussian kernel of row `p` of `A` against row `q` of `B`. -/
theorem kern_at (A B : Arr) (p q : Fin 8192) :
    val_main_v64 (F := Ideal) A B (ix2 p q) = kern A B p q := by
  rw [val_main_v64_apply, val_main_v63_apply, val_main_v62_apply, val_main_cst_17_apply, val_main_v61_apply,
    val_main_v60_apply, val_main_cst_16_apply, val_main_v59_apply, val_main_v54_apply, val_main_v52_apply,
    val_main_v47_apply, val_main_v46_apply, val_main_cst_13_apply, val_main_v53_apply, val_main_v51_apply,
    val_main_v50_apply, val_main_v49_apply, val_main_cst_14_apply, val_main_v58_apply, val_main_v57_apply,
    val_main_cst_15_apply, val_main_v56_apply]
  simp only [row_of_left, row_of_right, dot_left, dot_right, val_main_v45_apply, val_main_v48_apply,
    val_main_v55_apply, Ideal.hostUnary_exp_def, Ideal.mulf_def, Ideal.maximumf_def, Ideal.subf_def,
    Ideal.addf_def, Ideal.ofBits_def, Ideal.ofBits_zero_f32, zero_add, kern, rowSq, gram]

/-- The whole block: the sum of the kernel over the square, from zero, divided by 2^26, is `mean A B`. -/
theorem mean_at (A B : Arr) : val_main_v66 (F := Ideal) A B = fun _ => mean A B := by
  funext i
  rw [val_main_v66_apply, val_main_v65_apply, val_main_cst_18_apply, val_main_cst_19_apply, sum_idx2]
  simp only [kern_at, Ideal.hostDivf_def, Ideal.ofBits_def, Ideal.ofBits_zero_f32, zero_add, mean, total]

/-- The first copy of the block, on (x, x), is the third with both operands `A`: the same operations in the same
    order. -/
theorem mean_first (A : Arr) : val_main_v21 (F := Ideal) A = fun _ => mean A A :=
  (show val_main_v21 (F := Ideal) A = val_main_v66 (F := Ideal) A A from rfl).trans (mean_at A A)

/-- The second copy, on (y, y), likewise. -/
theorem mean_second (A : Arr) : val_main_v43 (F := Ideal) A = fun _ => mean A A :=
  (show val_main_v43 (F := Ideal) A = val_main_v66 (F := Ideal) A A from rfl).trans (mean_at A A)

end Cert.MMD.RefSide

end
-- ==== Proof.RefSide.lean ====
/-
  The reference program computes `mmd`.

  Its last three operations add the means of the kernel over (x, x) and (y, y), double the mean over (x, y) and
  subtract; each mean is one copy of the block read in RefBlock. So the result buffer, a scalar, holds
  `mmd x y` at its one index. The generated run of the program says every weakly fair execution ends with the
  result at the operations' composed term and the arguments unchanged; that term is the last stage, and the last
  stage is `mmd`. Dropping the result gives the program's frame.
-/
import proofs.«165426_j87875030876301_2_alg».proof.Defs
import proofs.«165426_j87875030876301_2_alg».proof.Proof.Gen.ReferenceIdeal.Read
import proofs.«165426_j87875030876301_2_alg».proof.Proof.Gen.Pre_finite_inputs
import proofs.«165426_j87875030876301_2_alg».proof.Proof.RefBlock

noncomputable section

namespace Cert.MMD.RefSide

open Cert.ReferenceIdeal Cert.ReferenceIdeal.Gen Cert.ReferenceIdeal.Read Idealize.ShloMosaic Idealize.ShloMosaic.TcCoe
  Idealize.SL.Sem

/-- The last stage, as a function of the two argument arrays, is the constant scalar `mmd X Y`:
    (mean X X + mean Y Y) − 2 · mean X Y, with 2 the left factor. -/
theorem ref_result (X Y : Arr) : val_main_v68 (F := Ideal) X Y = fun _ => mmd X Y := by
  funext i
  rw [val_main_v68_apply, val_main_v44_apply, val_main_v67_apply, val_main_cst_20_apply, mean_first, mean_second,
    mean_at]
  simp only [Ideal.subf_def, Ideal.addf_def, Ideal.mulf_def, Ideal.ofBits_def, mmd]

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the reference ends with the result buffer at `mmd` of the two argument arrays
    as they were at the start, and the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v68)
            = (fun _ => mmd (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v68_eq (F := Ideal) _ _).trans (ref_result _ _)), (h c).2⟩)
    (Cert.ReferenceIdeal.Value.run (F := Ideal) m' g')

end Cert.MMD.RefSide

end
-- ==== Proof.KIEntry.lean ====
/-
  What the pallas_calls find in their operand arrays: the bf16 casts of the two arguments.

  The first host stretch casts each argument to bf16; nothing after it writes those two arrays (the later host
  stretches write only scalars, the pallas_calls only their own outputs), so every call is entered with them unchanged.
-/
import proofs.«165426_j87875030876301_2_alg».proof.Proof.KIReg
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem Vk1_v0 (c : Dev nD) : Vk1 m c main_v0
    = (truncf .bf16 (m ((c : Thread nD τ).loc main_arg0) : (⟨S8192x512, .f32⟩ : BufTy).Contents (Elt F)) bitsLt_bf16_f32 : (⟨S8192x512, .bf16⟩ : BufTy).Contents (Elt F)) := by
  show StableHlo.after hostOps0 _ (Proc.devRef .tc main_v0) = _
  after_results
theorem Vk1_v1 (c : Dev nD) : Vk1 m c main_v1
    = (truncf .bf16 (m ((c : Thread nD τ).loc main_arg1) : (⟨S8192x512, .f32⟩ : BufTy).Contents (Elt F)) bitsLt_bf16_f32 : (⟨S8192x512, .bf16⟩ : BufTy).Contents (Elt F)) := by
  show StableHlo.after hostOps0 _ (Proc.devRef .tc main_v1) = _
  after_results

theorem Vk3_v1 (c : Dev nD) : Vk3 m c main_v1 = Vk1 m c main_v1 :=
  (StableHlo.after_of_writes_sub hostOps1 _ hostOps1_writes (by decide)).trans (Wk2_of_ne m c main_v1 (by decide))
theorem Vk5_v0 (c : Dev nD) : Vk5 m c main_v0 = Vk1 m c main_v0 :=
  (StableHlo.after_of_writes_sub hostOps2 _ hostOps2_writes (by decide)).trans <| (Wk4_of_ne m c main_v0 (by decide)).trans <|
  (StableHlo.after_of_writes_sub hostOps1 _ hostOps1_writes (by decide)).trans (Wk2_of_ne m c main_v0 (by decide))
theorem Vk5_v1 (c : Dev nD) : Vk5 m c main_v1 = Vk1 m c main_v1 :=
  (StableHlo.after_of_writes_sub hostOps2 _ hostOps2_writes (by decide)).trans <| (Wk4_of_ne m c main_v1 (by decide)).trans <|
  (StableHlo.after_of_writes_sub hostOps1 _ hostOps1_writes (by decide)).trans (Wk2_of_ne m c main_v1 (by decide))

end Cert.KernelIdeal.Hand

end
-- ==== Proof.KIValPay0.lean ====
/-
  What the body of pallas_call 0 leaves in its output block, as a pure function of what it loads.

  The body's last store covers the whole 8 × 128 output block, and its value is one term of the two input
  blocks, the grid coordinates and the output block as loaded just before. Away from the first column-block
  (j ≠ 0) the loaded output block is what the block held when the body started. At j = 0 the body has first
  stored the zero block over the whole output block, so the later load reads that zero block back, whatever
  the block held before. Every load reads a whole buffer from offset zero, so it reads the buffer's contents
  unchanged.
-/
import proofs.«165426_j87875030876301_2_alg».proof.Proof.KIDat0
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The offset of every load and store of the body: the origin of its buffer. -/
theorem origin0 : (![0, 0] : Fin 2 → Nat) = fun _ => 0 := funext fun a => by fin_cases a <;> rfl

/-- Away from the first column-block the body leaves the store's value over the block it found, `xo`. -/
theorem out0_B_eq (c : Dev nD) (i : grid0.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : ¬cond0 i) (x0 : Vec F S1024x512 .bf16) (x1 : Vec F S512x512 .bf16) (xo : Vec F S8x128 .f32) :
    out0_B c i a2 h2 a3 h3 a4 h4 hc x0 x1 xo = k0_pay1 (k0_pay3 i) (k0_pay4 i) (k0_pay5 i x0 x1) k0_pay6 xo := by
  unfold out0_B
  rw [View.read_writes_eq_canon _ _ _ (cover0_B c i a2 h2 a3 h3 a4 h4 hc x0 x1 xo)]
  unfold kernelRun0_B
  dsimp only
  rw [View.canon_unit_zero origin0]
  simp only [View.readAt_eq_ld, h2.read_unread, h3.read_unread, h4.read_unread,
    View.ld_unit_zero (S := S1024x512) origin0, View.ld_unit_zero (S := S512x512) origin0,
    View.ld_unit_zero (S := S8x128) origin0]

/-- At the first column-block the body leaves the store's value over the zero block it has just stored. -/
theorem out0_A_eq (c : Dev nD) (i : grid0.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : cond0 i) (x0 : Vec F S1024x512 .bf16) (x1 : Vec F S512x512 .bf16) :
    out0_A c i a2 h2 a3 h3 a4 h4 hc x0 x1 = k0_pay1 (k0_pay3 i) (k0_pay4 i) (k0_pay5 i x0 x1) k0_pay6 k0_pay2 := by
  unfold out0_A
  rw [View.read_writes_eq_canon _ _ _ (cover0_A c i a2 h2 a3 h3 a4 h4 hc x0 x1)]
  unfold kernelRun0_A
  dsimp only
  sl_unfold_words
  rw [View.canon_cons_unit_zero (S := S8x128) origin0, View.readCov_unit_zero (S := S8x128) _ origin0]
  simp only [View.readAt_eq_ld, h2.read_unread, h3.read_unread,
    View.ld_unit_zero (S := S1024x512) origin0, View.ld_unit_zero (S := S512x512) origin0]

end Cert.KernelIdeal.Hand

end
-- ==== Proof.KIValAcc0.lean ====
/-
  What the output block of pallas_call 0 holds after each grid point, as the body's store value.

  Within a block-row the output's staging buffer is carried from one point to the next. After a point in the
  first column-block (t % 16 = 0) it holds the store's value over the zero block; after any other point it holds
  the store's value over what the point before left. The store's value is a pure term of the grid coordinates and
  the two input blocks at the point.
-/
import proofs.«165426_j87875030876301_2_alg».proof.Proof.KIValPay0
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section Region
variable (V : (c : Dev nD) → (b : Ref sig .tc) → Buf (Elt F) ((c : Thread nD τ).loc b))

/-- After a point of the first column-block: the store's value over the zero block. -/
theorem outsAt0_first (c : Dev nD) (t : Fin cfg0.N) (h0 : t.val % 16 = 0) :
    outsAt0 V c t.val t.isLt = k0_pay1 (k0_pay3 (grid0.coords t)) (k0_pay4 (grid0.coords t)) (k0_pay5 (grid0.coords t) (iblk0 V c 0 t) (iblk0 V c 1 t)) k0_pay6 k0_pay2 :=
  (outsAt0_A V c t h0).trans
    (out0_A_eq c (grid0.coords t) (ms0_0 t) (hs0_0 t) (ms0_1 t) (hs0_1 t) (ms0_2 t) (hs0_2 t) ((hcond0 t).mpr h0)
      (iblk0 V c 0 t) (iblk0 V c 1 t))

/-- After any other point: the store's value over what the point before left. -/
theorem outsAt0_next (c : Dev nD) (t : Fin cfg0.N) (h0 : ¬t.val % 16 = 0) :
    outsAt0 V c t.val t.isLt
      = k0_pay1 (k0_pay3 (grid0.coords t)) (k0_pay4 (grid0.coords t)) (k0_pay5 (grid0.coords t) (iblk0 V c 0 t) (iblk0 V c 1 t)) k0_pay6
          (outsAt0 V c (t.val - 1) (Nat.lt_of_le_of_lt (Nat.sub_le _ _) t.isLt)) :=
  (outsAt0_B V c t h0).trans
    (out0_B_eq c (grid0.coords t) (ms0_0 t) (hs0_0 t) (ms0_1 t) (hs0_1 t) (ms0_2 t) (hs0_2 t)
      (fun h => h0 ((hcond0 t).mp h)) (iblk0 V c 0 t) (iblk0 V c 1 t)
      (outsAt0 V c (t.val - 1) (Nat.lt_of_le_of_lt (Nat.sub_le _ _) t.isLt)))

/-- The same step written at point n + 1 over point n, the form an induction along a block-row uses. -/
theorem outsAt0_succ (c : Dev nD) (n : ℕ) (hn : n + 1 < cfg0.N) (h0 : ¬(n + 1) % 16 = 0) :
    outsAt0 V c (n + 1) hn
      = k0_pay1 (k0_pay3 (grid0.coords ⟨n + 1, hn⟩)) (k0_pay4 (grid0.coords ⟨n + 1, hn⟩)) (k0_pay5 (grid0.coords ⟨n + 1, hn⟩) (iblk0 V c 0 ⟨n + 1, hn⟩) (iblk0 V c 1 ⟨n + 1, hn⟩)) k0_pay6
          (outsAt0 V c n (Nat.lt_of_succ_lt hn)) :=
  outsAt0_next V c ⟨n + 1, hn⟩ h0

end Region

end Cert.KernelIdeal.Hand

end
-- ==== Proof.KIValBlk0.lean ====
/-
  The input blocks of pallas_call 0 at a grid point, entry by entry.

  Point t of the 8 × 16 row-major grid has block-row t / 16 and column-block t % 16. The first operand's block is
  1024 rows of 512 at block index (t / 16, 0) of its array of 8192 rows; the second operand's block is 512 rows of
  512 at block index (t % 16, 0) of its array. An entry of a block sits in the array, on each axis, at the block
  index times the block's extent plus its coordinate inside the block. So entry (r, k) of the first block is entry
  (1024 (t / 16) + r, k) of the first array, and entry (r, k) of the second block is entry (512 (t % 16) + r, k)
  of the second array.
-/
import proofs.«165426_j87875030876301_2_alg».proof.Proof.KIDat0
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The two input windows' block indices at point t, decided over the 128 points. -/
theorem in_index0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0 :=
  (by decide +kernel : ∀ t : Fin grid0.N,
    win0_0.index t (0 : Fin 2) = t.val / 16 ∧ win0_0.index t (1 : Fin 2) = 0
    ∧ win0_1.index t (0 : Fin 2) = t.val % 16 ∧ win0_1.index t (1 : Fin 2) = 0)

/-- The grid coordinates of point t: block-row t / 16 and column-block t % 16. -/
theorem coords0 : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Row r of the first block at point t is a row of the first array. -/
theorem rowLeft0 (t : Fin cfg0.N) (r : Fin 1024) : 1024 * (t.val / 16) + r.val < 8192 := by
  have ht : t.val < 128 := lt_of_lt_of_eq t.isLt (show cfg0.N = 128 from N_0)
  have hr : r.val < 1024 := r.isLt
  omega

/-- Row r of the second block at point t is a row of the second array. -/
theorem rowRight0 (t : Fin cfg0.N) (r : Fin 512) : 512 * (t.val % 16) + r.val < 8192 := by
  have hr : r.val < 512 := r.isLt
  omega

/-- Entry (r, k) of the first operand's block at point t. -/
theorem iblk0_0_apply (c : Dev nD) (t : Fin cfg0.N) (r : Fin 1024) (k : Fin 512) :
    iblk0 V c 0 t (ix2 r k) = V c main_v0 (ix2 ⟨1024 * (t.val / 16) + r.val, rowLeft0 t r⟩ k) := by
  unfold iblk0
  obtain ⟨e0, e1, -, -⟩ := in_index0 t
  show V c main_v0 (((cfg0.win 0).blk t).view.emb (ix2 r k)) = V c main_v0 _
  refine congrArg (V c main_v0) (funext fun a => Fin.ext ?_)
  match a with
  | ⟨0, _⟩ => show win0_0.index t (0 : Fin 2) * 1024 + 1 * r.val = 1024 * (t.val / 16) + r.val; omega
  | ⟨1, _⟩ => show win0_0.index t (1 : Fin 2) * 512 + 1 * k.val = k.val; omega

/-- Entry (r, k) of the second operand's block at point t. -/
theorem iblk0_1_apply (c : Dev nD) (t : Fin cfg0.N) (r : Fin 512) (k : Fin 512) :
    iblk0 V c 1 t (ix2 r k) = V c main_v0 (ix2 ⟨512 * (t.val % 16) + r.val, rowRight0 t r⟩ k) := by
  unfold iblk0
  obtain ⟨-, -, e0, e1⟩ := in_index0 t
  show V c main_v0 (((cfg0.win 1).blk t).view.emb (ix2 r k)) = V c main_v0 _
  refine congrArg (V c main_v0) (funext fun a => Fin.ext ?_)
  match a with
  | ⟨0, _⟩ => show win0_1.index t (0 : Fin 2) * 512 + 1 * r.val = 512 * (t.val % 16) + r.val; omega
  | ⟨1, _⟩ => show win0_1.index t (1 : Fin 2) * 512 + 1 * k.val = k.val; omega

end Region

end Cert.KernelIdeal.Hand

end
-- ==== Proof.KIValArr0.lean ====
/-
  The output array of pallas_call 0 after the call, index by index.

  The output is 64 rows of 128; its window's block is 8 rows of 128 and its block index at grid point t is
  (t / 16, 0), so block-row i of the array belongs to the sixteen points 16 i … 16 i + 15 and is written back
  once, after the last of them. The eight points that write back (t % 16 = 15) write disjoint blocks that
  together fill the array. So row R of the array, column C, ends holding row R % 8, column C of what the
  output's staging buffer held after point 16 (R / 8) + 15.
-/
import proofs.«165426_j87875030876301_2_alg».proof.Proof.KIDat0
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The output window's block index at point t is (t / 16, 0), decided over the 128 points. -/
theorem out_index0 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The last point of the block-row that holds row `i 0` is a point of the grid. -/
theorem lastPoint0 (i : S64x128.Idx) : 16 * ((i 0).val / 8) + 15 < cfg0.N := by
  have h : (i 0).val < 64 := idx2_lt0 i
  show _ < grid0.N
  rw [N_0]; omega

/-- The array the call leaves: at (R, C), entry (R % 8, C) of the staging buffer after point 16 (R / 8) + 15. -/
def arr0 (c : Dev nD) : S64x128.Idx → Elt F .f32 := fun i =>
  outsAt0 V c (16 * ((i 0).val / 8) + 15) (lastPoint0 i)
    (ix2 ⟨(i 0).val % 8, Nat.mod_lt _ (by decide)⟩ ⟨(i 1).val, idx2_lt1 i⟩)

/-- That array at an index, against the staging buffer after a point given by its number and read at a block
    index given by its coordinates. -/
theorem arr0_at (c : Dev nD) (i : S64x128.Idx) (n : ℕ) (hn : n < cfg0.N) (y : S8x128.Idx)
    (h1 : 16 * ((i 0).val / 8) + 15 = n) (h2 : (i 0).val % 8 = (y 0).val) (h3 : (i 1).val = (y 1).val) :
    arr0 V c i = outsAt0 V c n hn y := by
  subst h1
  unfold arr0
  congr 1
  funext a
  match a with
  | ⟨0, _⟩ => exact Fin.ext h2
  | ⟨1, _⟩ => exact Fin.ext h3

/-- What a point that writes back writes is its block of that array: entry y of the block of point t sits at
    row 8 (t / 16) + y₀, column y₁, and t = 16 (t / 16) + 15. -/
theorem flushed0_eq (c : Dev nD) (t : Fin cfg0.N) (ht : t.val % 16 = 15) :
    (dat0 V c).flushed 2 t = ((cfg0.win 2).blk t).view.read (Elt F) (arr0 V c) := by
  show (cfg0.win 2).cut (grid0.coords t) ((dat0 V c).after 2 t) = _
  rw [after0_2]
  obtain ⟨e0, e1⟩ := out_index0 t
  funext y
  show outsAt0 V c t.val t.isLt y = arr0 V c (((cfg0.win 2).blk t).view.emb y)
  have hy0 : (y 0).val < 8 := (y 0).isLt
  have hy1 : (y 1).val < 128 := (y 1).isLt
  refine (arr0_at V c _ t.val t.isLt y ?_ ?_ ?_).symm
  · show 16 * ((win0_2.index t (0 : Fin 2) * 8 + 1 * (y 0).val) / 8) + 15 = t.val
    omega
  · show (win0_2.index t (0 : Fin 2) * 8 + 1 * (y 0).val) % 8 = (y 0).val
    omega
  · show win0_2.index t (1 : Fin 2) * 128 + 1 * (y 1).val = (y 1).val
    omega

/-- An index of the array is in the block of point t when each coordinate is in the block's range. -/
theorem mem_blk0 (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every index of the array is in the block of a point that writes back: row R in that of point 16 (R / 8) + 15. -/
theorem cover0 (i : S64x128.Idx) : ∃ t : Fin cfg0.N, (cfg0.win 2).flush t = true ∧ i ∈ ((cfg0.win 2).blk t).view.set := by
  have h0 : (i 0).val < 64 := idx2_lt0 i
  have h1 : (i 1).val < 128 := idx2_lt1 i
  refine ⟨⟨16 * ((i 0).val / 8) + 15, lastPoint0 i⟩, (flush0_2 _).mpr (by show (16 * ((i 0).val / 8) + 15) % 16 = 15; omega), ?_⟩
  obtain ⟨e0, e1⟩ := out_index0 ⟨16 * ((i 0).val / 8) + 15, lastPoint0 i⟩
  have e0' : win0_2.index ⟨16 * ((i 0).val / 8) + 15, lastPoint0 i⟩ (0 : Fin 2) = (16 * ((i 0).val / 8) + 15) / 16 := e0
  rw [mem_blk0]
  intro a
  match a with
  | ⟨0, _⟩ => show win0_2.index _ (0 : Fin 2) * 8 ≤ (i 0).val ∧ (i 0).val < win0_2.index _ (0 : Fin 2) * 8 + 8; omega
  | ⟨1, _⟩ => show win0_2.index _ (1 : Fin 2) * 128 ≤ (i 1).val ∧ (i 1).val < win0_2.index _ (1 : Fin 2) * 128 + 128; omega

/-- The output array after all the write-backs. -/
theorem final0 (c : Dev nD) : (dat0 V c).arrAt 2 cfg0.N = arr0 V c :=
  (dat0 V c).arrAt_eq_of_cover 2 (arr0 V c) (fun t hf => flushed0_eq V c t ((flush0_2 t).mp hf)) cover0

/-- The output array at row R, column C. -/
theorem arrAt0_apply (c : Dev nD) (R : Fin 64) (C : Fin 128) :
    (dat0 V c).arrAt 2 cfg0.N (ix2 R C)
      = outsAt0 V c (16 * (R.val / 8) + 15) (lastPoint0 (ix2 R C)) (ix2 ⟨R.val % 8, Nat.mod_lt _ (by decide)⟩ C) := by
  rw [final0]; rfl

end Region

end Cert.KernelIdeal.Hand

end
-- ==== Proof.AlgBits.lean ====
/-
  Thirty-two-bit words that hold small natural numbers: a block offset times a block size plus a lane
  index is the word of the natural number it spells; two such words are equal exactly when the numbers
  are; and a number below 8192 compares below the word 8192 as a signed integer.
-/
import Idealize.ShloMosaic.PureOps.Ideal

namespace Cert.AlgBits

open Idealize.ShloMosaic

/-- The word `g · n + r` computed in 32 bits from the words of `g`, `n` and `r` is the word of the number. -/
theorem muli_addi_ofNat (g n r : ℕ) :
    IntOp.addi (Scalar.muli (BitVec.ofNat 32 g) (BitVec.ofNat 32 n)) (BitVec.ofNat 32 r)
      = BitVec.ofNat 32 (n * g + r) := by
  show BitVec.ofNat 32 g * BitVec.ofNat 32 n + BitVec.ofNat 32 r = _
  rw [BitVec.ofNat_mul_ofNat, BitVec.ofNat_add_ofNat, Nat.mul_comm]

/-- Two numbers below 2³² have equal words exactly when they are equal. -/
theorem ofNat_inj {a b : ℕ} (ha : a < 2 ^ 32) (hb : b < 2 ^ 32) :
    BitVec.ofNat 32 a = BitVec.ofNat 32 b ↔ a = b := by
  constructor
  · intro e
    have h := congrArg BitVec.toNat e
    rwa [BitVec.toNat_ofNat, BitVec.toNat_ofNat, Nat.mod_eq_of_lt ha, Nat.mod_eq_of_lt hb] at h
  · rintro rfl; rfl

/-- The equality test of two such words is the bit of the numbers' equality. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · rw [if_neg h, beq_eq_false_iff_ne.mpr (fun e => h ((ofNat_inj ha hb).mp e))]; rfl

/-- A number below 8192 is, as a signed 32-bit word, below the word 8192. -/
theorem cmpi_slt_8192 {a : ℕ} (ha : a < 8192) :
    IntOp.cmpi .slt (BitVec.ofNat 32 a) 8192#32 = 1#1 := by
  show BitVec.ofBool ((BitVec.ofNat 32 a).slt 8192#32) = _
  have hlt : (BitVec.ofNat 32 a).slt 8192#32 = true := by
    rw [BitVec.slt_eq_decide, decide_eq_true_iff]
    have h1 : (BitVec.ofNat 32 a).toNat = a := by
      rw [BitVec.toNat_ofNat]; exact Nat.mod_eq_of_lt (by omega)
    rw [BitVec.toInt_eq_toNat_of_lt (by rw [h1]; omega), h1]
    have h2 : (8192#32 : BitVec 32).toInt = 8192 := by decide
    rw [h2]; exact_mod_cast ha
  rw [hlt]; rfl

/-- The conjunction of two set bits is set. -/
theorem andi_one_one : IntOp.andi 1#1 1#1 = 1#1 := by decide

end Cert.AlgBits
-- ==== Proof.KernInt.lean ====
/-
  The integer side of one grid point of the three calls. At the block with grid coordinates
  `(i₀, i₁)` the body builds, lane by lane, the global row `1024·i₀ + r` and the global column
  `512·i₁ + c` of the pair it handles, as 32-bit words. Both stay below 8192, so the words hold the
  numbers themselves: the equality test of the two words is the equality of the numbers (the diagonal
  of the pair matrix), and both comparisons against 8192 — the remainder mask — hold at every lane.
-/
import proofs.«165426_j87875030876301_2_alg».proof.Proof.Gen.KernelIdeal.Skeleton
import proofs.«165426_j87875030876301_2_alg».proof.Proof.AlgBits
import Idealize.ShloMosaic.Lib.ValueIdx

namespace Cert.Kern

open Idealize.ShloMosaic Idealize.ShloMosaic.ValueIdx Cert.KernelIdeal Cert.KernelIdeal.Gen

/-- The global row word at lane `(r, c)`. -/
theorem pay3_apply (i : grid0.Coords) (r : Fin 1024) (c : Fin 512) :
    k0_pay3 i (ix2 r c) = BitVec.ofNat 32 (1024 * (i 0).val + r.val) := by
  show IntOp.addi (Scalar.muli (BitVec.ofNat 32 (i 0).val) (BitVec.ofNat 32 1024))
      (BitVec.ofNat 32 (0 * 1024 + r.val)) = _
  rw [AlgBits.muli_addi_ofNat, Nat.zero_mul, Nat.zero_add]

/-- The global column word at lane `(r, c)`. -/
theorem pay4_apply (i : grid0.Coords) (r : Fin 1024) (c : Fin 512) :
    k0_pay4 i (ix2 r c) = BitVec.ofNat 32 (512 * (i 1).val + c.val) := by
  show IntOp.addi (Scalar.muli (BitVec.ofNat 32 (i 1).val) (BitVec.ofNat 32 512))
      (BitVec.ofNat 32 (0 * 512 + c.val)) = _
  rw [AlgBits.muli_addi_ofNat, Nat.zero_mul, Nat.zero_add]

/-- The global row is below 8192. -/
theorem row_lt (i : grid0.Coords) (r : Fin 1024) : 1024 * (i 0).val + r.val < 8192 := by
  have h0 : (i 0).val < 8 := (i 0).isLt
  have := r.isLt; omega

/-- The global column is below 8192. -/
theorem col_lt (i : grid0.Coords) (c : Fin 512) : 512 * (i 1).val + c.val < 8192 := by
  have h1 : (i 1).val < 16 := (i 1).isLt
  have := c.isLt; omega

/-- The diagonal test at lane `(r, c)`: the bit of "global row = global column". -/
theorem diag_bit (i : grid0.Coords) (r : Fin 1024) (c : Fin 512) :
    IntOp.cmpi .eq (k0_pay3 i (ix2 r c)) (k0_pay4 i (ix2 r c))
      = if 1024 * (i 0).val + r.val = 512 * (i 1).val + c.val then 1#1 else 0#1 := by
  rw [pay3_apply, pay4_apply]
  exact AlgBits.cmpi_eq_ofNat (by have := row_lt i r; omega) (by have := col_lt i c; omega)

/-- The remainder mask at lane `(r, c)` is set. -/
theorem mask_bit (i : grid0.Coords) (r : Fin 1024) (c : Fin 512) :
    IntOp.andi (IntOp.cmpi .slt (k0_pay3 i (ix2 r c)) 8192#32) (IntOp.cmpi .slt (k0_pay4 i (ix2 r c)) 8192#32)
      = 1#1 := by
  rw [pay3_apply, pay4_apply, AlgBits.cmpi_slt_8192 (row_lt i r), AlgBits.cmpi_slt_8192 (col_lt i c)]
  exact AlgBits.andi_one_one

/-- In the third call the two halves of the mask are payloads of their own. -/
theorem mask2_row (i : grid2.Coords) (r : Fin 1024) (c : Fin 512) : k2_pay4 i (ix2 r c) = 1#1 := by
  show IntOp.cmpi .slt (k0_pay3 i (ix2 r c)) 8192#32 = 1#1
  rw [pay3_apply]; exact AlgBits.cmpi_slt_8192 (row_lt i r)

theorem mask2_col (i : grid2.Coords) (r : Fin 1024) (c : Fin 512) : k2_pay5 i (ix2 r c) = 1#1 := by
  show IntOp.cmpi .slt (k0_pay4 i (ix2 r c)) 8192#32 = 1#1
  rw [pay4_apply]; exact AlgBits.cmpi_slt_8192 (col_lt i c)

end Cert.Kern
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernBlk.lean ====
/-
  The arithmetic of one block of pairs, lane by lane. From a block `a` of 1024 rows and a block `b` of
  512 rows (each row of length 512) the body forms, at lane `(r, c)`: the squared norm of row `r` of
  `a` (a lane sum, cast to a column and broadcast along the lanes), the squared norm of row `c` of `b`
  (a lane sum, cast to a column, transposed to a row and broadcast down the rows), and the inner
  product of the two rows (the matrix product of `a` with the transpose of `b` into a zero
  accumulator). Read at the lane, each is a plain sum over the 512 positions of a row; the two format
  changes on the way are the identity on extended reals.
-/
import proofs.«165426_j87875030876301_2_alg».proof.Proof.Gen.KernelIdeal.Skeleton
import proofs.«165426_j87875030876301_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

namespace Cert.Kern

open Idealize.ShloMosaic Idealize.ShloMosaic.ValueIdx Cert.KernelIdeal Cert.KernelIdeal.Gen

/-- The squared norm of row `r` of the first block, as the body computes and spreads it. -/
theorem rowSq_apply (a : FVec Ideal S1024x512 .bf16) (r : Fin 1024) (c : Fin 512) :
    (broadcastTo S1024x512
        (shapeCast S1024x1
          (multiReduction (F := Ideal) .add [1] S1024
            (mulf (extf .f32 (shapeCast S1024x512 a shapeCasts_S1024x512_S1024x512) bitsLt_bf16_f32)
              (extf .f32 (shapeCast S1024x512 a shapeCasts_S1024x512_S1024x512) bitsLt_bf16_f32))
            0x00000000#32 reduces_S1024x512_S1024 (.inl rfl) rfl)
          shapeCasts_S1024_S1024x1)
        broadcasts_S1024x1_S1024x512 (ix2 r c) : EReal)
      = ∑ k : Fin 512, (a (ix2 r k) : EReal) * (a (ix2 r k) : EReal) := by
  rw [LibKeepdims.broadcastTo_a1_ab_apply, LibKeepdims.shapeCast_a_a1_apply, shapeCast_self]
  refine (Ideal.multiReduction_add_single _ _ reduces_S1024x512_S1024 _ _ (ix1 r)).trans ?_
  refine Finset.sum_congr rfl fun (k : Fin 512) _ => ?_
  have e : reduces_S1024x512_S1024.lift (ix1 r) k = ix2 r k :=
    funext fun d => Fin.ext (by match d with | ⟨0, _⟩ => rfl | ⟨1, _⟩ => rfl)
  rw [e]; rfl

/-- The squared norm of row `c` of the second block, as the body computes and spreads it. -/
theorem colSq_apply (b : FVec Ideal S512x512 .bf16) (r : Fin 1024) (c : Fin 512) :
    (broadcastTo S1024x512
        (transpose S1x512 [1, 0]
          (shapeCast S512x1
            (multiReduction (F := Ideal) .add [1] S512
              (mulf (extf .f32 (shapeCast S512x512 b shapeCasts_S512x512_S512x512) bitsLt_bf16_f32)
                (extf .f32 (shapeCast S512x512 b shapeCasts_S512x512_S512x512) bitsLt_bf16_f32))
              0x00000000#32 reduces_S512x512_S512 (.inl rfl) rfl)
            shapeCasts_S512_S512x1)
          transposes_S512x1_p1_0_S1x512)
        broadcasts_S1x512_S1024x512 (ix2 r c) : EReal)
      = ∑ k : Fin 512, (b (ix2 c k) : EReal) * (b (ix2 c k) : EReal) := by
  rw [broadcastTo_1b_ab_apply, transpose_ix2_apply, LibKeepdims.shapeCast_a_a1_apply, shapeCast_self]
  refine (Ideal.multiReduction_add_single _ _ reduces_S512x512_S512 _ _ (ix1 c)).trans ?_
  refine Finset.sum_congr rfl fun (k : Fin 512) _ => ?_
  have e : reduces_S512x512_S512.lift (ix1 c) k = ix2 c k :=
    funext fun d => Fin.ext (by match d with | ⟨0, _⟩ => rfl | ⟨1, _⟩ => rfl)
  rw [e]; rfl

/-- The left operand's index of the matrix product at output `j`: row `j₀` … -/
theorem dot_lhs_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- … at the contraction position; -/
theorem dot_lhs_1 (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q
/-- the right operand's: the contraction position … -/
theorem dot_rhs_0 (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q
/-- … in column `j₁`. -/
theorem dot_rhs_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The inner product of row `r` of the first block with row `c` of the second, as the matrix unit forms it. -/
theorem dot_apply (a : FVec Ideal S1024x512 .bf16) (b : FVec Ideal S512x512 .bf16) (r : Fin 1024) (c : Fin 512) :
    (matmul (F := Ideal) dot_S1024x512_S512x512_S1024x512_1_0_0_1_n_n none
        (shapeCast S1024x512 a shapeCasts_S1024x512_S1024x512)
        (transpose S512x512 [1, 0] (shapeCast S512x512 b shapeCasts_S512x512_S512x512)
          transposes_S512x512_p1_0_S512x512)
        (constant S1024x512 .f32 0x00000000#32) (ix2 r c) : EReal)
      = ∑ k : Fin 512, (a (ix2 r k) : EReal) * (b (ix2 c k) : EReal) := by
  rw [shapeCast_self, shapeCast_self]
  refine (Ideal.matmul_constant_zero_apply dot_S1024x512_S512x512_S1024x512_1_0_0_1_n_n none a
    (transpose S512x512 [1, 0] b transposes_S512x512_p1_0_S512x512) (ix2 r c)).trans ?_
  rw [← Equiv.sum_comp (contrEquiv1 dot_S1024x512_S512x512_S1024x512_1_0_0_1_n_n 512 rfl rfl).symm]
  refine Finset.sum_congr rfl fun (k : Fin 512) _ => ?_
  have hk := contrEquiv1_symm_val dot_S1024x512_S512x512_S1024x512_1_0_0_1_n_n 512 rfl rfl k
  have el : dot_S1024x512_S512x512_S1024x512_1_0_0_1_n_n.lhsIdx (ix2 r c)
      ((contrEquiv1 dot_S1024x512_S512x512_S1024x512_1_0_0_1_n_n 512 rfl rfl).symm k) = ix2 r k :=
    funext fun d => Fin.ext (by
      match d with
      | ⟨0, _⟩ => exact dot_lhs_0 _ _
      | ⟨1, _⟩ => exact (dot_lhs_1 _ _).trans hk)
  have er : dot_S1024x512_S512x512_S1024x512_1_0_0_1_n_n.rhsIdx (ix2 r c)
      ((contrEquiv1 dot_S1024x512_S512x512_S1024x512_1_0_0_1_n_n 512 rfl rfl).symm k) = ix2 k c :=
    funext fun d => Fin.ext (by
      match d with
      | ⟨0, _⟩ => exact (dot_rhs_0 _ _).trans hk
      | ⟨1, _⟩ => exact dot_rhs_1 _ _)
  rw [el, er, transpose_ix2_apply]

end Cert.Kern
-- ==== Proof.KernSum.lean ====
/-
  The accumulation step of one grid point. The body masks the block of pair values with the
  remainder mask (set at every lane here), sums each row over its 512 lanes, sums the 1024 row sums,
  and adds the resulting single number to every one of the 8 × 128 cells of the resident output block.
  Read at a cell, the new value is the old one plus the double sum of the block of pair values.
-/
import proofs.«165426_j87875030876301_2_alg».proof.Proof.Gen.KernelIdeal.Skeleton
import proofs.«165426_j87875030876301_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

namespace Cert.Kern

open Idealize.ShloMosaic Idealize.ShloMosaic.ValueIdx Cert.KernelIdeal Cert.KernelIdeal.Gen

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- The masked block summed over lanes and then over rows, spread over the output block: at every cell
    the double sum of the block, when the mask is set at every lane. -/
theorem total_apply (m : IVec S1024x512 1) (v : FVec Ideal S1024x512 .f32)
    (hm : ∀ (r : Fin 1024) (c : Fin 512), m (ix2 r c) = 1#1) (u : Fin 8) (l : Fin 128) :
    broadcastTo S8x128
        (shapeCast S1x1
          (shapeCast S1x1
            (multiReduction .add [0] S1
              (shapeCast S1024x1
                (multiReduction .add [1] S1024
                  (select m v (broadcast S1024x512 (Scalar.ofBits (F := Ideal) .f32 0x00000000#32)))
                  0x00000000#32 reduces_S1024x512_S1024 (.inl rfl) rfl)
                shapeCasts_S1024_S1024x1)
              0x00000000#32 reduces_S1024x1_S1 (.inl rfl) rfl)
            shapeCasts_S1_S1x1)
          shapeCasts_S1x1_S1x1)
        broadcasts_S1x1_S8x128 (ix2 u l)
      = ∑ r : Fin 1024, ∑ c : Fin 512, v (ix2 r c) := by
  rw [broadcastTo_11_ab_apply, shapeCast_self, LibKeepdims.shapeCast_a_a1_apply]
  refine (Ideal.multiReduction_add_single _ _ reduces_S1024x1_S1 _ _ (ix1 (0 : Fin 1))).trans ?_
  refine Finset.sum_congr rfl fun (r : Fin 1024) _ => ?_
  have e : reduces_S1024x1_S1.lift (ix1 (0 : Fin 1)) r = ix2 r (0 : Fin 1) :=
    funext fun d => Fin.ext (by match d with | ⟨0, _⟩ => rfl | ⟨1, _⟩ => rfl)
  rw [e, LibKeepdims.shapeCast_a_a1_apply]
  refine (Ideal.multiReduction_add_single _ _ reduces_S1024x512_S1024 _ _ (ix1 r)).trans ?_
  refine Finset.sum_congr rfl fun (c : Fin 512) _ => ?_
  have e' : reduces_S1024x512_S1024.lift (ix1 r) c = ix2 r c :=
    funext fun d => Fin.ext (by match d with | ⟨0, _⟩ => rfl | ⟨1, _⟩ => rfl)
  rw [e', select_apply, hm r c, select_one]

/-- The store of the first two calls at a cell: the cell's old value plus the block's double sum. -/
theorem pay1_apply (v32 v36 : IVec S1024x512 32) (v39 : FVec Ideal S1024x512 .f32) (v40 : IVec S1024x512 32)
    (prev : Vec Ideal S8x128 .f32)
    (hmask : ∀ (r : Fin 1024) (c : Fin 512),
      IntOp.andi (IntOp.cmpi .slt (v32 (ix2 r c)) (v40 (ix2 r c))) (IntOp.cmpi .slt (v36 (ix2 r c)) 8192#32) = 1#1)
    (u : Fin 8) (l : Fin 128) :
    k0_pay1 v32 v36 v39 v40 prev (ix2 u l) = prev (ix2 u l) + ∑ r : Fin 1024, ∑ c : Fin 512, v39 (ix2 r c) := by
  have h := total_apply (andi (cmpi .slt v32 v40) (cmpi .slt v36 (broadcast S1024x512 8192#32))) v39 hmask u l
  have h2 : shapeCast S8x128 prev shapeCasts_S8x128_S8x128 (ix2 u l) = prev (ix2 u l) := by rw [shapeCast_self]
  rw [← h, ← h2]; rfl

/-- The store of the third call at a cell, the two halves of the mask given apart. -/
theorem pay1_apply2 (v28 : FVec Ideal S1024x512 .f32) (v38 v40 : IVec S1024x512 1) (prev : Vec Ideal S8x128 .f32)
    (h38 : ∀ (r : Fin 1024) (c : Fin 512), v38 (ix2 r c) = 1#1)
    (h40 : ∀ (r : Fin 1024) (c : Fin 512), v40 (ix2 r c) = 1#1) (u : Fin 8) (l : Fin 128) :
    k2_pay1 v28 v38 v40 prev (ix2 u l) = prev (ix2 u l) + ∑ r : Fin 1024, ∑ c : Fin 512, v28 (ix2 r c) := by
  have hm : ∀ (r : Fin 1024) (c : Fin 512), andi v38 v40 (ix2 r c) = 1#1 := fun r c => by
    show IntOp.andi (v38 (ix2 r c)) (v40 (ix2 r c)) = 1#1
    rw [h38, h40]; decide
  have h := total_apply (andi v38 v40) v28 hm u l
  have h2 : shapeCast S8x128 prev shapeCasts_S8x128_S8x128 (ix2 u l) = prev (ix2 u l) := by rw [shapeCast_self]
  rw [← h, ← h2]; rfl

/-- The first store of a row of grid points writes zero at every cell. -/
theorem pay2_apply (idx : S8x128.Idx) : k0_pay2 (F := Ideal) idx = 0 := by
  show Ideal.ofBits .f32 0x00000000#32 = 0
  exact Ideal.ofBits_zero_f32

end Cert.Kern
-- ==== Proof.AlgDiag.lean ====
/-
  The diagonal of the pair matrix. For a row of real numbers with squared norm `s`, the pair of the
  row with itself has squared distance `s + s − 2·s`, which is `0` BECAUSE `s` is a real number (at an
  infinite `s` the difference `⊤ − ⊤` would not be `0`): the clamp at zero leaves `0`, the scale by −½
  leaves `0`, and the exponential of `0` is `1`. This is the one place where finiteness of the inputs
  enters. Also here: the values of the words −0.5, 2 and 1, a finite sum of reals is a real, and every
  cell of the pair matrix — an exponential or the constant 1 — is nonnegative.
-/
import Idealize.ShloMosaic.PureOps.Ideal
import Idealize.ShloMosaic.PureOps.Ideal.Laws

open scoped BigOperators

namespace Cert.AlgDiag

open Idealize.ShloMosaic

/-- The word 0x3F800000 denotes 1. -/
theorem ofBits_one : Ideal.ofBits .f32 0x3F800000#32 = 1 := by
  simp [Ideal.ofBits, Ideal.ieee, -EReal.coe_mul]; norm_num

/-- The word 0x40000000 denotes 2. -/
theorem ofBits_two : Ideal.ofBits .f32 0x40000000#32 = ((2 : ℝ) : EReal) := by
  simp [Ideal.ofBits, Ideal.ieee, -EReal.coe_mul]; norm_num

/-- The word 0xBF000000 denotes −1/2. -/
theorem ofBits_neg_half : Ideal.ofBits .f32 0xBF000000#32 = ((-(1 / 2) : ℝ) : EReal) := by
  simp [Ideal.ofBits, Ideal.ieee, -EReal.coe_mul]; norm_num

/-- A finite sum of real numbers, taken in the extended reals, is the real sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The squared norm of a row of real numbers is a real number. -/
theorem sumSq_real {ι : Type*} [Fintype ι] (v : ι → EReal) (hv : ∀ k, ∃ t : ℝ, v k = (t : EReal)) :
    ∃ t : ℝ, ∑ k, v k * v k = (t : EReal) := by
  choose w hw using hv
  refine ⟨∑ k, w k * w k, ?_⟩
  rw [← sum_coe]
  exact Finset.sum_congr rfl fun k _ => by rw [hw k, ← EReal.coe_mul]

/-- On the diagonal: for a real squared norm `s` the cell `exp(−½ · max(s + s − 2·s, 0))` is `1`. -/
theorem diag_one (s : EReal) (hs : ∃ t : ℝ, s = (t : EReal)) :
    Ideal.exp (Ideal.ofBits .f32 0xBF000000#32
        * max (s + s - Ideal.ofBits .f32 0x40000000#32 * s) (Ideal.ofBits .f32 0x00000000#32))
      = Ideal.ofBits .f32 0x3F800000#32 := by
  obtain ⟨t, rfl⟩ := hs
  rw [ofBits_two, ofBits_neg_half, Ideal.ofBits_zero_f32, ofBits_one,
    ← EReal.coe_add, ← EReal.coe_mul, ← EReal.coe_sub]
  have h0 : t + t - 2 * t = 0 := by ring
  rw [h0, EReal.coe_zero, max_self, mul_zero, ← EReal.coe_zero, Ideal.exp_coe, Real.exp_zero, EReal.coe_one]

/-- The exponential of an extended real is nonnegative. -/
theorem exp_nonneg (x : EReal) : 0 ≤ Ideal.exp x := by
  induction x using EReal.rec with
  | bot => exact le_refl _
  | top => exact le_top
  | coe r => rw [Ideal.exp_coe]; exact_mod_cast (Real.exp_pos r).le

end Cert.AlgDiag
-- ==== Proof.AlgCell.lean ====
/-
  One cell of the pair matrix, written over a block of 1024 rows and a block of 512 rows, and its
  meaning over the whole arrays. `blk a b r c` is `exp(−½ · max(|a_r|² + |b_c|² − 2·(a_r · b_c), 0))`;
  `cellD` is the same with the constant 1 written on the diagonal of the pair matrix (global row =
  global column), as the first two calls compute it. When `a` is rows `1024·i …` of `X` and `b` is rows
  `512·j …` of `Y`, `blk a b r c` is the specification's `kern X Y (1024·i + r) (512·j + c)`; and when
  moreover `Y = X` has real entries, writing 1 on the diagonal changes nothing, because there the
  specification's cell is already 1.
-/
import proofs.«165426_j87875030876301_2_alg».proof.Proof.Spec
import proofs.«165426_j87875030876301_2_alg».proof.Proof.AlgDiag

noncomputable section

open scoped BigOperators

namespace Cert.AlgCell

open Idealize.ShloMosaic Idealize.ShloMosaic.ValueIdx

/-- A block of 1024 rows and a block of 512 rows, each row of length 512. -/
abbrev BlkA : Type := (⟨2, ![1024, 512]⟩ : Shape).Idx → EReal
abbrev BlkB : Type := (⟨2, ![512, 512]⟩ : Shape).Idx → EReal

/-- The pair value of row `r` of `a` and row `c` of `b`. -/
def blk (a : BlkA) (b : BlkB) (r : Fin 1024) (c : Fin 512) : EReal :=
  Ideal.exp (Ideal.ofBits .f32 0xBF000000#32
    * max ((∑ k : Fin 512, a (ix2 r k) * a (ix2 r k)) + (∑ k : Fin 512, b (ix2 c k) * b (ix2 c k))
        - Ideal.ofBits .f32 0x40000000#32 * ∑ k : Fin 512, a (ix2 r k) * b (ix2 c k))
      (Ideal.ofBits .f32 0x00000000#32))

/-- The pair value with the constant 1 on the diagonal of the block at grid position `(i₀, i₁)`. -/
def cellD (i₀ i₁ : ℕ) (a : BlkA) (b : BlkB) (r : Fin 1024) (c : Fin 512) : EReal :=
  if 1024 * i₀ + r.val = 512 * i₁ + c.val then Ideal.ofBits .f32 0x3F800000#32 else blk a b r c

/-- Global row `1024·i + r`. -/
abbrev gRow (i : Fin 8) (r : Fin 1024) : Fin 8192 := ⟨1024 * i.val + r.val, by have := i.isLt; have := r.isLt; omega⟩
/-- Global column `512·j + c`. -/
abbrev gCol (j : Fin 16) (c : Fin 512) : Fin 8192 := ⟨512 * j.val + c.val, by have := j.isLt; have := c.isLt; omega⟩

/-- The pair value over blocks of `X` and `Y` is the specification's cell at the global pair. -/
theorem blk_eq_kern (X Y : Cert.MMD.Arr) (i : Fin 8) (j : Fin 16) (a : BlkA) (b : BlkB)
    (ha : ∀ (r : Fin 1024) (k : Fin 512), a (ix2 r k) = X (ix2 (gRow i r) k))
    (hb : ∀ (c : Fin 512) (k : Fin 512), b (ix2 c k) = Y (ix2 (gCol j c) k)) (r : Fin 1024) (c : Fin 512) :
    blk a b r c = Cert.MMD.kern X Y (gRow i r) (gCol j c) := by
  unfold blk Cert.MMD.kern Cert.MMD.rowSq Cert.MMD.gram
  simp only [ha, hb]

/-- With `Y = X` real, the diagonal cell of the specification is 1: writing 1 there changes nothing. -/
theorem cellD_eq_kern (X : Cert.MMD.Arr) (hX : ∀ idx, ∃ t : ℝ, X idx = (t : EReal)) (i : Fin 8) (j : Fin 16)
    (a : BlkA) (b : BlkB)
    (ha : ∀ (r : Fin 1024) (k : Fin 512), a (ix2 r k) = X (ix2 (gRow i r) k))
    (hb : ∀ (c : Fin 512) (k : Fin 512), b (ix2 c k) = X (ix2 (gCol j c) k)) (r : Fin 1024) (c : Fin 512) :
    cellD i.val j.val a b r c = Cert.MMD.kern X X (gRow i r) (gCol j c) := by
  unfold cellD
  by_cases h : 1024 * i.val + r.val = 512 * j.val + c.val
  · rw [if_pos h]
    have hpq : gCol j c = gRow i r := Fin.ext h.symm
    rw [hpq]
    unfold Cert.MMD.kern Cert.MMD.gram
    exact (AlgDiag.diag_one (Cert.MMD.rowSq X (gRow i r))
      (AlgDiag.sumSq_real (fun k => X (ix2 (gRow i r) k)) fun k => hX _)).symm
  · rw [if_neg h]; exact blk_eq_kern X X i j a b ha hb r c

end Cert.AlgCell

end
-- ==== Proof.Kern0.lean ====
/-
  One grid point of the first call as a plain sum. At grid position `i`, from the block `a` of 1024
  rows and the block `b` of 512 rows, the body's block of pair values is, lane by lane, the cell of the
  pair matrix with the constant 1 on the diagonal; the store adds the double sum of these cells to
  every cell of the output block. At the first grid point of a row the output block is zero.
-/
import proofs.«165426_j87875030876301_2_alg».proof.Proof.KernInt
import proofs.«165426_j87875030876301_2_alg».proof.Proof.KernBlk
import proofs.«165426_j87875030876301_2_alg».proof.Proof.KernSum
import proofs.«165426_j87875030876301_2_alg».proof.Proof.AlgCell

open scoped BigOperators

namespace Cert.Kern

open Idealize.ShloMosaic Idealize.ShloMosaic.ValueIdx Cert.KernelIdeal Cert.KernelIdeal.Gen Cert.AlgCell

/-- The block of pair values of the first call at lane `(r, c)`. -/
theorem pay5_apply (i : grid0.Coords) (a : Vec Ideal S1024x512 .bf16) (b : Vec Ideal S512x512 .bf16)
    (r : Fin 1024) (c : Fin 512) :
    k0_pay5 i a b (ix2 r c) = cellD (i 0).val (i 1).val a b r c := by
  have hR := rowSq_apply a r c
  have hC := colSq_apply b r c
  have hD := dot_apply a b r c
  have key : k0_pay5 i a b (ix2 r c)
      = Scalar.select (IntOp.cmpi .eq (k0_pay3 i (ix2 r c)) (k0_pay4 i (ix2 r c)))
          (Ideal.ofBits .f32 0x3F800000#32) (blk a b r c) := by
    unfold blk
    rw [← hR, ← hC, ← hD]
    rfl
  rw [key, diag_bit]
  unfold cellD
  by_cases h : 1024 * (i 0).val + r.val = 512 * (i 1).val + c.val
  · rw [if_pos h, if_pos h]; exact select_one _ _
  · rw [if_neg h, if_neg h]; exact select_zero _ _

/-- THE GRID POINT OF THE FIRST CALL: every cell of the output block gains the block's double sum. -/
theorem point0 (i : grid0.Coords) (a : Vec Ideal S1024x512 .bf16) (b : Vec Ideal S512x512 .bf16)
    (prev : Vec Ideal S8x128 .f32) (idx : S8x128.Idx) :
    k0_pay1 (k0_pay3 i) (k0_pay4 i) (k0_pay5 i a b) k0_pay6 prev idx
      = prev idx + ∑ r : Fin 1024, ∑ c : Fin 512, cellD (i 0).val (i 1).val a b r c := by
  obtain ⟨u, l, rfl⟩ : ∃ (u : Fin 8) (l : Fin 128), idx = ix2 u l := ⟨idx 0, idx 1, eq_ix2 idx⟩
  rw [pay1_apply (k0_pay3 i) (k0_pay4 i) (k0_pay5 i a b) k0_pay6 prev (mask_bit i) u l]
  exact congrArg (prev (ix2 u l) + ·)
    (Finset.sum_congr rfl fun r _ => Finset.sum_congr rfl fun c _ => pay5_apply i a b r c)

/-- The zeroing store of the first call. -/
theorem zero0 (idx : S8x128.Idx) : k0_pay2 (F := Ideal) idx = 0 := pay2_apply idx

end Cert.Kern
-- ==== Proof.AlgSum.lean ====
/-
  Sums over blocks are sums over the whole range. The 8192 rows are 8 blocks of 1024, the 8192
  columns 16 blocks of 512, and the 64 rows of an output array 8 blocks of 8: a sum over blocks and
  then inside each block, at the position `size · block + offset`, is the sum over all positions,
  in any commutative monoid (no finiteness: only commutativity and associativity of the sum are used).
  A sum of equal terms is a multiple, and at the extended reals a multiple by 1024 divided by the
  constant 1024 is the number itself, infinities included.
-/
import Idealize.ShloMosaic.PureOps.Ideal
import Idealize.ShloMosaic.Lib.ValueIdx

open scoped BigOperators

namespace Cert.AlgSum

open Idealize.ShloMosaic Idealize.ShloMosaic.ValueIdx

variable {M : Type*} [AddCommMonoid M]

/-- Eight blocks of 1024 rows. -/
theorem sum_rows (g : Fin 8192 → M) :
    ∑ i : Fin 8, ∑ r : Fin 1024, g ⟨1024 * i.val + r.val, by have := i.isLt; have := r.isLt; omega⟩
      = ∑ p : Fin 8192, g p := by
  rw [← Equiv.sum_comp (finProdFinEquiv : Fin 8 × Fin 1024 ≃ Fin (8 * 1024)) g, Fintype.sum_prod_type]
  refine Finset.sum_congr rfl fun i _ => Finset.sum_congr rfl fun r _ => congrArg g (Fin.ext ?_)
  show 1024 * i.val + r.val = r.val + 1024 * i.val
  omega

/-- Sixteen blocks of 512 columns. -/
theorem sum_cols (g : Fin 8192 → M) :
    ∑ j : Fin 16, ∑ c : Fin 512, g ⟨512 * j.val + c.val, by have := j.isLt; have := c.isLt; omega⟩
      = ∑ q : Fin 8192, g q := by
  rw [← Equiv.sum_comp (finProdFinEquiv : Fin 16 × Fin 512 ≃ Fin (16 * 512)) g, Fintype.sum_prod_type]
  refine Finset.sum_congr rfl fun j _ => Finset.sum_congr rfl fun c _ => congrArg g (Fin.ext ?_)
  show 512 * j.val + c.val = c.val + 512 * j.val
  omega

/-- Eight blocks of 8 output rows. -/
theorem sum_out_rows (g : Fin 64 → M) :
    ∑ i : Fin 8, ∑ u : Fin 8, g ⟨8 * i.val + u.val, by have := i.isLt; have := u.isLt; omega⟩
      = ∑ p : Fin 64, g p := by
  rw [← Equiv.sum_comp (finProdFinEquiv : Fin 8 × Fin 8 ≃ Fin (8 * 8)) g, Fintype.sum_prod_type]
  refine Finset.sum_congr rfl fun i _ => Finset.sum_congr rfl fun u _ => congrArg g (Fin.ext ?_)
  show 8 * i.val + u.val = u.val + 8 * i.val
  omega

/-- The pair matrix summed block by block — over the row blocks, the column blocks, and inside each
    block — is the pair matrix summed over all pairs. -/
theorem sum_blocks (f : Fin 8192 → Fin 8192 → M) :
    ∑ i : Fin 8, ∑ j : Fin 16, ∑ r : Fin 1024, ∑ c : Fin 512,
        f ⟨1024 * i.val + r.val, by have := i.isLt; have := r.isLt; omega⟩
          ⟨512 * j.val + c.val, by have := j.isLt; have := c.isLt; omega⟩
      = ∑ p : Fin 8192, ∑ q : Fin 8192, f p q := by
  rw [← sum_rows fun p => ∑ q : Fin 8192, f p q]
  refine Finset.sum_congr rfl fun i _ => ?_
  rw [Finset.sum_comm]
  refine Finset.sum_congr rfl fun r _ => ?_
  exact sum_cols fun q => f ⟨1024 * i.val + r.val, by have := i.isLt; have := r.isLt; omega⟩ q

/-- An output array whose block of 8 rows number `i` holds the one value `T i` at every entry sums to
    1024 times the sum of the `T i`. -/
theorem sum_out_const (O : (⟨2, ![64, 128]⟩ : Shape).Idx → M) (T : Fin 8 → M)
    (hO : ∀ (i u : Fin 8) (l : Fin 128),
      O (ix2 ⟨8 * i.val + u.val, by have := i.isLt; have := u.isLt; omega⟩ l) = T i) :
    ∑ idx, O idx = 1024 • ∑ i : Fin 8, T i := by
  rw [sum_idx2, ← sum_out_rows fun p => ∑ l : Fin 128, O (ix2 p l), Finset.smul_sum]
  refine Finset.sum_congr rfl fun i _ => ?_
  rw [Finset.sum_congr rfl fun u _ => Finset.sum_congr rfl fun l _ => hO i u l]
  simp only [Finset.sum_const, Finset.card_univ, Fintype.card_fin, smul_smul]
  rfl

/-- The word 0x44800000 denotes 1024. -/
theorem ofBits_1024 : Ideal.ofBits .f32 0x44800000#32 = ((1024 : ℝ) : EReal) := by
  simp [Ideal.ofBits, Ideal.ieee, -EReal.coe_mul]; norm_num

/-- 1024 copies of an extended real, divided by the constant 1024, is that extended real, whatever it is. -/
theorem div_1024 (S : EReal) : Ideal.div (1024 • S) (Ideal.ofBits .f32 0x44800000#32) = S := by
  rw [ofBits_1024, EReal.nsmul_eq_mul]
  unfold Ideal.div
  have hne : ((1024 : ℝ) : EReal) ≠ 0 := by
    rw [Ne, EReal.coe_eq_zero]; norm_num
  rw [if_neg hne]
  have hcast : ((1024 : ℕ) : EReal) = ((1024 : ℝ) : EReal) := by norm_cast
  rw [hcast, mul_comm ((1024 : ℝ) : EReal) S, mul_assoc, ← EReal.coe_inv, ← EReal.coe_mul]
  have : (1024 : ℝ) * (1024 : ℝ)⁻¹ = 1 := by norm_num
  rw [this, EReal.coe_one, mul_one]

end Cert.AlgSum
-- ==== Proof.AlgTotal.lean ====
/-
  From the grid points to the specification's totals. The sum over the 8 × 16 grid points of the
  double sums of the blocks' cells is the sum over all 8192 × 8192 pairs of the specification's cell:
  for the calls that pair an array with itself (cells with 1 on the diagonal, entries real) and for
  the call that pairs the two arrays (plain cells). And an accumulator that starts at zero and gains
  `S j` at step `j` holds, after `n` steps, the sum of the first `n` of the `S j`.
-/
import proofs.«165426_j87875030876301_2_alg».proof.Proof.AlgCell
import proofs.«165426_j87875030876301_2_alg».proof.Proof.AlgSum

open scoped BigOperators

namespace Cert.AlgTotal

open Idealize.ShloMosaic Idealize.ShloMosaic.ValueIdx Cert.AlgCell

/-- The blocks' cells with 1 on the diagonal, summed over the grid, are the total of an array paired with itself. -/
theorem total_of_cellD (X : Cert.MMD.Arr) (hX : ∀ idx, ∃ t : ℝ, X idx = (t : EReal))
    (a : Fin 8 → Fin 16 → BlkA) (b : Fin 8 → Fin 16 → BlkB)
    (ha : ∀ (i : Fin 8) (j : Fin 16) (r : Fin 1024) (k : Fin 512), a i j (ix2 r k) = X (ix2 (gRow i r) k))
    (hb : ∀ (i : Fin 8) (j : Fin 16) (c : Fin 512) (k : Fin 512), b i j (ix2 c k) = X (ix2 (gCol j c) k)) :
    ∑ i : Fin 8, ∑ j : Fin 16, ∑ r : Fin 1024, ∑ c : Fin 512, cellD i.val j.val (a i j) (b i j) r c
      = Cert.MMD.total X X := by
  unfold Cert.MMD.total
  rw [← AlgSum.sum_blocks fun p q => Cert.MMD.kern X X p q]
  exact Finset.sum_congr rfl fun i _ => Finset.sum_congr rfl fun j _ => Finset.sum_congr rfl fun r _ =>
    Finset.sum_congr rfl fun c _ => cellD_eq_kern X hX i j (a i j) (b i j) (ha i j) (hb i j) r c

/-- The blocks' plain cells, summed over the grid, are the total of the two arrays paired. -/
theorem total_of_blk (X Y : Cert.MMD.Arr) (a : Fin 8 → Fin 16 → BlkA) (b : Fin 8 → Fin 16 → BlkB)
    (ha : ∀ (i : Fin 8) (j : Fin 16) (r : Fin 1024) (k : Fin 512), a i j (ix2 r k) = X (ix2 (gRow i r) k))
    (hb : ∀ (i : Fin 8) (j : Fin 16) (c : Fin 512) (k : Fin 512), b i j (ix2 c k) = Y (ix2 (gCol j c) k)) :
    ∑ i : Fin 8, ∑ j : Fin 16, ∑ r : Fin 1024, ∑ c : Fin 512, blk (a i j) (b i j) r c
      = Cert.MMD.total X Y := by
  unfold Cert.MMD.total
  rw [← AlgSum.sum_blocks fun p q => Cert.MMD.kern X Y p q]
  exact Finset.sum_congr rfl fun i _ => Finset.sum_congr rfl fun j _ => Finset.sum_congr rfl fun r _ =>
    Finset.sum_congr rfl fun c _ => blk_eq_kern X Y i j (a i j) (b i j) (ha i j) (hb i j) r c

/-- An accumulator zero at the start that gains `S j` at step `j` holds the partial sums. -/
theorem acc_sum {β : Type*} (acc : ℕ → β → EReal) (S : ℕ → EReal)
    (h0 : ∀ x, acc 0 x = 0) (hs : ∀ j x, acc (j + 1) x = acc j x + S j) (n : ℕ) (x : β) :
    acc n x = ∑ j ∈ Finset.range n, S j := by
  induction n with
  | zero => rw [h0, Finset.range_zero, Finset.sum_empty]
  | succ n ih => rw [hs, ih, Finset.sum_range_succ]

/-- After the sixteen steps of a row of grid points: the sum over the sixteen column blocks. -/
theorem acc_sum16 {β : Type*} (acc : ℕ → β → EReal) (S : Fin 16 → EReal)
    (h0 : ∀ x, acc 0 x = 0) (hs : ∀ (j : Fin 16) x, acc (j.val + 1) x = acc j.val x + S j) (x : β) :
    acc 16 x = ∑ j : Fin 16, S j := by
  have h : ∀ n (hn : n ≤ 16), acc n x = ∑ j ∈ Finset.range n, (if hj : j < 16 then S ⟨j, hj⟩ else 0) := by
    intro n
    induction n with
    | zero => intro _; rw [h0, Finset.range_zero, Finset.sum_empty]
    | succ n ih =>
      intro hn
      have hlt : n < 16 := by omega
      rw [hs ⟨n, hlt⟩ x, ih (by omega), Finset.sum_range_succ, dif_pos hlt]
  rw [h 16 le_rfl, Finset.sum_range fun j => (if hj : j < 16 then S ⟨j, hj⟩ else 0)]
  exact Finset.sum_congr rfl fun j _ => by rw [dif_pos j.isLt]

/-- A row of sixteen grid points: the buffer after the first point is zero plus the first block sum, after each
    later point what the point before left plus its block sum; after the sixteenth it holds the sum of all. -/
theorem row_sum16 {β : Type*} (f : ℕ → β → EReal) (b : ℕ) (S : Fin 16 → EReal)
    (hfirst : ∀ x, f b x = 0 + S 0)
    (hnext : ∀ j : Fin 16, j.val ≠ 0 → ∀ x, f (b + j.val) x = f (b + j.val - 1) x + S j) (x : β) :
    f (b + 15) x = ∑ j : Fin 16, S j := by
  have h := acc_sum16 (fun n y => if n = 0 then (0 : EReal) else f (b + n - 1) y) S (fun _ => if_pos rfl)
    (fun j y => by
      show (if j.val + 1 = 0 then (0 : EReal) else f (b + (j.val + 1) - 1) y)
        = (if j.val = 0 then (0 : EReal) else f (b + j.val - 1) y) + S j
      rw [if_neg (Nat.succ_ne_zero _), show b + (j.val + 1) - 1 = b + j.val by omega]
      by_cases hj : j.val = 0
      · rw [if_pos hj, hj, Nat.add_zero, hfirst y]
        have : j = 0 := Fin.ext hj
        rw [this]
      · rw [if_neg hj]; exact hnext j hj y) x
  have h16 : (if (16 : ℕ) = 0 then (0 : EReal) else f (b + 16 - 1) x) = f (b + 15) x := by
    rw [if_neg (by decide), show b + 16 - 1 = b + 15 by omega]
  rw [← h16]; exact h

end Cert.AlgTotal
-- ==== Proof.KernRow0.lean ====
/-
  The output array of the first call, block row by block row. The call pairs the array `main_v0` with itself.
  Along block row `i` the resident output block starts at zero at the first of its sixteen grid points
  and gains one block sum per point, so after the sixteenth it holds, at every cell, the sum of the
  sixteen block sums; the array's rows `8·i … 8·i + 7` are that block. Summed over the eight block
  rows, with the blocks read as rows of the whole arrays, the block sums add up to the specification's
  total over all pairs of rows.
-/
import proofs.«165426_j87875030876301_2_alg».proof.Proof.KIValAcc0
import proofs.«165426_j87875030876301_2_alg».proof.Proof.KIValBlk0
import proofs.«165426_j87875030876301_2_alg».proof.Proof.KIValArr0
import proofs.«165426_j87875030876301_2_alg».proof.Proof.Kern0
import proofs.«165426_j87875030876301_2_alg».proof.Proof.AlgTotal

set_option maxRecDepth 16384

noncomputable section

open scoped BigOperators

namespace Cert.Kern

open Idealize.ShloMosaic Idealize.ShloMosaic.TcCoe Idealize.ShloMosaic.ValueIdx
open Idealize.SL Idealize.SL.Sem
open Cert.KernelIdeal Cert.KernelIdeal.Gen Cert.KernelIdeal.Hand Cert.AlgCell

section Region
variable (V : (c : Dev nD) → (b : Ref sig .tc) → Buf (Elt Ideal) ((c : Thread nD τ).loc b))

/-- The block sum of grid point `t`. -/
def S0 (c : Dev nD) (t : Fin cfg0.N) : EReal :=
  ∑ r : Fin 1024, ∑ c' : Fin 512, cellD (t.val / 16) (t.val % 16) (iblk0 V c 0 t) (iblk0 V c 1 t) r c'

/-- After the first point of a block row: zero plus its block sum. -/
theorem step0_first (c : Dev nD) (t : Fin cfg0.N) (h0 : t.val % 16 = 0) (x : S8x128.Idx) :
    outsAt0 V c t.val t.isLt x = 0 + S0 V c t := by
  rw [outsAt0_first V c t h0]
  refine (point0 (grid0.coords t) (iblk0 V c 0 t) (iblk0 V c 1 t) (k0_pay2 (F := Ideal)) x).trans ?_
  rw [zero0 x, (coords0 t).1, (coords0 t).2]
  rfl

/-- After any later point: what the point before left plus its block sum. -/
theorem step0_next (c : Dev nD) (t : Fin cfg0.N) (h0 : ¬t.val % 16 = 0) (x : S8x128.Idx) :
    outsAt0 V c t.val t.isLt x
      = outsAt0 V c (t.val - 1) (Nat.lt_of_le_of_lt (Nat.sub_le _ _) t.isLt) x + S0 V c t := by
  rw [outsAt0_next V c t h0]
  refine (point0 (grid0.coords t) (iblk0 V c 0 t) (iblk0 V c 1 t)
    (outsAt0 V c (t.val - 1) (Nat.lt_of_le_of_lt (Nat.sub_le _ _) t.isLt)) x).trans ?_
  rw [(coords0 t).1, (coords0 t).2]
  rfl

/-- Point `16·i + j` of the grid. -/
theorem pt0_lt (i : Fin 8) (j : Fin 16) : 16 * i.val + j.val < cfg0.N := by
  have hi := i.isLt; have hj := j.isLt
  show _ < grid0.N
  rw [N_0]; omega

/-- The staging buffer after point `n`, as a function of every natural number (zero past the grid). -/
def outs0 (c : Dev nD) (n : ℕ) : S8x128.Idx → EReal :=
  if hn : n < cfg0.N then outsAt0 V c n hn else fun _ => 0

theorem outs0_eq (c : Dev nD) (n : ℕ) (hn : n < cfg0.N) : outs0 V c n = outsAt0 V c n hn := dif_pos hn

/-- After the last point of block row `i` every cell holds the sum of the row's sixteen block sums. -/
theorem row0 (c : Dev nD) (i : Fin 8) (x : S8x128.Idx) :
    outsAt0 V c (16 * i.val + 15) (pt0_lt i 15) x = ∑ j : Fin 16, S0 V c ⟨16 * i.val + j.val, pt0_lt i j⟩ := by
  have h := AlgTotal.row_sum16 (outs0 V c) (16 * i.val) (fun j => S0 V c ⟨16 * i.val + j.val, pt0_lt i j⟩)
    (fun y => by
      rw [outs0_eq V c (16 * i.val) (pt0_lt i 0)]
      exact step0_first V c ⟨16 * i.val + (0 : Fin 16).val, pt0_lt i 0⟩ (by show (16 * i.val + 0) % 16 = 0; omega) y)
    (fun j hj y => by
      have hj' := j.isLt
      rw [outs0_eq V c (16 * i.val + j.val) (pt0_lt i j),
        outs0_eq V c (16 * i.val + j.val - 1) (Nat.lt_of_le_of_lt (Nat.sub_le _ _) (pt0_lt i j))]
      exact step0_next V c ⟨16 * i.val + j.val, pt0_lt i j⟩ (by show ¬(16 * i.val + j.val) % 16 = 0; omega) y) x
  rw [outs0_eq V c (16 * i.val + 15) (pt0_lt i 15)] at h
  exact h

/-- THE OUTPUT ARRAY OF THE FIRST CALL: constant on each block of eight rows, the eight values adding up to
    the specification's total. -/
theorem out0_total (c : Dev nD) (hX : ∀ idx, ∃ t : ℝ, (V c main_v0 : Cert.MMD.Arr) idx = (t : EReal)) :
    ∃ T : Fin 8 → EReal,
      (∀ (i u : Fin 8) (l : Fin 128),
        (dat0 V c).arrAt 2 cfg0.N (ix2 ⟨8 * i.val + u.val, by have := i.isLt; have := u.isLt; omega⟩ l) = T i)
      ∧ ∑ i : Fin 8, T i = Cert.MMD.total (V c main_v0) (V c main_v0) := by
  refine ⟨fun i => ∑ j : Fin 16, S0 V c ⟨16 * i.val + j.val, pt0_lt i j⟩, fun i u l => ?_, ?_⟩
  · have hi := i.isLt; have hu := u.isLt
    rw [final0 V c, arr0_at V c _ (16 * i.val + 15) (pt0_lt i 15) (ix2 u l)
      (by show 16 * ((8 * i.val + u.val) / 8) + 15 = 16 * i.val + 15; omega)
      (by show (8 * i.val + u.val) % 8 = u.val; omega) rfl]
    exact row0 V c i (ix2 u l)
  · rw [← AlgTotal.total_of_cellD (V c main_v0) hX
      (fun i j => iblk0 V c 0 ⟨16 * i.val + j.val, pt0_lt i j⟩)
      (fun i j => iblk0 V c 1 ⟨16 * i.val + j.val, pt0_lt i j⟩)
      (fun i j r k => by
        have hj := j.isLt
        rw [iblk0_0_apply V c ⟨16 * i.val + j.val, pt0_lt i j⟩ r k]
        exact congrArg (fun p : Fin 8192 => (V c main_v0 : Cert.MMD.Arr) (ix2 p k))
          (Fin.ext (by show 1024 * ((16 * i.val + j.val) / 16) + r.val = 1024 * i.val + r.val; omega)))
      (fun i j r k => by
        have hj := j.isLt
        rw [iblk0_1_apply V c ⟨16 * i.val + j.val, pt0_lt i j⟩ r k]
        exact congrArg (fun p : Fin 8192 => (V c main_v0 : Cert.MMD.Arr) (ix2 p k))
          (Fin.ext (by show 512 * ((16 * i.val + j.val) % 16) + r.val = 512 * j.val + r.val; omega)))]
    refine Finset.sum_congr rfl fun i _ => Finset.sum_congr rfl fun j _ => ?_
    have hj := j.isLt
    unfold S0
    show (∑ r : Fin 1024, ∑ c' : Fin 512, cellD ((16 * i.val + j.val) / 16) ((16 * i.val + j.val) % 16) _ _ r c') = _
    rw [show (16 * i.val + j.val) / 16 = i.val by omega, show (16 * i.val + j.val) % 16 = j.val by omega]

end Region

end Cert.Kern

end
-- ==== Proof.KIValPay1.lean ====
/-
  What the body of pallas_call 1 leaves in its output block, as a pure function of what it loads.

  The body's last store covers the whole 8 × 128 output block, and its value is one term of the two input
  blocks, the grid coordinates and the output block as loaded just before. Away from the first column-block
  (j ≠ 0) the loaded output block is what the block held when the body started. At j = 0 the body has first
  stored the zero block over the whole output block, so the later load reads that zero block back, whatever
  the block held before. Every load reads a whole buffer from offset zero, so it reads the buffer's contents
  unchanged.
-/
import proofs.«165426_j87875030876301_2_alg».proof.Proof.KIDat1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The offset of every load and store of the body: the origin of its buffer. -/
theorem origin1 : (![0, 0] : Fin 2 → Nat) = fun _ => 0 := funext fun a => by fin_cases a <;> rfl

/-- Away from the first column-block the body leaves the store's value over the block it found, `xo`. -/
theorem out1_B_eq (c : Dev nD) (i : grid1.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : ¬cond1 i) (x0 : Vec F S1024x512 .bf16) (x1 : Vec F S512x512 .bf16) (xo : Vec F S8x128 .f32) :
    out1_B c i a2 h2 a3 h3 a4 h4 hc x0 x1 xo = k1_pay1 (k1_pay3 i) (k1_pay4 i) (k1_pay5 i x0 x1) k1_pay6 xo := by
  unfold out1_B
  rw [View.read_writes_eq_canon _ _ _ (cover1_B c i a2 h2 a3 h3 a4 h4 hc x0 x1 xo)]
  unfold kernelRun1_B
  dsimp only
  rw [View.canon_unit_zero origin1]
  simp only [View.readAt_eq_ld, h2.read_unread, h3.read_unread, h4.read_unread,
    View.ld_unit_zero (S := S1024x512) origin1, View.ld_unit_zero (S := S512x512) origin1,
    View.ld_unit_zero (S := S8x128) origin1]

/-- At the first column-block the body leaves the store's value over the zero block it has just stored. -/
theorem out1_A_eq (c : Dev nD) (i : grid1.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : cond1 i) (x0 : Vec F S1024x512 .bf16) (x1 : Vec F S512x512 .bf16) :
    out1_A c i a2 h2 a3 h3 a4 h4 hc x0 x1 = k1_pay1 (k1_pay3 i) (k1_pay4 i) (k1_pay5 i x0 x1) k1_pay6 k1_pay2 := by
  unfold out1_A
  rw [View.read_writes_eq_canon _ _ _ (cover1_A c i a2 h2 a3 h3 a4 h4 hc x0 x1)]
  unfold kernelRun1_A
  dsimp only
  sl_unfold_words
  rw [View.canon_cons_unit_zero (S := S8x128) origin1, View.readCov_unit_zero (S := S8x128) _ origin1]
  simp only [View.readAt_eq_ld, h2.read_unread, h3.read_unread,
    View.ld_unit_zero (S := S1024x512) origin1, View.ld_unit_zero (S := S512x512) origin1]

end Cert.KernelIdeal.Hand

end
-- ==== Proof.KIValAcc1.lean ====
/-
  What the output block of pallas_call 1 holds after each grid point, as the body's store value.

  Within a block-row the output's staging buffer is carried from one point to the next. After a point in the
  first column-block (t % 16 = 0) it holds the store's value over the zero block; after any other point it holds
  the store's value over what the point before left. The store's value is a pure term of the grid coordinates and
  the two input blocks at the point.
-/
import proofs.«165426_j87875030876301_2_alg».proof.Proof.KIValPay1
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section Region
variable (V : (c : Dev nD) → (b : Ref sig .tc) → Buf (Elt F) ((c : Thread nD τ).loc b))

/-- After a point of the first column-block: the store's value over the zero block. -/
theorem outsAt1_first (c : Dev nD) (t : Fin cfg1.N) (h0 : t.val % 16 = 0) :
    outsAt1 V c t.val t.isLt = k1_pay1 (k1_pay3 (grid1.coords t)) (k1_pay4 (grid1.coords t)) (k1_pay5 (grid1.coords t) (iblk1 V c 0 t) (iblk1 V c 1 t)) k1_pay6 k1_pay2 :=
  (outsAt1_A V c t h0).trans
    (out1_A_eq c (grid1.coords t) (ms1_0 t) (hs1_0 t) (ms1_1 t) (hs1_1 t) (ms1_2 t) (hs1_2 t) ((hcond1 t).mpr h0)
      (iblk1 V c 0 t) (iblk1 V c 1 t))

/-- After any other point: the store's value over what the point before left. -/
theorem outsAt1_next (c : Dev nD) (t : Fin cfg1.N) (h0 : ¬t.val % 16 = 0) :
    outsAt1 V c t.val t.isLt
      = k1_pay1 (k1_pay3 (grid1.coords t)) (k1_pay4 (grid1.coords t)) (k1_pay5 (grid1.coords t) (iblk1 V c 0 t) (iblk1 V c 1 t)) k1_pay6
          (outsAt1 V c (t.val - 1) (Nat.lt_of_le_of_lt (Nat.sub_le _ _) t.isLt)) :=
  (outsAt1_B V c t h0).trans
    (out1_B_eq c (grid1.coords t) (ms1_0 t) (hs1_0 t) (ms1_1 t) (hs1_1 t) (ms1_2 t) (hs1_2 t)
      (fun h => h0 ((hcond1 t).mp h)) (iblk1 V c 0 t) (iblk1 V c 1 t)
      (outsAt1 V c (t.val - 1) (Nat.lt_of_le_of_lt (Nat.sub_le _ _) t.isLt)))

/-- The same step written at point n + 1 over point n, the form an induction along a block-row uses. -/
theorem outsAt1_succ (c : Dev nD) (n : ℕ) (hn : n + 1 < cfg1.N) (h0 : ¬(n + 1) % 16 = 0) :
    outsAt1 V c (n + 1) hn
      = k1_pay1 (k1_pay3 (grid1.coords ⟨n + 1, hn⟩)) (k1_pay4 (grid1.coords ⟨n + 1, hn⟩)) (k1_pay5 (grid1.coords ⟨n + 1, hn⟩) (iblk1 V c 0 ⟨n + 1, hn⟩) (iblk1 V c 1 ⟨n + 1, hn⟩)) k1_pay6
          (outsAt1 V c n (Nat.lt_of_succ_lt hn)) :=
  outsAt1_next V c ⟨n + 1, hn⟩ h0

end Region

end Cert.KernelIdeal.Hand

end
-- ==== Proof.KIValBlk1.lean ====
/-
  The input blocks of pallas_call 1 at a grid point, entry by entry.

  Point t of the 8 × 16 row-major grid has block-row t / 16 and column-block t % 16. The first operand's block is
  1024 rows of 512 at block index (t / 16, 0) of its array of 8192 rows; the second operand's block is 512 rows of
  512 at block index (t % 16, 0) of its array. An entry of a block sits in the array, on each axis, at the block
  index times the block's extent plus its coordinate inside the block. So entry (r, k) of the first block is entry
  (1024 (t / 16) + r, k) of the first array, and entry (r, k) of the second block is entry (512 (t % 16) + r, k)
  of the second array.
-/
import proofs.«165426_j87875030876301_2_alg».proof.Proof.KIDat1
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The two input windows' block indices at point t, decided over the 128 points. -/
theorem in_index1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0 :=
  (by decide +kernel : ∀ t : Fin grid1.N,
    win1_0.index t (0 : Fin 2) = t.val / 16 ∧ win1_0.index t (1 : Fin 2) = 0
    ∧ win1_1.index t (0 : Fin 2) = t.val % 16 ∧ win1_1.index t (1 : Fin 2) = 0)

/-- The grid coordinates of point t: block-row t / 16 and column-block t % 16. -/
theorem coords1 : ∀ t : Fin cfg1.N, (grid1.coords t 0).val = t.val / 16 ∧ (grid1.coords t 1).val = t.val % 16 :=
  (by decide +kernel : ∀ t : Fin grid1.N, (grid1.coords t 0).val = t.val / 16 ∧ (grid1.coords t 1).val = t.val % 16)

/-- Row r of the first block at point t is a row of the first array. -/
theorem rowLeft1 (t : Fin cfg1.N) (r : Fin 1024) : 1024 * (t.val / 16) + r.val < 8192 := by
  have ht : t.val < 128 := lt_of_lt_of_eq t.isLt (show cfg1.N = 128 from N_1)
  have hr : r.val < 1024 := r.isLt
  omega

/-- Row r of the second block at point t is a row of the second array. -/
theorem rowRight1 (t : Fin cfg1.N) (r : Fin 512) : 512 * (t.val % 16) + r.val < 8192 := by
  have hr : r.val < 512 := r.isLt
  omega

/-- Entry (r, k) of the first operand's block at point t. -/
theorem iblk1_0_apply (c : Dev nD) (t : Fin cfg1.N) (r : Fin 1024) (k : Fin 512) :
    iblk1 V c 0 t (ix2 r k) = V c main_v1 (ix2 ⟨1024 * (t.val / 16) + r.val, rowLeft1 t r⟩ k) := by
  unfold iblk1
  obtain ⟨e0, e1, -, -⟩ := in_index1 t
  show V c main_v1 (((cfg1.win 0).blk t).view.emb (ix2 r k)) = V c main_v1 _
  refine congrArg (V c main_v1) (funext fun a => Fin.ext ?_)
  match a with
  | ⟨0, _⟩ => show win1_0.index t (0 : Fin 2) * 1024 + 1 * r.val = 1024 * (t.val / 16) + r.val; omega
  | ⟨1, _⟩ => show win1_0.index t (1 : Fin 2) * 512 + 1 * k.val = k.val; omega

/-- Entry (r, k) of the second operand's block at point t. -/
theorem iblk1_1_apply (c : Dev nD) (t : Fin cfg1.N) (r : Fin 512) (k : Fin 512) :
    iblk1 V c 1 t (ix2 r k) = V c main_v1 (ix2 ⟨512 * (t.val % 16) + r.val, rowRight1 t r⟩ k) := by
  unfold iblk1
  obtain ⟨-, -, e0, e1⟩ := in_index1 t
  show V c main_v1 (((cfg1.win 1).blk t).view.emb (ix2 r k)) = V c main_v1 _
  refine congrArg (V c main_v1) (funext fun a => Fin.ext ?_)
  match a with
  | ⟨0, _⟩ => show win1_1.index t (0 : Fin 2) * 512 + 1 * r.val = 512 * (t.val % 16) + r.val; omega
  | ⟨1, _⟩ => show win1_1.index t (1 : Fin 2) * 512 + 1 * k.val = k.val; omega

end Region

end Cert.KernelIdeal.Hand

end
-- ==== Proof.KIValArr1.lean ====
/-
  The output array of pallas_call 1 after the call, index by index.

  The output is 64 rows of 128; its window's block is 8 rows of 128 and its block index at grid point t is
  (t / 16, 0), so block-row i of the array belongs to the sixteen points 16 i … 16 i + 15 and is written back
  once, after the last of them. The eight points that write back (t % 16 = 15) write disjoint blocks that
  together fill the array. So row R of the array, column C, ends holding row R % 8, column C of what the
  output's staging buffer held after point 16 (R / 8) + 15.
-/
import proofs.«165426_j87875030876301_2_alg».proof.Proof.KIDat1
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The output window's block index at point t is (t / 16, 0), decided over the 128 points. -/
theorem out_index1 : ∀ t : Fin cfg1.N, win1_2.index t (0 : Fin 2) = t.val / 16 ∧ win1_2.index t (1 : Fin 2) = 0 :=
  (by decide +kernel : ∀ t : Fin grid1.N, win1_2.index t (0 : Fin 2) = t.val / 16 ∧ win1_2.index t (1 : Fin 2) = 0)

/-- The last point of the block-row that holds row `i 0` is a point of the grid. -/
theorem lastPoint1 (i : S64x128.Idx) : 16 * ((i 0).val / 8) + 15 < cfg1.N := by
  have h : (i 0).val < 64 := idx2_lt0 i
  show _ < grid1.N
  rw [N_1]; omega

/-- The array the call leaves: at (R, C), entry (R % 8, C) of the staging buffer after point 16 (R / 8) + 15. -/
def arr1 (c : Dev nD) : S64x128.Idx → Elt F .f32 := fun i =>
  outsAt1 V c (16 * ((i 0).val / 8) + 15) (lastPoint1 i)
    (ix2 ⟨(i 0).val % 8, Nat.mod_lt _ (by decide)⟩ ⟨(i 1).val, idx2_lt1 i⟩)

/-- That array at an index, against the staging buffer after a point given by its number and read at a block
    index given by its coordinates. -/
theorem arr1_at (c : Dev nD) (i : S64x128.Idx) (n : ℕ) (hn : n < cfg1.N) (y : S8x128.Idx)
    (h1 : 16 * ((i 0).val / 8) + 15 = n) (h2 : (i 0).val % 8 = (y 0).val) (h3 : (i 1).val = (y 1).val) :
    arr1 V c i = outsAt1 V c n hn y := by
  subst h1
  unfold arr1
  congr 1
  funext a
  match a with
  | ⟨0, _⟩ => exact Fin.ext h2
  | ⟨1, _⟩ => exact Fin.ext h3

/-- What a point that writes back writes is its block of that array: entry y of the block of point t sits at
    row 8 (t / 16) + y₀, column y₁, and t = 16 (t / 16) + 15. -/
theorem flushed1_eq (c : Dev nD) (t : Fin cfg1.N) (ht : t.val % 16 = 15) :
    (dat1 V c).flushed 2 t = ((cfg1.win 2).blk t).view.read (Elt F) (arr1 V c) := by
  show (cfg1.win 2).cut (grid1.coords t) ((dat1 V c).after 2 t) = _
  rw [after1_2]
  obtain ⟨e0, e1⟩ := out_index1 t
  funext y
  show outsAt1 V c t.val t.isLt y = arr1 V c (((cfg1.win 2).blk t).view.emb y)
  have hy0 : (y 0).val < 8 := (y 0).isLt
  have hy1 : (y 1).val < 128 := (y 1).isLt
  refine (arr1_at V c _ t.val t.isLt y ?_ ?_ ?_).symm
  · show 16 * ((win1_2.index t (0 : Fin 2) * 8 + 1 * (y 0).val) / 8) + 15 = t.val
    omega
  · show (win1_2.index t (0 : Fin 2) * 8 + 1 * (y 0).val) % 8 = (y 0).val
    omega
  · show win1_2.index t (1 : Fin 2) * 128 + 1 * (y 1).val = (y 1).val
    omega

/-- An index of the array is in the block of point t when each coordinate is in the block's range. -/
theorem mem_blk1 (t : Fin cfg1.N) (i : S64x128.Idx) :
    i ∈ ((cfg1.win 2).blk t).view.set ↔ ∀ a : Fin 2, win1_2.index t a * S8x128.size a ≤ (i a).val ∧ (i a).val < win1_2.index t a * S8x128.size a + S8x128.size a := by
  show i ∈ ((View.whole main_v5).slice (win1_2.rect t)).set ↔ _
  rw [View.set_slice_whole, Rect.mem_set_unit]
  exact Iff.rfl

/-- Every index of the array is in the block of a point that writes back: row R in that of point 16 (R / 8) + 15. -/
theorem cover1 (i : S64x128.Idx) : ∃ t : Fin cfg1.N, (cfg1.win 2).flush t = true ∧ i ∈ ((cfg1.win 2).blk t).view.set := by
  have h0 : (i 0).val < 64 := idx2_lt0 i
  have h1 : (i 1).val < 128 := idx2_lt1 i
  refine ⟨⟨16 * ((i 0).val / 8) + 15, lastPoint1 i⟩, (flush1_2 _).mpr (by show (16 * ((i 0).val / 8) + 15) % 16 = 15; omega), ?_⟩
  obtain ⟨e0, e1⟩ := out_index1 ⟨16 * ((i 0).val / 8) + 15, lastPoint1 i⟩
  have e0' : win1_2.index ⟨16 * ((i 0).val / 8) + 15, lastPoint1 i⟩ (0 : Fin 2) = (16 * ((i 0).val / 8) + 15) / 16 := e0
  rw [mem_blk1]
  intro a
  match a with
  | ⟨0, _⟩ => show win1_2.index _ (0 : Fin 2) * 8 ≤ (i 0).val ∧ (i 0).val < win1_2.index _ (0 : Fin 2) * 8 + 8; omega
  | ⟨1, _⟩ => show win1_2.index _ (1 : Fin 2) * 128 ≤ (i 1).val ∧ (i 1).val < win1_2.index _ (1 : Fin 2) * 128 + 128; omega

/-- The output array after all the write-backs. -/
theorem final1 (c : Dev nD) : (dat1 V c).arrAt 2 cfg1.N = arr1 V c :=
  (dat1 V c).arrAt_eq_of_cover 2 (arr1 V c) (fun t hf => flushed1_eq V c t ((flush1_2 t).mp hf)) cover1

/-- The output array at row R, column C. -/
theorem arrAt1_apply (c : Dev nD) (R : Fin 64) (C : Fin 128) :
    (dat1 V c).arrAt 2 cfg1.N (ix2 R C)
      = outsAt1 V c (16 * (R.val / 8) + 15) (lastPoint1 (ix2 R C)) (ix2 ⟨R.val % 8, Nat.mod_lt _ (by decide)⟩ C) := by
  rw [final1]; rfl

end Region

end Cert.KernelIdeal.Hand

end
-- ==== Proof.Kern1.lean ====
/-
  One grid point of the second call. Its body is, operation for operation, the first call's: the same
  lane arithmetic, the same diagonal select, the same accumulation; only the arrays it is launched on
  differ. So its grid point is the first call's statement.
-/
import proofs.«165426_j87875030876301_2_alg».proof.Proof.Kern0

open scoped BigOperators

namespace Cert.Kern

open Idealize.ShloMosaic Idealize.ShloMosaic.ValueIdx Cert.KernelIdeal Cert.KernelIdeal.Gen Cert.AlgCell

/-- THE GRID POINT OF THE SECOND CALL. -/
theorem point1 (i : grid1.Coords) (a : Vec Ideal S1024x512 .bf16) (b : Vec Ideal S512x512 .bf16)
    (prev : Vec Ideal S8x128 .f32) (idx : S8x128.Idx) :
    k1_pay1 (k1_pay3 i) (k1_pay4 i) (k1_pay5 i a b) k1_pay6 prev idx
      = prev idx + ∑ r : Fin 1024, ∑ c : Fin 512, cellD (i 0).val (i 1).val a b r c :=
  point0 i a b prev idx

/-- The zeroing store of the second call. -/
theorem zero1 (idx : S8x128.Idx) : k1_pay2 (F := Ideal) idx = 0 := pay2_apply idx

end Cert.Kern
-- ==== Proof.KernRow1.lean ====
/-
  The output array of the second call, block row by block row. The call pairs the array `main_v1` with itself.
  Along block row `i` the resident output block starts at zero at the first of its sixteen grid points
  and gains one block sum per point, so after the sixteenth it holds, at every cell, the sum of the
  sixteen block sums; the array's rows `8·i … 8·i + 7` are that block. Summed over the eight block
  rows, with the blocks read as rows of the whole arrays, the block sums add up to the specification's
  total over all pairs of rows.
-/
import proofs.«165426_j87875030876301_2_alg».proof.Proof.KIValAcc1
import proofs.«165426_j87875030876301_2_alg».proof.Proof.KIValBlk1
import proofs.«165426_j87875030876301_2_alg».proof.Proof.KIValArr1
import proofs.«165426_j87875030876301_2_alg».proof.Proof.Kern1
import proofs.«165426_j87875030876301_2_alg».proof.Proof.AlgTotal

set_option maxRecDepth 16384

noncomputable section

open scoped BigOperators

namespace Cert.Kern

open Idealize.ShloMosaic Idealize.ShloMosaic.TcCoe Idealize.ShloMosaic.ValueIdx
open Idealize.SL Idealize.SL.Sem
open Cert.KernelIdeal Cert.KernelIdeal.Gen Cert.KernelIdeal.Hand Cert.AlgCell

section Region
variable (V : (c : Dev nD) → (b : Ref sig .tc) → Buf (Elt Ideal) ((c : Thread nD τ).loc b))

/-- The block sum of grid point `t`. -/
def S1 (c : Dev nD) (t : Fin cfg1.N) : EReal :=
  ∑ r : Fin 1024, ∑ c' : Fin 512, cellD (t.val / 16) (t.val % 16) (iblk1 V c 0 t) (iblk1 V c 1 t) r c'

/-- After the first point of a block row: zero plus its block sum. -/
theorem step1_first (c : Dev nD) (t : Fin cfg1.N) (h0 : t.val % 16 = 0) (x : S8x128.Idx) :
    outsAt1 V c t.val t.isLt x = 0 + S1 V c t := by
  rw [outsAt1_first V c t h0]
  refine (point1 (grid1.coords t) (iblk1 V c 0 t) (iblk1 V c 1 t) (k1_pay2 (F := Ideal)) x).trans ?_
  rw [zero1 x, (coords1 t).1, (coords1 t).2]
  rfl

/-- After any later point: what the point before left plus its block sum. -/
theorem step1_next (c : Dev nD) (t : Fin cfg1.N) (h0 : ¬t.val % 16 = 0) (x : S8x128.Idx) :
    outsAt1 V c t.val t.isLt x
      = outsAt1 V c (t.val - 1) (Nat.lt_of_le_of_lt (Nat.sub_le _ _) t.isLt) x + S1 V c t := by
  rw [outsAt1_next V c t h0]
  refine (point1 (grid1.coords t) (iblk1 V c 0 t) (iblk1 V c 1 t)
    (outsAt1 V c (t.val - 1) (Nat.lt_of_le_of_lt (Nat.sub_le _ _) t.isLt)) x).trans ?_
  rw [(coords1 t).1, (coords1 t).2]
  rfl

/-- Point `16·i + j` of the grid. -/
theorem pt1_lt (i : Fin 8) (j : Fin 16) : 16 * i.val + j.val < cfg1.N := by
  have hi := i.isLt; have hj := j.isLt
  show _ < grid1.N
  rw [N_1]; omega

/-- The staging buffer after point `n`, as a function of every natural number (zero past the grid). -/
def outs1 (c : Dev nD) (n : ℕ) : S8x128.Idx → EReal :=
  if hn : n < cfg1.N then outsAt1 V c n hn else fun _ => 0

theorem outs1_eq (c : Dev nD) (n : ℕ) (hn : n < cfg1.N) : outs1 V c n = outsAt1 V c n hn := dif_pos hn

/-- After the last point of block row `i` every cell holds the sum of the row's sixteen block sums. -/
theorem row1 (c : Dev nD) (i : Fin 8) (x : S8x128.Idx) :
    outsAt1 V c (16 * i.val + 15) (pt1_lt i 15) x = ∑ j : Fin 16, S1 V c ⟨16 * i.val + j.val, pt1_lt i j⟩ := by
  have h := AlgTotal.row_sum16 (outs1 V c) (16 * i.val) (fun j => S1 V c ⟨16 * i.val + j.val, pt1_lt i j⟩)
    (fun y => by
      rw [outs1_eq V c (16 * i.val) (pt1_lt i 0)]
      exact step1_first V c ⟨16 * i.val + (0 : Fin 16).val, pt1_lt i 0⟩ (by show (16 * i.val + 0) % 16 = 0; omega) y)
    (fun j hj y => by
      have hj' := j.isLt
      rw [outs1_eq V c (16 * i.val + j.val) (pt1_lt i j),
        outs1_eq V c (16 * i.val + j.val - 1) (Nat.lt_of_le_of_lt (Nat.sub_le _ _) (pt1_lt i j))]
      exact step1_next V c ⟨16 * i.val + j.val, pt1_lt i j⟩ (by show ¬(16 * i.val + j.val) % 16 = 0; omega) y) x
  rw [outs1_eq V c (16 * i.val + 15) (pt1_lt i 15)] at h
  exact h

/-- THE OUTPUT ARRAY OF THE SECOND CALL: constant on each block of eight rows, the eight values adding up to
    the specification's total. -/
theorem out1_total (c : Dev nD) (hX : ∀ idx, ∃ t : ℝ, (V c main_v1 : Cert.MMD.Arr) idx = (t : EReal)) :
    ∃ T : Fin 8 → EReal,
      (∀ (i u : Fin 8) (l : Fin 128),
        (dat1 V c).arrAt 2 cfg1.N (ix2 ⟨8 * i.val + u.val, by have := i.isLt; have := u.isLt; omega⟩ l) = T i)
      ∧ ∑ i : Fin 8, T i = Cert.MMD.total (V c main_v1) (V c main_v1) := by
  refine ⟨fun i => ∑ j : Fin 16, S1 V c ⟨16 * i.val + j.val, pt1_lt i j⟩, fun i u l => ?_, ?_⟩
  · have hi := i.isLt; have hu := u.isLt
    rw [final1 V c, arr1_at V c _ (16 * i.val + 15) (pt1_lt i 15) (ix2 u l)
      (by show 16 * ((8 * i.val + u.val) / 8) + 15 = 16 * i.val + 15; omega)
      (by show (8 * i.val + u.val) % 8 = u.val; omega) rfl]
    exact row1 V c i (ix2 u l)
  · rw [← AlgTotal.total_of_cellD (V c main_v1) hX
      (fun i j => iblk1 V c 0 ⟨16 * i.val + j.val, pt1_lt i j⟩)
      (fun i j => iblk1 V c 1 ⟨16 * i.val + j.val, pt1_lt i j⟩)
      (fun i j r k => by
        have hj := j.isLt
        rw [iblk1_0_apply V c ⟨16 * i.val + j.val, pt1_lt i j⟩ r k]
        exact congrArg (fun p : Fin 8192 => (V c main_v1 : Cert.MMD.Arr) (ix2 p k))
          (Fin.ext (by show 1024 * ((16 * i.val + j.val) / 16) + r.val = 1024 * i.val + r.val; omega)))
      (fun i j r k => by
        have hj := j.isLt
        rw [iblk1_1_apply V c ⟨16 * i.val + j.val, pt1_lt i j⟩ r k]
        exact congrArg (fun p : Fin 8192 => (V c main_v1 : Cert.MMD.Arr) (ix2 p k))
          (Fin.ext (by show 512 * ((16 * i.val + j.val) % 16) + r.val = 512 * j.val + r.val; omega)))]
    refine Finset.sum_congr rfl fun i _ => Finset.sum_congr rfl fun j _ => ?_
    have hj := j.isLt
    unfold S1
    show (∑ r : Fin 1024, ∑ c' : Fin 512, cellD ((16 * i.val + j.val) / 16) ((16 * i.val + j.val) % 16) _ _ r c') = _
    rw [show (16 * i.val + j.val) / 16 = i.val by omega, show (16 * i.val + j.val) % 16 = j.val by omega]

end Region

end Cert.Kern

end
-- ==== Proof.KIValPay2.lean ====
/-
  What the body of pallas_call 2 leaves in its output block, as a pure function of what it loads.

  The body's last store covers the whole 8 × 128 output block, and its value is one term of the two input
  blocks, the grid coordinates and the output block as loaded just before. Away from the first column-block
  (j ≠ 0) the loaded output block is what the block held when the body started. At j = 0 the body has first
  stored the zero block over the whole output block, so the later load reads that zero block back, whatever
  the block held before. Every load reads a whole buffer from offset zero, so it reads the buffer's contents
  unchanged.
-/
import proofs.«165426_j87875030876301_2_alg».proof.Proof.KIDat2
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The offset of every load and store of the body: the origin of its buffer. -/
theorem origin2 : (![0, 0] : Fin 2 → Nat) = fun _ => 0 := funext fun a => by fin_cases a <;> rfl

/-- Away from the first column-block the body leaves the store's value over the block it found, `xo`. -/
theorem out2_B_eq (c : Dev nD) (i : grid2.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : ¬cond2 i) (x0 : Vec F S1024x512 .bf16) (x1 : Vec F S512x512 .bf16) (xo : Vec F S8x128 .f32) :
    out2_B c i a2 h2 a3 h3 a4 h4 hc x0 x1 xo = k2_pay1 (k2_pay3 x0 x1) (k2_pay4 i) (k2_pay5 i) xo := by
  unfold out2_B
  rw [View.read_writes_eq_canon _ _ _ (cover2_B c i a2 h2 a3 h3 a4 h4 hc x0 x1 xo)]
  unfold kernelRun2_B
  dsimp only
  rw [View.canon_unit_zero origin2]
  simp only [View.readAt_eq_ld, h2.read_unread, h3.read_unread, h4.read_unread,
    View.ld_unit_zero (S := S1024x512) origin2, View.ld_unit_zero (S := S512x512) origin2,
    View.ld_unit_zero (S := S8x128) origin2]

/-- At the first column-block the body leaves the store's value over the zero block it has just stored. -/
theorem out2_A_eq (c : Dev nD) (i : grid2.Coords) (a2 : Memref sig .tc .vmem S1024x512 .bf16) (h2 : a2.IsWhole)
    (a3 : Memref sig .tc .vmem S512x512 .bf16) (h3 : a3.IsWhole) (a4 : Memref sig .tc .vmem S8x128 .f32) (h4 : a4.IsWhole)
    (hc : cond2 i) (x0 : Vec F S1024x512 .bf16) (x1 : Vec F S512x512 .bf16) :
    out2_A c i a2 h2 a3 h3 a4 h4 hc x0 x1 = k2_pay1 (k2_pay3 x0 x1) (k2_pay4 i) (k2_pay5 i) k2_pay2 := by
  unfold out2_A
  rw [View.read_writes_eq_canon _ _ _ (cover2_A c i a2 h2 a3 h3 a4 h4 hc x0 x1)]
  unfold kernelRun2_A
  dsimp only
  sl_unfold_words
  rw [View.canon_cons_unit_zero (S := S8x128) origin2, View.readCov_unit_zero (S := S8x128) _ origin2]
  simp only [View.readAt_eq_ld, h2.read_unread, h3.read_unread,
    View.ld_unit_zero (S := S1024x512) origin2, View.ld_unit_zero (S := S512x512) origin2]

end Cert.KernelIdeal.Hand

end
-- ==== Proof.KIValAcc2.lean ====
/-
  What the output block of pallas_call 2 holds after each grid point, as the body's store value.

  Within a block-row the output's staging buffer is carried from one point to the next. After a point in the
  first column-block (t % 16 = 0) it holds the store's value over the zero block; after any other point it holds
  the store's value over what the point before left. The store's value is a pure term of the grid coordinates and
  the two input blocks at the point.
-/
import proofs.«165426_j87875030876301_2_alg».proof.Proof.KIValPay2
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section Region
variable (V : (c : Dev nD) → (b : Ref sig .tc) → Buf (Elt F) ((c : Thread nD τ).loc b))

/-- After a point of the first column-block: the store's value over the zero block. -/
theorem outsAt2_first (c : Dev nD) (t : Fin cfg2.N) (h0 : t.val % 16 = 0) :
    outsAt2 V c t.val t.isLt = k2_pay1 (k2_pay3 (iblk2 V c 0 t) (iblk2 V c 1 t)) (k2_pay4 (grid2.coords t)) (k2_pay5 (grid2.coords t)) k2_pay2 :=
  (outsAt2_A V c t h0).trans
    (out2_A_eq c (grid2.coords t) (ms2_0 t) (hs2_0 t) (ms2_1 t) (hs2_1 t) (ms2_2 t) (hs2_2 t) ((hcond2 t).mpr h0)
      (iblk2 V c 0 t) (iblk2 V c 1 t))

/-- After any other point: the store's value over what the point before left. -/
theorem outsAt2_next (c : Dev nD) (t : Fin cfg2.N) (h0 : ¬t.val % 16 = 0) :
    outsAt2 V c t.val t.isLt
      = k2_pay1 (k2_pay3 (iblk2 V c 0 t) (iblk2 V c 1 t)) (k2_pay4 (grid2.coords t)) (k2_pay5 (grid2.coords t))
          (outsAt2 V c (t.val - 1) (Nat.lt_of_le_of_lt (Nat.sub_le _ _) t.isLt)) :=
  (outsAt2_B V c t h0).trans
    (out2_B_eq c (grid2.coords t) (ms2_0 t) (hs2_0 t) (ms2_1 t) (hs2_1 t) (ms2_2 t) (hs2_2 t)
      (fun h => h0 ((hcond2 t).mp h)) (iblk2 V c 0 t) (iblk2 V c 1 t)
      (outsAt2 V c (t.val - 1) (Nat.lt_of_le_of_lt (Nat.sub_le _ _) t.isLt)))

/-- The same step written at point n + 1 over point n, the form an induction along a block-row uses. -/
theorem outsAt2_succ (c : Dev nD) (n : ℕ) (hn : n + 1 < cfg2.N) (h0 : ¬(n + 1) % 16 = 0) :
    outsAt2 V c (n + 1) hn
      = k2_pay1 (k2_pay3 (iblk2 V c 0 ⟨n + 1, hn⟩) (iblk2 V c 1 ⟨n + 1, hn⟩)) (k2_pay4 (grid2.coords ⟨n + 1, hn⟩)) (k2_pay5 (grid2.coords ⟨n + 1, hn⟩))
          (outsAt2 V c n (Nat.lt_of_succ_lt hn)) :=
  outsAt2_next V c ⟨n + 1, hn⟩ h0

end Region

end Cert.KernelIdeal.Hand

end
-- ==== Proof.KIValBlk2.lean ====
/-
  The input blocks of pallas_call 2 at a grid point, entry by entry.

  Point t of the 8 × 16 row-major grid has block-row t / 16 and column-block t % 16. The first operand's block is
  1024 rows of 512 at block index (t / 16, 0) of its array of 8192 rows; the second operand's block is 512 rows of
  512 at block index (t % 16, 0) of its array. An entry of a block sits in the array, on each axis, at the block
  index times the block's extent plus its coordinate inside the block. So entry (r, k) of the first block is entry
  (1024 (t / 16) + r, k) of the first array, and entry (r, k) of the second block is entry (512 (t % 16) + r, k)
  of the second array.
-/
import proofs.«165426_j87875030876301_2_alg».proof.Proof.KIDat2
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The two input windows' block indices at point t, decided over the 128 points. -/
theorem in_index2 : ∀ t : Fin cfg2.N,
    win2_0.index t (0 : Fin 2) = t.val / 16 ∧ win2_0.index t (1 : Fin 2) = 0
    ∧ win2_1.index t (0 : Fin 2) = t.val % 16 ∧ win2_1.index t (1 : Fin 2) = 0 :=
  (by decide +kernel : ∀ t : Fin grid2.N,
    win2_0.index t (0 : Fin 2) = t.val / 16 ∧ win2_0.index t (1 : Fin 2) = 0
    ∧ win2_1.index t (0 : Fin 2) = t.val % 16 ∧ win2_1.index t (1 : Fin 2) = 0)

/-- The grid coordinates of point t: block-row t / 16 and column-block t % 16. -/
theorem coords2 : ∀ t : Fin cfg2.N, (grid2.coords t 0).val = t.val / 16 ∧ (grid2.coords t 1).val = t.val % 16 :=
  (by decide +kernel : ∀ t : Fin grid2.N, (grid2.coords t 0).val = t.val / 16 ∧ (grid2.coords t 1).val = t.val % 16)

/-- Row r of the first block at point t is a row of the first array. -/
theorem rowLeft2 (t : Fin cfg2.N) (r : Fin 1024) : 1024 * (t.val / 16) + r.val < 8192 := by
  have ht : t.val < 128 := lt_of_lt_of_eq t.isLt (show cfg2.N = 128 from N_2)
  have hr : r.val < 1024 := r.isLt
  omega

/-- Row r of the second block at point t is a row of the second array. -/
theorem rowRight2 (t : Fin cfg2.N) (r : Fin 512) : 512 * (t.val % 16) + r.val < 8192 := by
  have hr : r.val < 512 := r.isLt
  omega

/-- Entry (r, k) of the first operand's block at point t. -/
theorem iblk2_0_apply (c : Dev nD) (t : Fin cfg2.N) (r : Fin 1024) (k : Fin 512) :
    iblk2 V c 0 t (ix2 r k) = V c main_v0 (ix2 ⟨1024 * (t.val / 16) + r.val, rowLeft2 t r⟩ k) := by
  unfold iblk2
  obtain ⟨e0, e1, -, -⟩ := in_index2 t
  show V c main_v0 (((cfg2.win 0).blk t).view.emb (ix2 r k)) = V c main_v0 _
  refine congrArg (V c main_v0) (funext fun a => Fin.ext ?_)
  match a with
  | ⟨0, _⟩ => show win2_0.index t (0 : Fin 2) * 1024 + 1 * r.val = 1024 * (t.val / 16) + r.val; omega
  | ⟨1, _⟩ => show win2_0.index t (1 : Fin 2) * 512 + 1 * k.val = k.val; omega

/-- Entry (r, k) of the second operand's block at point t. -/
theorem iblk2_1_apply (c : Dev nD) (t : Fin cfg2.N) (r : Fin 512) (k : Fin 512) :
    iblk2 V c 1 t (ix2 r k) = V c main_v1 (ix2 ⟨512 * (t.val % 16) + r.val, rowRight2 t r⟩ k) := by
  unfold iblk2
  obtain ⟨-, -, e0, e1⟩ := in_index2 t
  show V c main_v1 (((cfg2.win 1).blk t).view.emb (ix2 r k)) = V c main_v1 _
  refine congrArg (V c main_v1) (funext fun a => Fin.ext ?_)
  match a with
  | ⟨0, _⟩ => show win2_1.index t (0 : Fin 2) * 512 + 1 * r.val = 512 * (t.val % 16) + r.val; omega
  | ⟨1, _⟩ => show win2_1.index t (1 : Fin 2) * 512 + 1 * k.val = k.val; omega

end Region

end Cert.KernelIdeal.Hand

end
-- ==== Proof.KIValArr2.lean ====
/-
  The output array of pallas_call 2 after the call, index by index.

  The output is 64 rows of 128; its window's block is 8 rows of 128 and its block index at grid point t is
  (t / 16, 0), so block-row i of the array belongs to the sixteen points 16 i … 16 i + 15 and is written back
  once, after the last of them. The eight points that write back (t % 16 = 15) write disjoint blocks that
  together fill the array. So row R of the array, column C, ends holding row R % 8, column C of what the
  output's staging buffer held after point 16 (R / 8) + 15.
-/
import proofs.«165426_j87875030876301_2_alg».proof.Proof.KIDat2
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-- The output window's block index at point t is (t / 16, 0), decided over the 128 points. -/
theorem out_index2 : ∀ t : Fin cfg2.N, win2_2.index t (0 : Fin 2) = t.val / 16 ∧ win2_2.index t (1 : Fin 2) = 0 :=
  (by decide +kernel : ∀ t : Fin grid2.N, win2_2.index t (0 : Fin 2) = t.val / 16 ∧ win2_2.index t (1 : Fin 2) = 0)

/-- The last point of the block-row that holds row `i 0` is a point of the grid. -/
theorem lastPoint2 (i : S64x128.Idx) : 16 * ((i 0).val / 8) + 15 < cfg2.N := by
  have h : (i 0).val < 64 := idx2_lt0 i
  show _ < grid2.N
  rw [N_2]; omega

/-- The array the call leaves: at (R, C), entry (R % 8, C) of the staging buffer after point 16 (R / 8) + 15. -/
def arr2 (c : Dev nD) : S64x128.Idx → Elt F .f32 := fun i =>
  outsAt2 V c (16 * ((i 0).val / 8) + 15) (lastPoint2 i)
    (ix2 ⟨(i 0).val % 8, Nat.mod_lt _ (by decide)⟩ ⟨(i 1).val, idx2_lt1 i⟩)

/-- That array at an index, against the staging buffer after a point given by its number and read at a block
    index given by its coordinates. -/
theorem arr2_at (c : Dev nD) (i : S64x128.Idx) (n : ℕ) (hn : n < cfg2.N) (y : S8x128.Idx)
    (h1 : 16 * ((i 0).val / 8) + 15 = n) (h2 : (i 0).val % 8 = (y 0).val) (h3 : (i 1).val = (y 1).val) :
    arr2 V c i = outsAt2 V c n hn y := by
  subst h1
  unfold arr2
  congr 1
  funext a
  match a with
  | ⟨0, _⟩ => exact Fin.ext h2
  | ⟨1, _⟩ => exact Fin.ext h3

/-- What a point that writes back writes is its block of that array: entry y of the block of point t sits at
    row 8 (t / 16) + y₀, column y₁, and t = 16 (t / 16) + 15. -/
theorem flushed2_eq (c : Dev nD) (t : Fin cfg2.N) (ht : t.val % 16 = 15) :
    (dat2 V c).flushed 2 t = ((cfg2.win 2).blk t).view.read (Elt F) (arr2 V c) := by
  show (cfg2.win 2).cut (grid2.coords t) ((dat2 V c).after 2 t) = _
  rw [after2_2]
  obtain ⟨e0, e1⟩ := out_index2 t
  funext y
  show outsAt2 V c t.val t.isLt y = arr2 V c (((cfg2.win 2).blk t).view.emb y)
  have hy0 : (y 0).val < 8 := (y 0).isLt
  have hy1 : (y 1).val < 128 := (y 1).isLt
  refine (arr2_at V c _ t.val t.isLt y ?_ ?_ ?_).symm
  · show 16 * ((win2_2.index t (0 : Fin 2) * 8 + 1 * (y 0).val) / 8) + 15 = t.val
    omega
  · show (win2_2.index t (0 : Fin 2) * 8 + 1 * (y 0).val) % 8 = (y 0).val
    omega
  · show win2_2.index t (1 : Fin 2) * 128 + 1 * (y 1).val = (y 1).val
    omega

/-- An index of the array is in the block of point t when each coordinate is in the block's range. -/
theorem mem_blk2 (t : Fin cfg2.N) (i : S64x128.Idx) :
    i ∈ ((cfg2.win 2).blk t).view.set ↔ ∀ a : Fin 2, win2_2.index t a * S8x128.size a ≤ (i a).val ∧ (i a).val < win2_2.index t a * S8x128.size a + S8x128.size a := by
  show i ∈ ((View.whole main_v8).slice (win2_2.rect t)).set ↔ _
  rw [View.set_slice_whole, Rect.mem_set_unit]
  exact Iff.rfl

/-- Every index of the array is in the block of a point that writes back: row R in that of point 16 (R / 8) + 15. -/
theorem cover2 (i : S64x128.Idx) : ∃ t : Fin cfg2.N, (cfg2.win 2).flush t = true ∧ i ∈ ((cfg2.win 2).blk t).view.set := by
  have h0 : (i 0).val < 64 := idx2_lt0 i
  have h1 : (i 1).val < 128 := idx2_lt1 i
  refine ⟨⟨16 * ((i 0).val / 8) + 15, lastPoint2 i⟩, (flush2_2 _).mpr (by show (16 * ((i 0).val / 8) + 15) % 16 = 15; omega), ?_⟩
  obtain ⟨e0, e1⟩ := out_index2 ⟨16 * ((i 0).val / 8) + 15, lastPoint2 i⟩
  have e0' : win2_2.index ⟨16 * ((i 0).val / 8) + 15, lastPoint2 i⟩ (0 : Fin 2) = (16 * ((i 0).val / 8) + 15) / 16 := e0
  rw [mem_blk2]
  intro a
  match a with
  | ⟨0, _⟩ => show win2_2.index _ (0 : Fin 2) * 8 ≤ (i 0).val ∧ (i 0).val < win2_2.index _ (0 : Fin 2) * 8 + 8; omega
  | ⟨1, _⟩ => show win2_2.index _ (1 : Fin 2) * 128 ≤ (i 1).val ∧ (i 1).val < win2_2.index _ (1 : Fin 2) * 128 + 128; omega

/-- The output array after all the write-backs. -/
theorem final2 (c : Dev nD) : (dat2 V c).arrAt 2 cfg2.N = arr2 V c :=
  (dat2 V c).arrAt_eq_of_cover 2 (arr2 V c) (fun t hf => flushed2_eq V c t ((flush2_2 t).mp hf)) cover2

/-- The output array at row R, column C. -/
theorem arrAt2_apply (c : Dev nD) (R : Fin 64) (C : Fin 128) :
    (dat2 V c).arrAt 2 cfg2.N (ix2 R C)
      = outsAt2 V c (16 * (R.val / 8) + 15) (lastPoint2 (ix2 R C)) (ix2 ⟨R.val % 8, Nat.mod_lt _ (by decide)⟩ C) := by
  rw [final2]; rfl

end Region

end Cert.KernelIdeal.Hand

end
-- ==== Proof.Kern2.lean ====
/-
  One grid point of the third call, which pairs rows of the first array with rows of the second: the
  block of pair values is the plain pair value at every lane (no diagonal is written), and the store
  adds its double sum to every cell of the output block.
-/
import proofs.«165426_j87875030876301_2_alg».proof.Proof.KernInt
import proofs.«165426_j87875030876301_2_alg».proof.Proof.KernBlk
import proofs.«165426_j87875030876301_2_alg».proof.Proof.KernSum
import proofs.«165426_j87875030876301_2_alg».proof.Proof.AlgCell

open scoped BigOperators

namespace Cert.Kern

open Idealize.ShloMosaic Idealize.ShloMosaic.ValueIdx Cert.KernelIdeal Cert.KernelIdeal.Gen Cert.AlgCell

/-- The block of pair values of the third call at lane `(r, c)`. -/
theorem pay3_apply2 (a : Vec Ideal S1024x512 .bf16) (b : Vec Ideal S512x512 .bf16) (r : Fin 1024) (c : Fin 512) :
    k2_pay3 a b (ix2 r c) = blk a b r c := by
  have hR := rowSq_apply a r c
  have hC := colSq_apply b r c
  have hD := dot_apply a b r c
  unfold blk
  rw [← hR, ← hC, ← hD]
  rfl

/-- THE GRID POINT OF THE THIRD CALL: every cell of the output block gains the block's double sum. -/
theorem point2 (i : grid2.Coords) (a : Vec Ideal S1024x512 .bf16) (b : Vec Ideal S512x512 .bf16)
    (prev : Vec Ideal S8x128 .f32) (idx : S8x128.Idx) :
    k2_pay1 (k2_pay3 a b) (k2_pay4 i) (k2_pay5 i) prev idx
      = prev idx + ∑ r : Fin 1024, ∑ c : Fin 512, blk a b r c := by
  obtain ⟨u, l, rfl⟩ : ∃ (u : Fin 8) (l : Fin 128), idx = ix2 u l := ⟨idx 0, idx 1, eq_ix2 idx⟩
  rw [pay1_apply2 (k2_pay3 a b) (k2_pay4 i) (k2_pay5 i) prev (mask2_row i) (mask2_col i) u l]
  exact congrArg (prev (ix2 u l) + ·)
    (Finset.sum_congr rfl fun r _ => Finset.sum_congr rfl fun c _ => pay3_apply2 a b r c)

/-- The zeroing store of the third call. -/
theorem zero2 (idx : S8x128.Idx) : k2_pay2 (F := Ideal) idx = 0 := pay2_apply idx

end Cert.Kern
-- ==== Proof.KernRow2.lean ====
/-
  The output array of the third call, block row by block row. The call pairs the array `main_v0` with the array `main_v1`.
  Along block row `i` the resident output block starts at zero at the first of its sixteen grid points
  and gains one block sum per point, so after the sixteenth it holds, at every cell, the sum of the
  sixteen block sums; the array's rows `8·i … 8·i + 7` are that block. Summed over the eight block
  rows, with the blocks read as rows of the whole arrays, the block sums add up to the specification's
  total over all pairs of rows.
-/
import proofs.«165426_j87875030876301_2_alg».proof.Proof.KIValAcc2
import proofs.«165426_j87875030876301_2_alg».proof.Proof.KIValBlk2
import proofs.«165426_j87875030876301_2_alg».proof.Proof.KIValArr2
import proofs.«165426_j87875030876301_2_alg».proof.Proof.Kern2
import proofs.«165426_j87875030876301_2_alg».proof.Proof.AlgTotal

set_option maxRecDepth 16384

noncomputable section

open scoped BigOperators

namespace Cert.Kern

open Idealize.ShloMosaic Idealize.ShloMosaic.TcCoe Idealize.ShloMosaic.ValueIdx
open Idealize.SL Idealize.SL.Sem
open Cert.KernelIdeal Cert.KernelIdeal.Gen Cert.KernelIdeal.Hand Cert.AlgCell

section Region
variable (V : (c : Dev nD) → (b : Ref sig .tc) → Buf (Elt Ideal) ((c : Thread nD τ).loc b))

/-- The block sum of grid point `t`. -/
def S2 (c : Dev nD) (t : Fin cfg2.N) : EReal :=
  ∑ r : Fin 1024, ∑ c' : Fin 512, blk (iblk2 V c 0 t) (iblk2 V c 1 t) r c'

/-- After the first point of a block row: zero plus its block sum. -/
theorem step2_first (c : Dev nD) (t : Fin cfg2.N) (h0 : t.val % 16 = 0) (x : S8x128.Idx) :
    outsAt2 V c t.val t.isLt x = 0 + S2 V c t := by
  rw [outsAt2_first V c t h0]
  refine (point2 (grid2.coords t) (iblk2 V c 0 t) (iblk2 V c 1 t) (k2_pay2 (F := Ideal)) x).trans ?_
  rw [zero2 x]
  rfl

/-- After any later point: what the point before left plus its block sum. -/
theorem step2_next (c : Dev nD) (t : Fin cfg2.N) (h0 : ¬t.val % 16 = 0) (x : S8x128.Idx) :
    outsAt2 V c t.val t.isLt x
      = outsAt2 V c (t.val - 1) (Nat.lt_of_le_of_lt (Nat.sub_le _ _) t.isLt) x + S2 V c t := by
  rw [outsAt2_next V c t h0]
  refine (point2 (grid2.coords t) (iblk2 V c 0 t) (iblk2 V c 1 t)
    (outsAt2 V c (t.val - 1) (Nat.lt_of_le_of_lt (Nat.sub_le _ _) t.isLt)) x).trans ?_
  rfl

/-- Point `16·i + j` of the grid. -/
theorem pt2_lt (i : Fin 8) (j : Fin 16) : 16 * i.val + j.val < cfg2.N := by
  have hi := i.isLt; have hj := j.isLt
  show _ < grid2.N
  rw [N_2]; omega

/-- The staging buffer after point `n`, as a function of every natural number (zero past the grid). -/
def outs2 (c : Dev nD) (n : ℕ) : S8x128.Idx → EReal :=
  if hn : n < cfg2.N then outsAt2 V c n hn else fun _ => 0

theorem outs2_eq (c : Dev nD) (n : ℕ) (hn : n < cfg2.N) : outs2 V c n = outsAt2 V c n hn := dif_pos hn

/-- After the last point of block row `i` every cell holds the sum of the row's sixteen block sums. -/
theorem row2 (c : Dev nD) (i : Fin 8) (x : S8x128.Idx) :
    outsAt2 V c (16 * i.val + 15) (pt2_lt i 15) x = ∑ j : Fin 16, S2 V c ⟨16 * i.val + j.val, pt2_lt i j⟩ := by
  have h := AlgTotal.row_sum16 (outs2 V c) (16 * i.val) (fun j => S2 V c ⟨16 * i.val + j.val, pt2_lt i j⟩)
    (fun y => by
      rw [outs2_eq V c (16 * i.val) (pt2_lt i 0)]
      exact step2_first V c ⟨16 * i.val + (0 : Fin 16).val, pt2_lt i 0⟩ (by show (16 * i.val + 0) % 16 = 0; omega) y)
    (fun j hj y => by
      have hj' := j.isLt
      rw [outs2_eq V c (16 * i.val + j.val) (pt2_lt i j),
        outs2_eq V c (16 * i.val + j.val - 1) (Nat.lt_of_le_of_lt (Nat.sub_le _ _) (pt2_lt i j))]
      exact step2_next V c ⟨16 * i.val + j.val, pt2_lt i j⟩ (by show ¬(16 * i.val + j.val) % 16 = 0; omega) y) x
  rw [outs2_eq V c (16 * i.val + 15) (pt2_lt i 15)] at h
  exact h

/-- THE OUTPUT ARRAY OF THE THIRD CALL: constant on each block of eight rows, the eight values adding up to
    the specification's total. -/
theorem out2_total (c : Dev nD) :
    ∃ T : Fin 8 → EReal,
      (∀ (i u : Fin 8) (l : Fin 128),
        (dat2 V c).arrAt 2 cfg2.N (ix2 ⟨8 * i.val + u.val, by have := i.isLt; have := u.isLt; omega⟩ l) = T i)
      ∧ ∑ i : Fin 8, T i = Cert.MMD.total (V c main_v0) (V c main_v1) := by
  refine ⟨fun i => ∑ j : Fin 16, S2 V c ⟨16 * i.val + j.val, pt2_lt i j⟩, fun i u l => ?_, ?_⟩
  · have hi := i.isLt; have hu := u.isLt
    rw [final2 V c, arr2_at V c _ (16 * i.val + 15) (pt2_lt i 15) (ix2 u l)
      (by show 16 * ((8 * i.val + u.val) / 8) + 15 = 16 * i.val + 15; omega)
      (by show (8 * i.val + u.val) % 8 = u.val; omega) rfl]
    exact row2 V c i (ix2 u l)
  · rw [← AlgTotal.total_of_blk (V c main_v0) (V c main_v1)
      (fun i j => iblk2 V c 0 ⟨16 * i.val + j.val, pt2_lt i j⟩)
      (fun i j => iblk2 V c 1 ⟨16 * i.val + j.val, pt2_lt i j⟩)
      (fun i j r k => by
        have hj := j.isLt
        rw [iblk2_0_apply V c ⟨16 * i.val + j.val, pt2_lt i j⟩ r k]
        exact congrArg (fun p : Fin 8192 => (V c main_v0 : Cert.MMD.Arr) (ix2 p k))
          (Fin.ext (by show 1024 * ((16 * i.val + j.val) / 16) + r.val = 1024 * i.val + r.val; omega)))
      (fun i j r k => by
        have hj := j.isLt
        rw [iblk2_1_apply V c ⟨16 * i.val + j.val, pt2_lt i j⟩ r k]
        exact congrArg (fun p : Fin 8192 => (V c main_v1 : Cert.MMD.Arr) (ix2 p k))
          (Fin.ext (by show 512 * ((16 * i.val + j.val) % 16) + r.val = 512 * j.val + r.val; omega)))]
    refine Finset.sum_congr rfl fun i _ => Finset.sum_congr rfl fun j _ => ?_
    have hj := j.isLt
    unfold S2
    rfl

end Region

end Cert.Kern

end
-- ==== Proof.KernTail.lean ====
/-
  The host side after the three calls. Each call's output array (64 × 128, constant on each block of
  8 rows) is summed over both axes from zero and divided by 1024: the 1024 equal cells of a block
  count its value 1024 times, and the division removes the factor, so each call yields the sum of its
  eight block values. The three results are divided by the number of pairs (the word 0x4C800000) and
  combined as first + second − 2 · third: the specification's value when the three sums are the
  specification's three totals.
-/
import proofs.«165426_j87875030876301_2_alg».proof.Proof.Gen.KernelIdeal
import proofs.«165426_j87875030876301_2_alg».proof.Proof.Spec
import proofs.«165426_j87875030876301_2_alg».proof.Proof.AlgSum
import Idealize.ShloMosaic.PureOps.Ideal.Laws

noncomputable section

open scoped BigOperators

namespace Cert.Kern

open Idealize.ShloMosaic Idealize.ShloMosaic.ValueIdx Cert.KernelIdeal Cert.KernelIdeal.Gen

/-- One call's host side: its output array summed over both axes from zero, divided by 1024. -/
def callSum (O : FVec Ideal S64x128 .f32) : FVec Ideal S_ .f32 :=
  Host.divf (Host.reduceAdd (F := Ideal) O (constant (F := Ideal) S_ .f32 0x00000000#32) reducesTo_S64x128_S_d0_1 h_S_)
    (constant (F := Ideal) S_ .f32 0x44800000#32)

/-- The host tail over the three output arrays. -/
def tail (O0 O1 O2 : FVec Ideal S64x128 .f32) : FVec Ideal S_ .f32 :=
  subf
    (addf (Host.divf (callSum O0) (constant (F := Ideal) S_ .f32 0x4C800000#32))
      (Host.divf (callSum O1) (constant (F := Ideal) S_ .f32 0x4C800000#32)))
    (mulf (constant (F := Ideal) S_ .f32 0x40000000#32)
      (Host.divf (callSum O2) (constant (F := Ideal) S_ .f32 0x4C800000#32)))

/-- A call whose output array holds `T i` at every cell of block row `i` yields the sum of the `T i`. -/
theorem callSum_apply (O : FVec Ideal S64x128 .f32) (T : Fin 8 → EReal)
    (hO : ∀ (i u : Fin 8) (l : Fin 128),
      O (ix2 ⟨8 * i.val + u.val, by have := i.isLt; have := u.isLt; omega⟩ l) = T i) (x : S_.Idx) :
    callSum O x = ∑ i : Fin 8, T i := by
  show Ideal.div (Host.reduceAdd (F := Ideal) O (constant (F := Ideal) S_ .f32 0x00000000#32)
    reducesTo_S64x128_S_d0_1 h_S_ x) (Ideal.ofBits .f32 0x44800000#32) = _
  simp only [Host.reduceAdd, Ideal.hostReduceAdd_def]
  rw [Ideal.hostReduceAdd_total reducesTo_S64x128_S_d0_1 (fun b => b.elim0)]
  show Ideal.div (Ideal.ofBits .f32 0x00000000#32 + ∑ idx, O idx) _ = _
  rw [Ideal.ofBits_zero_f32, zero_add, AlgSum.sum_out_const O T hO, AlgSum.div_1024]

/-- THE HOST TAIL IS THE SPECIFICATION, when the three calls' block values add up to the three totals. -/
theorem tail_eq (X Y : Cert.MMD.Arr) (O0 O1 O2 : FVec Ideal S64x128 .f32) (T0 T1 T2 : Fin 8 → EReal)
    (h0 : ∀ (i u : Fin 8) (l : Fin 128),
      O0 (ix2 ⟨8 * i.val + u.val, by have := i.isLt; have := u.isLt; omega⟩ l) = T0 i)
    (h1 : ∀ (i u : Fin 8) (l : Fin 128),
      O1 (ix2 ⟨8 * i.val + u.val, by have := i.isLt; have := u.isLt; omega⟩ l) = T1 i)
    (h2 : ∀ (i u : Fin 8) (l : Fin 128),
      O2 (ix2 ⟨8 * i.val + u.val, by have := i.isLt; have := u.isLt; omega⟩ l) = T2 i)
    (e0 : ∑ i : Fin 8, T0 i = Cert.MMD.total X X) (e1 : ∑ i : Fin 8, T1 i = Cert.MMD.total Y Y)
    (e2 : ∑ i : Fin 8, T2 i = Cert.MMD.total X Y) :
    tail O0 O1 O2 = fun _ => Cert.MMD.mmd X Y := by
  funext x
  show Ideal.div (callSum O0 x) (Ideal.ofBits .f32 0x4C800000#32)
      + Ideal.div (callSum O1 x) (Ideal.ofBits .f32 0x4C800000#32)
      - Ideal.ofBits .f32 0x40000000#32 * Ideal.div (callSum O2 x) (Ideal.ofBits .f32 0x4C800000#32) = _
  rw [callSum_apply O0 T0 h0, callSum_apply O1 T1 h1, callSum_apply O2 T2 h2, e0, e1, e2]
  rfl

end Cert.Kern

end
-- ==== Proof.AlgFinite.lean ====
/-
  What the precondition says, entry by entry. The predicate compares the absolute value of every
  entry of both arguments with +∞ (the word 0x7F800000) and takes the conjunction of all the
  comparisons. An extended real whose absolute value is strictly below +∞ is neither +∞ nor −∞: it
  is a real number. So under the precondition every entry of both arrays is a real.
-/
import proofs.«165426_j87875030876301_2_alg».proof.Pre_finite_inputs
import Idealize.ShloMosaic.Lib.ReduceAll
import Idealize.ShloMosaic.Lib.ValueIdx
import Idealize.ShloMosaic.PureOps.Ideal.Laws

namespace Cert.AlgFinite

open Idealize.ShloMosaic

/-- The scalar shape has one index. -/
instance : Subsingleton Cert.Pre_finite_inputs.S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : ∃ t : ℝ, x = (t : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h; exact absurd h (by decide)
  induction x using EReal.rec with
  | bot => exact absurd hlt (by simp)
  | top => exact absurd hlt (by simp)
  | coe r => exact ⟨r, rfl⟩

/-- Under the precondition every entry of both arguments is a real number. -/
theorem real_of_pre [Cert.Pre_finite_inputs.Facts] (X Y : (⟨2, ![8192, 512]⟩ : Shape).Idx → EReal)
    (h : Cert.Pre_finite_inputs.fn (F := Ideal) X Y = fun _ => 1#1) :
    (∀ i, ∃ t : ℝ, X i = (t : EReal)) ∧ (∀ i, ∃ t : ℝ, Y i = (t : EReal)) := by
  have h0 := congrFun h ValueIdx.ix0
  dsimp only [Cert.Pre_finite_inputs.fn] at h0
  obtain ⟨hx, hy⟩ := IntOp.andi_eq_one.1 h0
  exact ⟨fun i => real_of_abs_lt _ (Host.reduce_andi_all _ _ _ _ _ hx i),
    fun i => real_of_abs_lt _ (Host.reduce_andi_all _ _ _ _ _ hy i)⟩

end Cert.AlgFinite
-- ==== Proof.KernValue.lean ====
/-
  The kernel's result is the specification's value. The first call pairs the first argument with
  itself, the second the second argument with itself, the third the first with the second; the cast
  of an argument to bf16 on the way in is the identity on extended reals. Under the precondition
  every entry of both arguments is a real number, which is what the diagonal of the first two calls
  needs. Each call's output array is constant on its blocks of eight rows, the eight values adding up
  to the specification's total for its pair of arrays; the host side turns the three arrays into
  mean + mean − 2 · mean.
-/
import proofs.«165426_j87875030876301_2_alg».proof.Proof.KIRes
import proofs.«165426_j87875030876301_2_alg».proof.Proof.KIEntry
import proofs.«165426_j87875030876301_2_alg».proof.Proof.Spec
import proofs.«165426_j87875030876301_2_alg».proof.Proof.KernRow0
import proofs.«165426_j87875030876301_2_alg».proof.Proof.KernRow1
import proofs.«165426_j87875030876301_2_alg».proof.Proof.KernRow2
import proofs.«165426_j87875030876301_2_alg».proof.Proof.KernTail
import proofs.«165426_j87875030876301_2_alg».proof.Proof.AlgFinite
import proofs.«165426_j87875030876301_2_alg».proof.Proof.Gen.Pre_finite_inputs
import proofs.«165426_j87875030876301_2_alg».proof.Defs

set_option maxRecDepth 16384

noncomputable section

namespace Cert.Kern

open Idealize.ShloMosaic Idealize.ShloMosaic.TcCoe Idealize.ShloMosaic.ValueIdx
open Idealize.SL Idealize.SL.Sem
open Cert.KernelIdeal Cert.KernelIdeal.Gen Cert.KernelIdeal.Hand

/-- THE KERNEL'S VALUE: the host operations' value of the three output arrays is the specification's. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.combine (Cert.KernelIdeal.Hand.callSum (Cert.KernelIdeal.Hand.O0 m c))
        (Cert.KernelIdeal.Hand.callSum (Cert.KernelIdeal.Hand.O1 m c))
        (Cert.KernelIdeal.Hand.callSum (Cert.KernelIdeal.Hand.O2 m c))
      = fun _ => Cert.MMD.mmd (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨hX, hY⟩ := AlgFinite.real_of_pre
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  -- what each call finds in its operand arrays: the arguments themselves
  have e10 : (Vk1 m c main_v0 : Cert.MMD.Arr)
      = m ((c.tc : Thread Cert.KernelIdeal.nD Cert.KernelIdeal.τ).loc Cert.KernelIdeal.main_arg0) := by
    rw [Vk1_v0]; rfl
  have e11 : (Vk1 m c main_v1 : Cert.MMD.Arr)
      = m ((c.tc : Thread Cert.KernelIdeal.nD Cert.KernelIdeal.τ).loc Cert.KernelIdeal.main_arg1) := by
    rw [Vk1_v1]; rfl
  have e31 : (Vk3 m c main_v1 : Cert.MMD.Arr)
      = m ((c.tc : Thread Cert.KernelIdeal.nD Cert.KernelIdeal.τ).loc Cert.KernelIdeal.main_arg1) := by
    rw [Vk3_v1]; exact e11
  have e50 : (Vk5 m c main_v0 : Cert.MMD.Arr)
      = m ((c.tc : Thread Cert.KernelIdeal.nD Cert.KernelIdeal.τ).loc Cert.KernelIdeal.main_arg0) := by
    rw [Vk5_v0]; exact e10
  have e51 : (Vk5 m c main_v1 : Cert.MMD.Arr)
      = m ((c.tc : Thread Cert.KernelIdeal.nD Cert.KernelIdeal.τ).loc Cert.KernelIdeal.main_arg1) := by
    rw [Vk5_v1]; exact e11
  obtain ⟨T0, h0, s0⟩ := out0_total (Vk1 m) c (by rw [e10]; exact hX)
  obtain ⟨T1, h1, s1⟩ := out1_total (Vk3 m) c (by rw [e31]; exact hY)
  obtain ⟨T2, h2, s2⟩ := out2_total (Vk5 m) c
  rw [e10] at s0
  rw [e31] at s1
  rw [e50, e51] at s2
  exact tail_eq _ _ (Cert.KernelIdeal.Hand.O0 m c) (Cert.KernelIdeal.Hand.O1 m c) (Cert.KernelIdeal.Hand.O2 m c)
    T0 T1 T2 h0 h1 h2 s0 s1 s2

end Cert.Kern

end
-- ==== Proof.lean ====
/-
  The certificate of the Gaussian-kernel MMD kernel against its reference.

  The reference computes, for each pair (a, b) of the argument arrays x, y : f32[8192, 512] among (x, x), (y, y),
  (x, y), the mean over all 8192 × 8192 pairs of rows of exp(-½ · max(|a_p|² + |b_q|² − 2 · ⟨a_p, b_q⟩, 0)), and
  returns mean(x, x) + mean(y, y) − 2 · mean(x, y).

  The kernel casts x and y to bf16 (the identity on the extended reals) and calls one pipelined routine three
  times over an 8 × 16 grid: at point (i, j) it takes rows 1024 i … of a and rows 512 j … of b, forms the same
  exponentials for that 1024 × 512 block — with the entries where the global row equals the global column set to 1
  in the two calls where a is b —, sums them, and adds the sum into every cell of an 8 × 128 output block that
  stays resident for the 16 points of block-row i (zeroed at j = 0). On the host each output array is summed
  and divided by 1024 (each block sum sits in 1024 cells), then by the pair count, and the three means are combined
  as in the reference.

  Why the two agree at the ideal instance, for finite inputs: sums of extended reals may be regrouped freely, so
  the 8 · 16 · 1024 · 512 block-wise terms are the 8192 · 8192 terms of the reference; a 1024-fold sum divided by
  1024 is the summand; and on the diagonal of (x, x) the reference's exponent is
  -½ · max(s + s − 2 s, 0) = 0 for a FINITE squared norm s, so its value there is exp 0 = 1, the kernel's constant.
  Finiteness of the inputs is used exactly there.

  The three frames: the reference's is its run with the result dropped. The kernel's (word-level and idealized) go
  through the program as a chain of seven segments — four host stretches and the three pipelined calls —, each
  call entered with its arrays split out of the core's buffers (two of the calls read ONE array through both input
  windows: its share is halved between them) and left with only its output array changed.
-/
import proofs.«165426_j87875030876301_2_alg».proof.Defs
import proofs.«165426_j87875030876301_2_alg».proof.Proof.Gen.Kernel
import proofs.«165426_j87875030876301_2_alg».proof.Proof.Gen.KernelIdeal
import proofs.«165426_j87875030876301_2_alg».proof.Proof.Gen.ReferenceIdeal
import proofs.«165426_j87875030876301_2_alg».proof.Proof.Gen.Pre_finite_inputs
import proofs.«165426_j87875030876301_2_alg».proof.Proof.KBRes
import proofs.«165426_j87875030876301_2_alg».proof.Proof.KIRes
import proofs.«165426_j87875030876301_2_alg».proof.Proof.RefSide
import proofs.«165426_j87875030876301_2_alg».proof.Proof.KernValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame (F := Bits) m ρ
/-- So does the idealized kernel. -/
theorem frame_ki : Cert.frame_KernelIdeal := fun m ρ _ => Cert.KernelIdeal.Hand.frame (F := Ideal) m ρ

/-- At the ideal instance the kernel's result and the reference's are one number: the kernel's run ends with its
    result at the host operations' value of the three output arrays, which is the specification's value of the two
    arguments when these are finite; the reference's run ends at the specification's value of its arguments, which
    agree with the kernel's. -/
theorem algebraic : Cert.algebraic_KernelIdeal_ReferenceIdeal := by
  intro m g m' g' hpre hagree
  refine ⟨fun c _ => Cert.MMD.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.Kern.kernel_value m hpre c), (h c).2⟩)
      (Cert.KernelIdeal.Hand.run_value (F := Ideal) m g)
  · exact (θ_run (Cert.ReferenceIdeal.defs (F := Ideal)) _ _).mono
      (fun _ h c => ⟨by rw [(h c).1, (hagree c).1, (hagree c).2]; rfl, (h c).2⟩)
      (Cert.MMD.RefSide.ref_run m' g')

theorem claim : Cert.Claim := ⟨Cert.Kernel.Gen.facts, Cert.KernelIdeal.Gen.facts, Cert.ReferenceIdeal.Gen.facts, Cert.Pre_finite_inputs.Gen.facts,
  frame_k, frame_ki, Cert.MMD.RefSide.frame_ri, trivial, algebraic⟩

end Cert.Proof

end
